-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S16384x1024 : Shape := ⟨2, ![16384, 1024]⟩
abbrev S1024x192 : Shape := ⟨2, ![1024, 192]⟩
abbrev S16384x192 : Shape := ⟨2, ![16384, 192]⟩
abbrev S2048x1024 : Shape := ⟨2, ![2048, 1024]⟩
abbrev S2048x192 : Shape := ⟨2, ![2048, 192]⟩
abbrev S16384x64 : Shape := ⟨2, ![16384, 64]⟩
abbrev S8x2048x64 : Shape := ⟨3, ![8, 2048, 64]⟩
abbrev S1x1024x64 : Shape := ⟨3, ![1, 1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S16384x1024, .f32⟩
  | .hbm, ⟨5, _⟩ => ⟨S1024x192, .f32⟩
  | .hbm, ⟨6, _⟩ => ⟨S16384x192, .bf16⟩
  | .hbm, ⟨7, _⟩ => ⟨S16384x64, .bf16⟩
  | .hbm, ⟨8, _⟩ => ⟨S8x2048x64, .bf16⟩
  | .hbm, ⟨9, _⟩ => ⟨S16384x64, .bf16⟩
  | .hbm, ⟨10, _⟩ => ⟨S8x2048x64, .bf16⟩
  | .hbm, ⟨11, _⟩ => ⟨S16384x64, .bf16⟩
  | .hbm, ⟨12, _⟩ => ⟨S8x2048x64, .bf16⟩
  | .hbm, ⟨13, _⟩ => ⟨S8x2048x64, .f32⟩
  | .local _ .vmem, ⟨0, _⟩ => ⟨S2048x1024, .f32⟩
  | .local _ .vmem, ⟨1, _⟩ => ⟨S2048x1024, .f32⟩
  | .local _ .vmem, ⟨2, _⟩ => ⟨S1024x192, .f32⟩
  | .local _ .vmem, ⟨3, _⟩ => ⟨S2048x192, .bf16⟩
  | .local _ .vmem, ⟨4, _⟩ => ⟨S2048x192, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .f32⟩
  | .local _ .vmem, ⟨12, _⟩ => ⟨S1x1024x64, .f32⟩
  | .local _ .vmem, ⟨13, _⟩ => ⟨S1024x1, .f32⟩
  | .local _ .vmem, ⟨14, _⟩ => ⟨S1024x1, .f32⟩
  | .local _ .vmem, ⟨15, _⟩ => ⟨S1024x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 2], ![false, false, false]⟩

def k1_cond3 (i : grid1.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x1024_S16384x1024 : S8x2048x1024.ShapeCasts S16384x1024
  concatenates_S1024x64_S1024x64_S1024x64_S1024x192_d1 : Shape.Concatenates [S1024x64, S1024x64, S1024x64] S1024x192 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  inb_S2048x192_S2048x192_0_0 : ∀ a, (![0, 0] : Fin 2 → Nat) a + S2048x192.size a ≤ S2048x192.size a
  h_S2048x192 : 0 < S2048x192.numel
  packedbf16_S2048x192_S2048x192_0_0 : (Rect.unit (s := S2048x192) ![0, 0] S2048x192.size inb_S2048x192_S2048x192_0_0).PackedRows (EltTy.packing .bf16)
  slices_S16384x192_S16384x64_0_0 : S16384x192.Slices ![0, 0] S16384x64
  shapeCasts_S16384x64_S8x2048x64 : S16384x64.ShapeCasts S8x2048x64
  slices_S16384x192_S16384x64_0_64 : S16384x192.Slices ![0, 64] S16384x64
  slices_S16384x192_S16384x64_0_128 : S16384x192.Slices ![0, 128] S16384x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  dot_S2048x1024_S1024x192_S2048x192_1_0_0_1_n_n_wf : DotDims.WF S2048x1024 S1024x192 S2048x192 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x192.size a ≤ S16384x192.size a
  hwx0_2 : ∀ i : grid0.Coords, EltTy.bits .bf16 = 32 ∨ (Rect.block (s := S16384x192) S2048x192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S8x2048x64.size a
  hwx1_0 : ∀ i : grid1.Coords, EltTy.bits .bf16 = 32 ∨ (Rect.block (s := S8x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S8x2048x64.size a
  hwx1_1 : ∀ i : grid1.Coords, EltTy.bits .bf16 = 32 ∨ (Rect.block (s := S8x2048x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S8x2048x64.size a
  hwx1_2 : ∀ i : grid1.Coords, EltTy.bits .bf16 = 32 ∨ (Rect.block (s := S8x2048x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S8x2048x64.size a
  hwx1_3 : ∀ i : grid1.Coords, EltTy.bits .f32 = 32 ∨ (Rect.block (s := S8x2048x64) S1x1024x64.size (cc1_transform_3 i) (hinb1_3 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S_ : Shape := ⟨0, ![]⟩
abbrev S8x2048x2048 : Shape := ⟨3, ![8, 2048, 2048]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .i1⟩
  | .hbm, ⟨14, _⟩ => ⟨S2048x2048, .i1⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .i1⟩
  | .hbm, ⟨22, _⟩ => ⟨S2048x2048, .i1⟩
  | .hbm, ⟨23, _⟩ => ⟨S2048x2048, .i1⟩
  | .hbm, ⟨24, _⟩ => ⟨S_, .f32⟩
  | .hbm, ⟨25, _⟩ => ⟨S8x2048x2048, .i1⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v8 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.ProjBody.lean ====
/-
  The projection region at a parameter `V` (the buffers' contents when the region is entered): each window's block at a
  grid point, what the body leaves in the output block (the product of the row block of the flattened input with the
  three weight matrices side by side), the body's triple, the region's proof data and its body obligation.
-/
import proofs.«126090_j73151882985755_2_alg».proof.Proof.Gen.KernelIdeal.Launch
import proofs.«126090_j73151882985755_2_alg».proof.Proof.Gen.KernelIdeal.Skeleton
import proofs.«126090_j73151882985755_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one rectangle per buffer: the whole block. -/
abbrev rX : Rect S2048x1024 := Rect.unit (s := S2048x1024) ![0, 0] S2048x1024.size inb_S2048x1024_S2048x1024_0_0
abbrev rW : Rect S1024x192 := Rect.unit (s := S1024x192) ![0, 0] S1024x192.size inb_S1024x192_S1024x192_0_0
abbrev rO : Rect S2048x192 := Rect.unit (s := S2048x192) ![0, 0] S2048x192.size inb_S2048x192_S2048x192_0_0

/-- The output block after the body, from the two input blocks. -/
def out0_2 (x0 : Vec F S2048x1024 .f32) (x1 : Vec F S1024x192 .f32) : Vec F S2048x192 .bf16 :=
  View.canon [⟨rO, k0_pay1 (View.ld x0 rX) (View.ld x1 rW)⟩]

theorem cover0_2 (p0 : Vec F S2048x192 .bf16) (y : S2048x192.Idx) :
    ∃ pc ∈ ([⟨rO, p0⟩] : List (View.Piece (Elt F) S2048x192 .bf16)), y ∈ pc.1.set :=
  View.cover_of_tiled [⟨rO, p0⟩] S2048x192.size (by rfl) y

set_option maxHeartbeats 2000000 in
/-- The body on whole staging memrefs: the inputs' contents are kept, the output block ends at `out0_2` of them. -/
theorem sound_kernel0 (c : Dev nD) (E : Set ℕ) (i : grid0.Coords) (arg1 : Memref sig .tc .vmem S2048x1024 .f32) (harg1 : arg1.IsWhole) (arg2 : Memref sig .tc .vmem S1024x192 .f32) (harg2 : arg2.IsWhole) (arg3 : Memref sig .tc .vmem S2048x192 .bf16) (harg3 : arg3.IsWhole)
    (x0 : Vec F S2048x1024 .f32) (x1 : Vec F S1024x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The projection region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Gen.Hand

end
-- ==== Proof.FlashShared.lean ====
/-
  The attention region's body, case by case: the three branch conditions of the flash body as functions of the grid
  point (the key tile is the first one; the key tile is not above the query tile; the key tile is the last one), where
  the output window is idle, the staging and scratch memrefs the body is called with, and the region's resting
  invariant with the three carried accumulators (running row maximum, running denominator, running numerator) named.
-/
import proofs.«126090_j73151882985755_2_alg».proof.Proof.Gen.KernelIdeal.Launch
import proofs.«126090_j73151882985755_2_alg».proof.Proof.Gen.KernelIdeal.Skeleton
import proofs.«126090_j73151882985755_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions over the grid (batch, query tile, key tile) -/

/-- The key tile is the first (the accumulators are reset). -/
abbrev cond1 (i : grid1.Coords) : Prop := (Scalar.cmpi .ne (Scalar.extui (Scalar.cmpi .eq (BitVec.ofNat 32 (i 2).val) 0#32)) 0#32) = 1#1
/-- The key tile is not above the query tile (the tile contributes). -/
abbrev cond2 (i : grid1.Coords) : Prop := (Scalar.cmpi .ne (Scalar.extui (Scalar.cmpi .sle (BitVec.ofNat 32 (i 2).val) (BitVec.ofNat 32 (i 1).val))) 0#32) = 1#1
/-- The key tile is the last (the quotient is written out). -/
abbrev cond3 (i : grid1.Coords) : Prop := k1_cond3 i = 1#1

theorem hcond1 : ∀ t : Fin cfg1.N, cond1 (grid1.coords t) ↔ t.val % 2 = 0 :=
  (by decide +kernel : ∀ t : Fin grid1.N, cond1 (grid1.coords t) ↔ t.val % 2 = 0)
theorem hcond2 : ∀ t : Fin cfg1.N, cond2 (grid1.coords t) ↔ t.val % 4 ≠ 1 :=
  (by decide +kernel : ∀ t : Fin grid1.N, cond2 (grid1.coords t) ↔ t.val % 4 ≠ 1)
theorem hcond3 : ∀ t : Fin cfg1.N, cond3 (grid1.coords t) ↔ t.val % 2 = 1 :=
  (by decide +kernel : ∀ t : Fin grid1.N, cond3 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the key tile is not the last the output window is idle and not written back. -/
theorem idleAt1_3 : ∀ t : Fin cfg1.N, ¬cond3 (grid1.coords t) → cfg1.idle 3 (grid1.coords t) = true := by decide +kernel
theorem noFlush1_3 : ∀ t : Fin cfg1.N, ¬cond3 (grid1.coords t) → (cfg1.win 3).flush t = false := by decide +kernel
theorem liveAt1_3 : ∀ t : Fin cfg1.N, cond3 (grid1.coords t) → cfg1.idle 3 (grid1.coords t) = false := by decide +kernel

/-! ## The memrefs the body is called with -/

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The carried accumulators: running row maximum, running denominator, running numerator. -/
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2
/-- One staging buffer of the output window, through which its contents are stated. -/
abbrev VO : View sig .tc .vmem S1x1024x64 .f32 := (Memref.whole cc1_stg3_0 : Memref sig .tc .vmem S1x1024x64 .f32).view

/-- The projection region's staging buffers, which the attention region never touches. -/
def otherStage (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's resting invariant with the three accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

end Cert.KernelIdeal.Gen.Hand

end
-- ==== Proof.FlashRunA.lean ====
/-
  The flash body where the key tile is the first and contributes, and is not the last (query tile 0 or 1, key tile 0):
  the three accumulators are reset and then updated from the tile; the output window is left untouched.
-/
import proofs.«126090_j73151882985755_2_alg».proof.Proof.FlashShared

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run in this case as a triple over whole memrefs: the three input blocks at their contents and handed
    back, the output block handed back untouched, each accumulator — at anything before — left with the pieces the
    run's stores wrote (the witness the symbolic run finds). -/
noncomputable def kernelRunA (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc1 : cond1 i) (hc2 : cond2 i) (hc3 : ¬cond3 i)
    (x0 x1 x2 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%d7, %f7, -, HS0⟩, ⟨%d8, %f8, -, HS1⟩, ⟨%d9, %f9, -, HS2⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Gen.Hand

end
-- ==== Proof.FlashRunB.lean ====
/-
  The flash body where the key tile lies above the query tile and is the last (query tile 0, key tile 1): nothing is
  accumulated; the numerator is divided by the denominator row by row and written to the output block. The three
  accumulators are read and left as they were.
-/
import proofs.«126090_j73151882985755_2_alg».proof.Proof.FlashShared

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run in this case: the inputs and the three accumulators at their contents and handed back, the output
    block — at anything before — left with the pieces the run's store wrote. -/
noncomputable def kernelRunB (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc1 : ¬cond1 i) (hc2 : ¬cond2 i) (hc3 : cond3 i)
    (x0 x1 x2 : Vec F S1x1024x64 .bf16) (xs0 xs1 : Vec F S1024x1 .f32) (xs2 : Vec F S1024x64 .f32) :
    { L3 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%f7, %hf7, HS0⟩, ⟨%f8, %hf8, HS1⟩, ⟨%f9, %hf9, HS2⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Gen.Hand

end
-- ==== Proof.FlashRunD.lean ====
/-
  The flash body where the key tile is the diagonal one and the last (query tile 1, key tile 1): the accumulators
  the previous tile left are updated from this tile, then the numerator is divided by the denominator row by row and
  written to the output block.
-/
import proofs.«126090_j73151882985755_2_alg».proof.Proof.FlashShared

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run in this case: the inputs at their contents and handed back, the three accumulators at what the
    point before left, each left with the pieces the run's stores wrote, the output block — at anything before —
    likewise. -/
noncomputable def kernelRunD (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc1 : ¬cond1 i) (hc2 : cond2 i) (hc3 : cond3 i)
    (x0 x1 x2 : Vec F S1x1024x64 .bf16) (xs0 xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%f7, %hf7, HS0⟩, ⟨%f8, %hf8, HS1⟩, ⟨%f9, %hf9, HS2⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Gen.Hand

end
-- ==== Proof.FlashData.lean ====
/-
  The attention region at a parameter `V` (the buffers' contents when the region is entered): what the output block
  and the three carried accumulators hold after each grid point, by recursion on the point — at a first key tile the
  accumulators restart from the tile, at a diagonal last tile they continue from what the point before left and the
  quotient is written, at a last tile above the diagonal only the quotient is written —, the region's proof data with
  the accumulators named in its invariant, and the body obligation, case by case.
-/
import proofs.«126090_j73151882985755_2_alg».proof.Proof.FlashRunA
import proofs.«126090_j73151882985755_2_alg».proof.Proof.FlashRunB
import proofs.«126090_j73151882985755_2_alg».proof.Proof.FlashRunD

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The cases over the grid: which residues of the point each case is -/

theorem cA1 (t : Fin cfg1.N) (h : t.val % 2 = 0) : cond1 (grid1.coords t) := (hcond1 t).mpr h
theorem cA2 (t : Fin cfg1.N) (h : t.val % 2 = 0) : cond2 (grid1.coords t) := (hcond2 t).mpr (by omega)
theorem cA3 (t : Fin cfg1.N) (h : t.val % 2 = 0) : ¬cond3 (grid1.coords t) := fun h' => by have := (hcond3 t).mp h'; omega
theorem cB1 (t : Fin cfg1.N) (h : t.val % 4 = 1) : ¬cond1 (grid1.coords t) := fun h' => by have := (hcond1 t).mp h'; omega
theorem cB2 (t : Fin cfg1.N) (h : t.val % 4 = 1) : ¬cond2 (grid1.coords t) := fun h' => ((hcond2 t).mp h') h
theorem cB3 (t : Fin cfg1.N) (h : t.val % 4 = 1) : cond3 (grid1.coords t) := (hcond3 t).mpr (by omega)
theorem cD1 (t : Fin cfg1.N) (h : t.val % 4 = 3) : ¬cond1 (grid1.coords t) := fun h' => by have := (hcond1 t).mp h'; omega
theorem cD2 (t : Fin cfg1.N) (h : t.val % 4 = 3) : cond2 (grid1.coords t) := (hcond2 t).mpr (by omega)
theorem cD3 (t : Fin cfg1.N) (h : t.val % 4 = 3) : cond3 (grid1.coords t) := (hcond3 t).mpr (by omega)

/-! ## What a point leaves: the output block, the row maximum, the denominator, the numerator -/

abbrev VS0 : View sig .tc .vmem S1024x1 .f32 := scM.view
abbrev VS1 : View sig .tc .vmem S1024x1 .f32 := scL.view
abbrev VS2 : View sig .tc .vmem S1024x64 .f32 := scA.view

/-- The contents after a point: output block, running row maximum, running denominator, running numerator. -/
abbrev St (F : FTy → Type) : Type := Vec F S1x1024x64 .f32 × Vec F S1024x1 .f32 × Vec F S1024x1 .f32 × Vec F S1024x64 .f32

/-- A first key tile: the accumulators restart from the tile; the output block is not consulted. -/
def stA (c : Dev nD) (t : Fin cfg1.N) (h : t.val % 2 = 0) : St F :=
  (VO.read (Elt F) (VO.writes (Elt F) VO.junk []),
   VS0.read (Elt F) (VS0.writes (Elt F) VS0.junk (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).1),
   VS1.read (Elt F) (VS1.writes (Elt F) VS1.junk (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).2.1),
   VS2.read (Elt F) (VS2.writes (Elt F) VS2.junk (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).2.2.1))

/-- A last key tile above the diagonal: the quotient of what the point before left; the accumulators unchanged. -/
def stB (c : Dev nD) (t : Fin cfg1.N) (h : t.val % 4 = 1) (p : St F) : St F :=
  (VO.read (Elt F) (VO.writes (Elt F) VO.junk (kernelRunB c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cB1 t h) (cB2 t h) (cB3 t h) (iblk1 V c 0 t) (iblk1 V c 1 t) (iblk1 V c 2 t) p.2.1 p.2.2.1 p.2.2.2).1),
   p.2.1, p.2.2.1, p.2.2.2)

/-- A diagonal last key tile: the accumulators continue from what the point before left, and their quotient. -/
def stD (c : Dev nD) (t : Fin cfg1.N) (h : t.val % 4 = 3) (p : St F) : St F :=
  (VO.read (Elt F) (VO.writes (Elt F) VO.junk (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).1),
   VS0.read (Elt F) (VS0.writes (Elt F) VS0.junk (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.1),
   VS1.read (Elt F) (VS1.writes (Elt F) VS1.junk (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.2.1),
   VS2.read (Elt F) (VS2.writes (Elt F) VS2.junk (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.2.2.1))

/-! ## The pieces cover their buffers -/

theorem scoverA_0 (c : Dev nD) (t : Fin cfg1.N) (h : t.val % 2 = 0) (y : S1024x1.Idx) :
    ∃ pc ∈ (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).1, y ∈ pc.1.set :=
  View.cover_of_tiledL _ S1024x1.size (by sl_kernel_rfl) y
theorem scoverA_1 (c : Dev nD) (t : Fin cfg1.N) (h : t.val % 2 = 0) (y : S1024x1.Idx) :
    ∃ pc ∈ (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).2.1, y ∈ pc.1.set :=
  View.cover_of_tiledL _ S1024x1.size (by sl_kernel_rfl) y
theorem scoverA_2 (c : Dev nD) (t : Fin cfg1.N) (h : t.val % 2 = 0) (y : S1024x64.Idx) :
    ∃ pc ∈ (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).2.2.1, y ∈ pc.1.set :=
  View.cover_of_tiledL _ S1024x64.size (by sl_kernel_rfl) y
theorem coverB_3 (c : Dev nD) (t : Fin cfg1.N) (h : t.val % 4 = 1) (p : St F) (y : S1x1024x64.Idx) :
    ∃ pc ∈ (kernelRunB c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cB1 t h) (cB2 t h) (cB3 t h) (iblk1 V c 0 t) (iblk1 V c 1 t) (iblk1 V c 2 t) p.2.1 p.2.2.1 p.2.2.2).1, y ∈ pc.1.set :=
  View.cover_of_tiledL _ S1x1024x64.size (by sl_kernel_rfl) y
theorem coverD_3 (c : Dev nD) (t : Fin cfg1.N) (h : t.val % 4 = 3) (p : St F) (y : S1x1024x64.Idx) :
    ∃ pc ∈ (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).1, y ∈ pc.1.set :=
  View.cover_of_tiledL _ S1x1024x64.size (by sl_kernel_rfl) y
theorem scoverD_0 (c : Dev nD) (t : Fin cfg1.N) (h : t.val % 4 = 3) (p : St F) (y : S1024x1.Idx) :
    ∃ pc ∈ (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.1, y ∈ pc.1.set :=
  View.cover_of_tiledL _ S1024x1.size (by sl_kernel_rfl) y
theorem scoverD_1 (c : Dev nD) (t : Fin cfg1.N) (h : t.val % 4 = 3) (p : St F) (y : S1024x1.Idx) :
    ∃ pc ∈ (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.2.1, y ∈ pc.1.set :=
  View.cover_of_tiledL _ S1024x1.size (by sl_kernel_rfl) y
theorem scoverD_2 (c : Dev nD) (t : Fin cfg1.N) (h : t.val % 4 = 3) (p : St F) (y : S1024x64.Idx) :
    ∃ pc ∈ (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.2.2.1, y ∈ pc.1.set :=
  View.cover_of_tiledL _ S1024x64.size (by sl_kernel_rfl) y

/-! ## The accumulation over the grid -/

/-- What the output block and the accumulators hold after the point at position `n`. -/
def outsAt1 (c : Dev nD) : (n : ℕ) → n < cfg1.N → St F
  | 0, hn => stA V c ⟨0, hn⟩ (Nat.zero_mod _)
  | n + 1, hn =>
    if h0 : (n + 1) % 2 = 0 then stA V c ⟨n + 1, hn⟩ h0
    else if h1 : (n + 1) % 4 = 1 then stB V c ⟨n + 1, hn⟩ h1 (outsAt1 c n (Nat.lt_of_succ_lt hn))
    else stD V c ⟨n + 1, hn⟩ (by show (n + 1) % 4 = 3; omega) (outsAt1 c n (Nat.lt_of_succ_lt hn))

theorem outsAt1_A (c : Dev nD) (t : Fin cfg1.N) (h : t.val % 2 = 0) : outsAt1 V c t.val t.isLt = stA V c t h := by
  obtain ⟨n, hn⟩ := t
  cases n with
  | zero => rfl
  | succ n => exact dif_pos h

theorem outsAt1_B (c : Dev nD) (t : Fin cfg1.N) (h : t.val % 4 = 1) :
    outsAt1 V c t.val t.isLt = stB V c t h (outsAt1 V c (t.val - 1) (Nat.lt_of_le_of_lt (Nat.sub_le _ _) t.isLt)) := by
  obtain ⟨n, hn⟩ := t
  cases n with
  | zero => exact absurd h (by show ¬ (0 % 4 = 1); decide)
  | succ n => exact (dif_neg (by dsimp only at h; omega)).trans (dif_pos h)

theorem outsAt1_D (c : Dev nD) (t : Fin cfg1.N) (h : t.val % 4 = 3) :
    outsAt1 V c t.val t.isLt = stD V c t h (outsAt1 V c (t.val - 1) (Nat.lt_of_le_of_lt (Nat.sub_le _ _) t.isLt)) := by
  obtain ⟨n, hn⟩ := t
  cases n with
  | zero => exact absurd h (by show ¬ (0 % 4 = 3); decide)
  | succ n => exact (dif_neg (by dsimp only at h; omega)).trans (dif_neg (by dsimp only at h; omega))

/-! ## The region's invariant, with the accumulators named -/

/-- The projection region's staging buffers at anything, three propositions about the accumulators, the generator
    register at some state. -/
def restAt (c : Dev nD) (P0 P1 P2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ P0 ∗ P1 ∗ P2) ∗ (∃ r, prngReg c r))

theorem PhiA1_rest (c : Dev nD) :
    (Pipeline.ΦA spec1 c : sProp 𝕄) = restAt c (iprop(∃ d, owns (c : Thread nD τ) scM fullShare d)) (iprop(∃ d, owns (c : Thread nD τ) scL fullShare d)) (iprop(∃ d, owns (c : Thread nD τ) scA fullShare d)) := by
  rw [PhiA1_eq]; rfl

/-- Before the first point the resting invariant; after a point the accumulators at what it left. -/
def PhiS (c : Dev nD) : (n : ℕ) → n ≤ cfg1.N → sProp 𝕄
  | 0, _ => Pipeline.ΦA spec1 c
  | n + 1, hn => restAt c (owns (c : Thread nD τ) scM fullShare (outsAt1 V c n hn).2.1) (owns (c : Thread nD τ) scL fullShare (outsAt1 V c n hn).2.2.1) (owns (c : Thread nD τ) scA fullShare (outsAt1 V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = restAt c (owns (c : Thread nD τ) scM fullShare (outsAt1 V c n hn).2.1) (owns (c : Thread nD τ) scL fullShare (outsAt1 V c n hn).2.2.1) (owns (c : Thread nD τ) scA fullShare (outsAt1 V c n hn).2.2.2) := rfl

theorem PhiS_pos (c : Dev nD) (n : ℕ) (h : n ≤ cfg1.N) (hz : n ≠ 0) :
    PhiS V c n h = restAt c (owns (c : Thread nD τ) scM fullShare (outsAt1 V c (n - 1) (by omega)).2.1) (owns (c : Thread nD τ) scL fullShare (outsAt1 V c (n - 1) (by omega)).2.2.1) (owns (c : Thread nD τ) scA fullShare (outsAt1 V c (n - 1) (by omega)).2.2.2) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Gen.Hand

end
-- ==== Proof.Boundaries.lean ====
/-
  The buffers' contents at every boundary between the host stretches and the two regions, as a fold from the launch
  memory: after the reshape of the input and the joining of the three weight matrices; after the projection region's
  write-backs; after the three column slices and their reshapes per batch; after the attention region's write-backs.
-/
import proofs.«126090_j73151882985755_2_alg».proof.Proof.ProjBody
import proofs.«126090_j73151882985755_2_alg».proof.Proof.FlashData

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

end Cert.KernelIdeal.Gen.Hand

end
-- ==== Proof.FlashBody.lean ====
/-
  The attention region's body obligation: at each grid point the body is called with the three input blocks at their
  contents, the output block, and the invariant holding the accumulators at what the point before left; case by case
  the run applies and hands back the accumulators at what this point leaves.
-/
import proofs.«126090_j73151882985755_2_alg».proof.Proof.FlashData

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3_live (c : Dev nD) (t : Fin cfg1.N) (h : cond3 (grid1.coords t)) : (dat1 V c).leavesExact 3 t = owns (c : Thread nD τ) (ms1_3 t) fullShare ((outsAt1 V c t.val t.isLt).1) := by
  unfold Dat.leavesExact; rw [liveAt1_3 t h, after1_3]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 32 := lt_of_lt_of_eq t.isLt (show cfg1.N = 32 from N_1)
  by_cases h0 : t.val % 2 = 0
  · -- a first key tile
    rw [Dat.leavesExact_idle (dat1 V c) 3 t (idleAt1_3 t (cA3 t h0)) (noFlush1_3 t (cA3 t h0))]
    rw [outsAt1_A V c t h0]
    unfold stA; (try dsimp only)
    by_cases hz : t.val = 0
    · rw [PhiS_castSucc V c t, PhiS_zero V c _ _ hz, PhiA1_rest]; unfold restAt
      iintro ⟨⟨⟨HA0, HA1, HA2, HA3, HA4, HS0, HS1, HS2⟩, Hg⟩, Ho, ⟨%d0, H0⟩, ⟨%d1, H1⟩, ⟨%d2, H2⟩, ⟨%d3, H3⟩⟩
      iapply ((kernelRunA c (grid1.coords t) _ _ _ _ _ _ _ _ _ _ _ _ _ _ (cA1 t h0) (cA2 t h0) (cA3 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HA0 HA1 HA2 HA3 HA4 HS0 HS1 HS2 Hg]
      · isplitr [Hg]
        · isplitl [HA0]; · iexact HA0
          isplitl [HA1]; · iexact HA1
          isplitl [HA2]; · iexact HA2
          isplitl [HA3]; · iexact HA3
          isplitl [HA4]; · iexact HA4
          isplitl [HS0]
          · unfold owns; iexists _; isplitr
            swap; · iexact HS0
            ipureintro; exact View.read_writes_of_cover _ _ _ _ _ (scoverA_0 V c t h0)
          isplitl [HS1]
          · unfold owns; iexists _; isplitr
            swap; · iexact HS1
            ipureintro; exact View.read_writes_of_cover _ _ _ _ _ (scoverA_1 V c t h0)
          unfold owns; iexists _; isplitr
          swap; · iexact HS2
          ipureintro; exact View.read_writes_of_cover _ _ _ _ _ (scoverA_2 V c t h0)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold restAt
      iintro ⟨⟨⟨HA0, HA1, HA2, HA3, HA4, HS0, HS1, HS2⟩, Hg⟩, Ho, ⟨%d0, H0⟩, ⟨%d1, H1⟩, ⟨%d2, H2⟩, ⟨%d3, H3⟩⟩
      iapply ((kernelRunA c (grid1.coords t) _ _ _ _ _ _ _ _ _ _ _ _ _ _ (cA1 t h0) (cA2 t h0) (cA3 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HA0 HA1 HA2 HA3 HA4 HS0 HS1 HS2 Hg]
      · isplitr [Hg]
        · isplitl [HA0]; · iexact HA0
          isplitl [HA1]; · iexact HA1
          isplitl [HA2]; · iexact HA2
          isplitl [HA3]; · iexact HA3
          isplitl [HA4]; · iexact HA4
          isplitl [HS0]
          · unfold owns; iexists _; isplitr
            swap; · iexact HS0
            ipureintro; exact View.read_writes_of_cover _ _ _ _ _ (scoverA_0 V c t h0)
          isplitl [HS1]
          · unfold owns; iexists _; isplitr
            swap; · iexact HS1
            ipureintro; exact View.read_writes_of_cover _ _ _ _ _ (scoverA_1 V c t h0)
          unfold owns; iexists _; isplitr
          swap; · iexact HS2
          ipureintro; exact View.read_writes_of_cover _ _ _ _ _ (scoverA_2 V c t h0)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 1
    · -- a last key tile above the diagonal
      rw [leaves1_3_live V c t (cB3 t h1)]
      rw [outsAt1_B V c t h1]
      unfold stB; (try dsimp only)
      rw [PhiS_castSucc V c t, PhiS_pos V c _ _ hz]; unfold restAt
      iintro ⟨⟨⟨HA0, HA1, HA2, HA3, HA4, HS0, HS1, HS2⟩, Hg⟩, Ho, ⟨%d0, H0⟩, ⟨%d1, H1⟩, ⟨%d2, H2⟩, ⟨%d3, H3⟩⟩
      iapply ((kernelRunB c (grid1.coords t) _ _ _ _ _ _ _ _ _ _ _ _ _ _ (cB1 t h1) (cB2 t h1) (cB3 t h1) (iblk1 V c 0 t) (iblk1 V c 1 t) (iblk1 V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [HA0 HA1 HA2 HA3 HA4 HS0 HS1 HS2 Hg]
      · isplitr [Hg]
        · isplitl [HA0]; · iexact HA0
          isplitl [HA1]; · iexact HA1
          isplitl [HA2]; · iexact HA2
          isplitl [HA3]; · iexact HA3
          isplitl [HA4]; · iexact HA4
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_3 V c t h1 _)
    · -- a diagonal last key tile
      have h3 : t.val % 4 = 3 := by omega
      rw [leaves1_3_live V c t (cD3 t h3)]
      rw [outsAt1_D V c t h3]
      unfold stD; (try dsimp only)
      rw [PhiS_castSucc V c t, PhiS_pos V c _ _ hz]; unfold restAt
      iintro ⟨⟨⟨HA0, HA1, HA2, HA3, HA4, HS0, HS1, HS2⟩, Hg⟩, Ho, ⟨%d0, H0⟩, ⟨%d1, H1⟩, ⟨%d2, H2⟩, ⟨%d3, H3⟩⟩
      iapply ((kernelRunD c (grid1.coords t) _ _ _ _ _ _ _ _ _ _ _ _ _ _ (cD1 t h3) (cD2 t h3) (cD3 t h3) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HA0 HA1 HA2 HA3 HA4 HS0 HS1 HS2 Hg]
      · isplitr [Hg]
        · isplitl [HA0]; · iexact HA0
          isplitl [HA1]; · iexact HA1
          isplitl [HA2]; · iexact HA2
          isplitl [HA3]; · iexact HA3
          isplitl [HA4]; · iexact HA4
          isplitl [HS0]
          · unfold owns; iexists _; isplitr
            swap; · iexact HS0
            ipureintro; exact View.read_writes_of_cover _ _ _ _ _ (scoverD_0 V c t h3 _)
          isplitl [HS1]
          · unfold owns; iexists _; isplitr
            swap; · iexact HS1
            ipureintro; exact View.read_writes_of_cover _ _ _ _ _ (scoverD_1 V c t h3 _)
          unfold owns; iexists _; isplitr
          swap; · iexact HS2
          ipureintro; exact View.read_writes_of_cover _ _ _ _ _ (scoverD_2 V c t h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverD_3 V c t h3 _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the resting one back: the accumulators' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_rest]
  unfold restAt
  iintro ⟨⟨HA0, HA1, HA2, HA3, HA4, HS0, HS1, HS2⟩, Hg⟩
  isplitr [Hg]
  · isplitl [HA0]; · iexact HA0
    isplitl [HA1]; · iexact HA1
    isplitl [HA2]; · iexact HA2
    isplitl [HA3]; · iexact HA3
    isplitl [HA4]; · iexact HA4
    isplitl [HS0]; · iexists _; iexact HS0
    isplitl [HS1]; · iexists _; iexact HS1
    iexists _; iexact HS2
  iexact Hg

end Cert.KernelIdeal.Gen.Hand

end
-- ==== Proof.MainRun.lean ====
/-
  The whole program as a run: the buffers' contents at every boundary between the host stretches and the two regions
  (a fold from the launch memory: the reshape and the joining of the three weight matrices; the projection region's
  write-backs; the three column slices reshaped per batch; the attention region's write-backs), each region's proof
  data at its entry contents, each region as a segment over "every unscoped buffer at the boundary's contents", and the
  run's conclusion: every weakly fair execution terminates with every unscoped buffer at the last boundary's contents.
-/
import proofs.«126090_j73151882985755_2_alg».proof.Proof.Boundaries
import proofs.«126090_j73151882985755_2_alg».proof.Proof.FlashBody
import proofs.«126090_j73151882985755_2_alg».proof.Proof.Gen.KernelIdeal.Regions

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev admX : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    refine BIBase.Entails.trans (hout1 (V3 m ρ) c) ?_; rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs' : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs' m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Gen.Hand

end
-- ==== Proof.Frames.lean ====
/-
  The run read at the argument arrays and at the result: no host stretch writes an argument and no region stages one as
  an output, so each argument ends at its launch contents; the result array ends at what the attention region's
  write-backs leave.
-/
import proofs.«126090_j73151882985755_2_alg».proof.Proof.MainRun

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer that no host stretch writes and that is no window's array of either region ends at its launch contents. -/
theorem W4_kept (c : Dev nD) (b : Ref sig .tc) (h0 : b ∉ hostOps0_W) (h1 : b ∉ hostOps1_W)
    (hn0 : ∀ w, Pipeline.arrRef spec0 w ≠ b) (hn1 : ∀ w, Pipeline.arrRef spec1 w ≠ b) :
    W4 m ρ c (Proc.devRef .tc b) = m ((c : Thread nD τ).loc b) :=
  (W4_of_ne m ρ c b hn1).trans ((StableHlo.after_of_writes_sub hostOps1 _ hostOps1_writes h1).trans
    ((W2_of_ne m ρ c b hn0).trans ((StableHlo.after_of_writes_sub hostOps0 _ hostOps0_writes h0).trans rfl)))

theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)

/-- The result array ends at the attention region's output array after its last point. -/
theorem W4_main_v9 (c : Dev nD) : W4 m ρ c (Proc.devRef .tc main_v9) = (dat1 (V3 m ρ) c).arrAt 3 cfg1.N :=
  W4_arr m ρ c 3

/-- The run, read at the result and at the four arguments. -/
theorem run_read : θ_run defs (onTc (τ := τ) (main (F := F))) ⟨m, fun _ => 0, ρ⟩ (fun r => ∀ c : Dev nD,
      r.2.mem ((c.tc : Thread nD τ).loc main_v9) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v9 (by decide))).trans (W4_main_v9 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_read m ρ)

end Cert.KernelIdeal.Gen.Hand

end
-- ==== Proof.BitsProjBody.lean ====
/-
  The projection region at a parameter `V` (the buffers' contents when the region is entered): each window's block at a
  grid point, what the body leaves in the output block (the product of the row block of the flattened input with the
  three weight matrices side by side), the body's triple, the region's proof data and its body obligation.
-/
import proofs.«126090_j73151882985755_2_alg».proof.Proof.Gen.Kernel.Launch
import proofs.«126090_j73151882985755_2_alg».proof.Proof.Gen.Kernel.Skeleton
import proofs.«126090_j73151882985755_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one rectangle per buffer: the whole block. -/
abbrev rX : Rect S2048x1024 := Rect.unit (s := S2048x1024) ![0, 0] S2048x1024.size inb_S2048x1024_S2048x1024_0_0
abbrev rW : Rect S1024x192 := Rect.unit (s := S1024x192) ![0, 0] S1024x192.size inb_S1024x192_S1024x192_0_0
abbrev rO : Rect S2048x192 := Rect.unit (s := S2048x192) ![0, 0] S2048x192.size inb_S2048x192_S2048x192_0_0

/-- The output block after the body, from the two input blocks. -/
def out0_2 (x0 : Vec F S2048x1024 .f32) (x1 : Vec F S1024x192 .f32) : Vec F S2048x192 .bf16 :=
  View.canon [⟨rO, k0_pay1 (View.ld x0 rX) (View.ld x1 rW)⟩]

theorem cover0_2 (p0 : Vec F S2048x192 .bf16) (y : S2048x192.Idx) :
    ∃ pc ∈ ([⟨rO, p0⟩] : List (View.Piece (Elt F) S2048x192 .bf16)), y ∈ pc.1.set :=
  View.cover_of_tiled [⟨rO, p0⟩] S2048x192.size (by rfl) y

set_option maxHeartbeats 2000000 in
/-- The body on whole staging memrefs: the inputs' contents are kept, the output block ends at `out0_2` of them. -/
theorem sound_kernel0 (c : Dev nD) (E : Set ℕ) (i : grid0.Coords) (arg1 : Memref sig .tc .vmem S2048x1024 .f32) (harg1 : arg1.IsWhole) (arg2 : Memref sig .tc .vmem S1024x192 .f32) (harg2 : arg2.IsWhole) (arg3 : Memref sig .tc .vmem S2048x192 .bf16) (harg3 : arg3.IsWhole)
    (x0 : Vec F S2048x1024 .f32) (x1 : Vec F S1024x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The projection region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Gen.Hand

end
-- ==== Proof.BitsFlashShared.lean ====
/-
  The attention region's body, case by case: the three branch conditions of the flash body as functions of the grid
  point (the key tile is the first one; the key tile is not above the query tile; the key tile is the last one), where
  the output window is idle, the staging and scratch memrefs the body is called with, and the region's resting
  invariant with the three carried accumulators (running row maximum, running denominator, running numerator) named.
-/
import proofs.«126090_j73151882985755_2_alg».proof.Proof.Gen.Kernel.Launch
import proofs.«126090_j73151882985755_2_alg».proof.Proof.Gen.Kernel.Skeleton
import proofs.«126090_j73151882985755_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid (batch, query tile, key tile) -/

/-- The key tile is the first (the accumulators are reset). -/
abbrev cond1 (i : grid1.Coords) : Prop := (Scalar.cmpi .ne (Scalar.extui (Scalar.cmpi .eq (BitVec.ofNat 32 (i 2).val) 0#32)) 0#32) = 1#1
/-- The key tile is not above the query tile (the tile contributes). -/
abbrev cond2 (i : grid1.Coords) : Prop := (Scalar.cmpi .ne (Scalar.extui (Scalar.cmpi .sle (BitVec.ofNat 32 (i 2).val) (BitVec.ofNat 32 (i 1).val))) 0#32) = 1#1
/-- The key tile is the last (the quotient is written out). -/
abbrev cond3 (i : grid1.Coords) : Prop := k1_cond3 i = 1#1

theorem hcond1 : ∀ t : Fin cfg1.N, cond1 (grid1.coords t) ↔ t.val % 2 = 0 :=
  (by decide +kernel : ∀ t : Fin grid1.N, cond1 (grid1.coords t) ↔ t.val % 2 = 0)
theorem hcond2 : ∀ t : Fin cfg1.N, cond2 (grid1.coords t) ↔ t.val % 4 ≠ 1 :=
  (by decide +kernel : ∀ t : Fin grid1.N, cond2 (grid1.coords t) ↔ t.val % 4 ≠ 1)
theorem hcond3 : ∀ t : Fin cfg1.N, cond3 (grid1.coords t) ↔ t.val % 2 = 1 :=
  (by decide +kernel : ∀ t : Fin grid1.N, cond3 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the key tile is not the last the output window is idle and not written back. -/
theorem idleAt1_3 : ∀ t : Fin cfg1.N, ¬cond3 (grid1.coords t) → cfg1.idle 3 (grid1.coords t) = true := by decide +kernel
theorem noFlush1_3 : ∀ t : Fin cfg1.N, ¬cond3 (grid1.coords t) → (cfg1.win 3).flush t = false := by decide +kernel
theorem liveAt1_3 : ∀ t : Fin cfg1.N, cond3 (grid1.coords t) → cfg1.idle 3 (grid1.coords t) = false := by decide +kernel

/-! ## The memrefs the body is called with -/

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The carried accumulators: running row maximum, running denominator, running numerator. -/
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2
/-- One staging buffer of the output window, through which its contents are stated. -/
abbrev VO : View sig .tc .vmem S1x1024x64 .f32 := (Memref.whole cc1_stg3_0 : Memref sig .tc .vmem S1x1024x64 .f32).view

/-- The projection region's staging buffers, which the attention region never touches. -/
def otherStage (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's resting invariant with the three accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

end Cert.Kernel.Gen.Hand

end
-- ==== Proof.BitsFlashRunA.lean ====
/-
  The flash body where the key tile is the first and contributes, and is not the last (query tile 0 or 1, key tile 0):
  the three accumulators are reset and then updated from the tile; the output window is left untouched.
-/
import proofs.«126090_j73151882985755_2_alg».proof.Proof.BitsFlashShared

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case as a triple over whole memrefs: the three input blocks at their contents and handed
    back, the output block handed back untouched, each accumulator — at anything before — left with the pieces the
    run's stores wrote (the witness the symbolic run finds). -/
noncomputable def kernelRunA (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc1 : cond1 i) (hc2 : cond2 i) (hc3 : ¬cond3 i)
    (x0 x1 x2 : Vec F S1x1024x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%d7, %f7, -, HS0⟩, ⟨%d8, %f8, -, HS1⟩, ⟨%d9, %f9, -, HS2⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Gen.Hand

end
-- ==== Proof.BitsFlashRunB.lean ====
/-
  The flash body where the key tile lies above the query tile and is the last (query tile 0, key tile 1): nothing is
  accumulated; the numerator is divided by the denominator row by row and written to the output block. The three
  accumulators are read and left as they were.
-/
import proofs.«126090_j73151882985755_2_alg».proof.Proof.BitsFlashShared

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case: the inputs and the three accumulators at their contents and handed back, the output
    block — at anything before — left with the pieces the run's store wrote. -/
noncomputable def kernelRunB (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc1 : ¬cond1 i) (hc2 : ¬cond2 i) (hc3 : cond3 i)
    (x0 x1 x2 : Vec F S1x1024x64 .bf16) (xs0 xs1 : Vec F S1024x1 .f32) (xs2 : Vec F S1024x64 .f32) :
    { L3 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%f7, %hf7, HS0⟩, ⟨%f8, %hf8, HS1⟩, ⟨%f9, %hf9, HS2⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Gen.Hand

end
-- ==== Proof.BitsFlashRunD.lean ====
/-
  The flash body where the key tile is the diagonal one and the last (query tile 1, key tile 1): the accumulators
  the previous tile left are updated from this tile, then the numerator is divided by the denominator row by row and
  written to the output block.
-/
import proofs.«126090_j73151882985755_2_alg».proof.Proof.BitsFlashShared

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case: the inputs at their contents and handed back, the three accumulators at what the
    point before left, each left with the pieces the run's stores wrote, the output block — at anything before —
    likewise. -/
noncomputable def kernelRunD (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc1 : ¬cond1 i) (hc2 : cond2 i) (hc3 : cond3 i)
    (x0 x1 x2 : Vec F S1x1024x64 .bf16) (xs0 xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%f7, %hf7, HS0⟩, ⟨%f8, %hf8, HS1⟩, ⟨%f9, %hf9, HS2⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Gen.Hand

end
-- ==== Proof.BitsFlashData.lean ====
/-
  The attention region at a parameter `V` (the buffers' contents when the region is entered): what the output block
  and the three carried accumulators hold after each grid point, by recursion on the point — at a first key tile the
  accumulators restart from the tile, at a diagonal last tile they continue from what the point before left and the
  quotient is written, at a last tile above the diagonal only the quotient is written —, the region's proof data with
  the accumulators named in its invariant, and the body obligation, case by case.
-/
import proofs.«126090_j73151882985755_2_alg».proof.Proof.BitsFlashRunA
import proofs.«126090_j73151882985755_2_alg».proof.Proof.BitsFlashRunB
import proofs.«126090_j73151882985755_2_alg».proof.Proof.BitsFlashRunD

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The cases over the grid: which residues of the point each case is -/

theorem cA1 (t : Fin cfg1.N) (h : t.val % 2 = 0) : cond1 (grid1.coords t) := (hcond1 t).mpr h
theorem cA2 (t : Fin cfg1.N) (h : t.val % 2 = 0) : cond2 (grid1.coords t) := (hcond2 t).mpr (by omega)
theorem cA3 (t : Fin cfg1.N) (h : t.val % 2 = 0) : ¬cond3 (grid1.coords t) := fun h' => by have := (hcond3 t).mp h'; omega
theorem cB1 (t : Fin cfg1.N) (h : t.val % 4 = 1) : ¬cond1 (grid1.coords t) := fun h' => by have := (hcond1 t).mp h'; omega
theorem cB2 (t : Fin cfg1.N) (h : t.val % 4 = 1) : ¬cond2 (grid1.coords t) := fun h' => ((hcond2 t).mp h') h
theorem cB3 (t : Fin cfg1.N) (h : t.val % 4 = 1) : cond3 (grid1.coords t) := (hcond3 t).mpr (by omega)
theorem cD1 (t : Fin cfg1.N) (h : t.val % 4 = 3) : ¬cond1 (grid1.coords t) := fun h' => by have := (hcond1 t).mp h'; omega
theorem cD2 (t : Fin cfg1.N) (h : t.val % 4 = 3) : cond2 (grid1.coords t) := (hcond2 t).mpr (by omega)
theorem cD3 (t : Fin cfg1.N) (h : t.val % 4 = 3) : cond3 (grid1.coords t) := (hcond3 t).mpr (by omega)

/-! ## What a point leaves: the output block, the row maximum, the denominator, the numerator -/

abbrev VS0 : View sig .tc .vmem S1024x1 .f32 := scM.view
abbrev VS1 : View sig .tc .vmem S1024x1 .f32 := scL.view
abbrev VS2 : View sig .tc .vmem S1024x64 .f32 := scA.view

/-- The contents after a point: output block, running row maximum, running denominator, running numerator. -/
abbrev St (F : FTy → Type) : Type := Vec F S1x1024x64 .f32 × Vec F S1024x1 .f32 × Vec F S1024x1 .f32 × Vec F S1024x64 .f32

/-- A first key tile: the accumulators restart from the tile; the output block is not consulted. -/
def stA (c : Dev nD) (t : Fin cfg1.N) (h : t.val % 2 = 0) : St F :=
  (VO.read (Elt F) (VO.writes (Elt F) VO.junk []),
   VS0.read (Elt F) (VS0.writes (Elt F) VS0.junk (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).1),
   VS1.read (Elt F) (VS1.writes (Elt F) VS1.junk (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).2.1),
   VS2.read (Elt F) (VS2.writes (Elt F) VS2.junk (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).2.2.1))

/-- A last key tile above the diagonal: the quotient of what the point before left; the accumulators unchanged. -/
def stB (c : Dev nD) (t : Fin cfg1.N) (h : t.val % 4 = 1) (p : St F) : St F :=
  (VO.read (Elt F) (VO.writes (Elt F) VO.junk (kernelRunB c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cB1 t h) (cB2 t h) (cB3 t h) (iblk1 V c 0 t) (iblk1 V c 1 t) (iblk1 V c 2 t) p.2.1 p.2.2.1 p.2.2.2).1),
   p.2.1, p.2.2.1, p.2.2.2)

/-- A diagonal last key tile: the accumulators continue from what the point before left, and their quotient. -/
def stD (c : Dev nD) (t : Fin cfg1.N) (h : t.val % 4 = 3) (p : St F) : St F :=
  (VO.read (Elt F) (VO.writes (Elt F) VO.junk (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).1),
   VS0.read (Elt F) (VS0.writes (Elt F) VS0.junk (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.1),
   VS1.read (Elt F) (VS1.writes (Elt F) VS1.junk (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.2.1),
   VS2.read (Elt F) (VS2.writes (Elt F) VS2.junk (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.2.2.1))

/-! ## The pieces cover their buffers -/

theorem scoverA_0 (c : Dev nD) (t : Fin cfg1.N) (h : t.val % 2 = 0) (y : S1024x1.Idx) :
    ∃ pc ∈ (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).1, y ∈ pc.1.set :=
  View.cover_of_tiledL _ S1024x1.size (by sl_kernel_rfl) y
theorem scoverA_1 (c : Dev nD) (t : Fin cfg1.N) (h : t.val % 2 = 0) (y : S1024x1.Idx) :
    ∃ pc ∈ (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).2.1, y ∈ pc.1.set :=
  View.cover_of_tiledL _ S1024x1.size (by sl_kernel_rfl) y
theorem scoverA_2 (c : Dev nD) (t : Fin cfg1.N) (h : t.val % 2 = 0) (y : S1024x64.Idx) :
    ∃ pc ∈ (kernelRunA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cA1 t h) (cA2 t h) (cA3 t h) (iblk1 V c 0 t) (iblk1 V c 1 t) (iblk1 V c 2 t)).2.2.1, y ∈ pc.1.set :=
  View.cover_of_tiledL _ S1024x64.size (by sl_kernel_rfl) y
theorem coverB_3 (c : Dev nD) (t : Fin cfg1.N) (h : t.val % 4 = 1) (p : St F) (y : S1x1024x64.Idx) :
    ∃ pc ∈ (kernelRunB c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cB1 t h) (cB2 t h) (cB3 t h) (iblk1 V c 0 t) (iblk1 V c 1 t) (iblk1 V c 2 t) p.2.1 p.2.2.1 p.2.2.2).1, y ∈ pc.1.set :=
  View.cover_of_tiledL _ S1x1024x64.size (by sl_kernel_rfl) y
theorem coverD_3 (c : Dev nD) (t : Fin cfg1.N) (h : t.val % 4 = 3) (p : St F) (y : S1x1024x64.Idx) :
    ∃ pc ∈ (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).1, y ∈ pc.1.set :=
  View.cover_of_tiledL _ S1x1024x64.size (by sl_kernel_rfl) y
theorem scoverD_0 (c : Dev nD) (t : Fin cfg1.N) (h : t.val % 4 = 3) (p : St F) (y : S1024x1.Idx) :
    ∃ pc ∈ (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.1, y ∈ pc.1.set :=
  View.cover_of_tiledL _ S1024x1.size (by sl_kernel_rfl) y
theorem scoverD_1 (c : Dev nD) (t : Fin cfg1.N) (h : t.val % 4 = 3) (p : St F) (y : S1024x1.Idx) :
    ∃ pc ∈ (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.2.1, y ∈ pc.1.set :=
  View.cover_of_tiledL _ S1024x1.size (by sl_kernel_rfl) y
theorem scoverD_2 (c : Dev nD) (t : Fin cfg1.N) (h : t.val % 4 = 3) (p : St F) (y : S1024x64.Idx) :
    ∃ pc ∈ (kernelRunD c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (cD1 t h) (cD2 t h) (cD3 t h) (iblk1 V c 0 t) (iblk1 V c 1 t) (iblk1 V c 2 t) p.2.1 p.2.2.1 p.2.2.2).2.2.2.1, y ∈ pc.1.set :=
  View.cover_of_tiledL _ S1024x64.size (by sl_kernel_rfl) y

/-! ## The accumulation over the grid -/

/-- What the output block and the accumulators hold after the point at position `n`. -/
def outsAt1 (c : Dev nD) : (n : ℕ) → n < cfg1.N → St F
  | 0, hn => stA V c ⟨0, hn⟩ (Nat.zero_mod _)
  | n + 1, hn =>
    if h0 : (n + 1) % 2 = 0 then stA V c ⟨n + 1, hn⟩ h0
    else if h1 : (n + 1) % 4 = 1 then stB V c ⟨n + 1, hn⟩ h1 (outsAt1 c n (Nat.lt_of_succ_lt hn))
    else stD V c ⟨n + 1, hn⟩ (by show (n + 1) % 4 = 3; omega) (outsAt1 c n (Nat.lt_of_succ_lt hn))

theorem outsAt1_A (c : Dev nD) (t : Fin cfg1.N) (h : t.val % 2 = 0) : outsAt1 V c t.val t.isLt = stA V c t h := by
  obtain ⟨n, hn⟩ := t
  cases n with
  | zero => rfl
  | succ n => exact dif_pos h

theorem outsAt1_B (c : Dev nD) (t : Fin cfg1.N) (h : t.val % 4 = 1) :
    outsAt1 V c t.val t.isLt = stB V c t h (outsAt1 V c (t.val - 1) (Nat.lt_of_le_of_lt (Nat.sub_le _ _) t.isLt)) := by
  obtain ⟨n, hn⟩ := t
  cases n with
  | zero => exact absurd h (by show ¬ (0 % 4 = 1); decide)
  | succ n => exact (dif_neg (by dsimp only at h; omega)).trans (dif_pos h)

theorem outsAt1_D (c : Dev nD) (t : Fin cfg1.N) (h : t.val % 4 = 3) :
    outsAt1 V c t.val t.isLt = stD V c t h (outsAt1 V c (t.val - 1) (Nat.lt_of_le_of_lt (Nat.sub_le _ _) t.isLt)) := by
  obtain ⟨n, hn⟩ := t
  cases n with
  | zero => exact absurd h (by show ¬ (0 % 4 = 3); decide)
  | succ n => exact (dif_neg (by dsimp only at h; omega)).trans (dif_neg (by dsimp only at h; omega))

/-! ## The region's invariant, with the accumulators named -/

/-- The projection region's staging buffers at anything, three propositions about the accumulators, the generator
    register at some state. -/
def restAt (c : Dev nD) (P0 P1 P2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ P0 ∗ P1 ∗ P2) ∗ (∃ r, prngReg c r))

theorem PhiA1_rest (c : Dev nD) :
    (Pipeline.ΦA spec1 c : sProp 𝕄) = restAt c (iprop(∃ d, owns (c : Thread nD τ) scM fullShare d)) (iprop(∃ d, owns (c : Thread nD τ) scL fullShare d)) (iprop(∃ d, owns (c : Thread nD τ) scA fullShare d)) := by
  rw [PhiA1_eq]; rfl

/-- Before the first point the resting invariant; after a point the accumulators at what it left. -/
def PhiS (c : Dev nD) : (n : ℕ) → n ≤ cfg1.N → sProp 𝕄
  | 0, _ => Pipeline.ΦA spec1 c
  | n + 1, hn => restAt c (owns (c : Thread nD τ) scM fullShare (outsAt1 V c n hn).2.1) (owns (c : Thread nD τ) scL fullShare (outsAt1 V c n hn).2.2.1) (owns (c : Thread nD τ) scA fullShare (outsAt1 V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = restAt c (owns (c : Thread nD τ) scM fullShare (outsAt1 V c n hn).2.1) (owns (c : Thread nD τ) scL fullShare (outsAt1 V c n hn).2.2.1) (owns (c : Thread nD τ) scA fullShare (outsAt1 V c n hn).2.2.2) := rfl

theorem PhiS_pos (c : Dev nD) (n : ℕ) (h : n ≤ cfg1.N) (hz : n ≠ 0) :
    PhiS V c n h = restAt c (owns (c : Thread nD τ) scM fullShare (outsAt1 V c (n - 1) (by omega)).2.1) (owns (c : Thread nD τ) scL fullShare (outsAt1 V c (n - 1) (by omega)).2.2.1) (owns (c : Thread nD τ) scA fullShare (outsAt1 V c (n - 1) (by omega)).2.2.2) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Gen.Hand

end
-- ==== Proof.BitsBoundaries.lean ====
/-
  The buffers' contents at every boundary between the host stretches and the two regions, as a fold from the launch
  memory: after the reshape of the input and the joining of the three weight matrices; after the projection region's
  write-backs; after the three column slices and their reshapes per batch; after the attention region's write-backs.
-/
import proofs.«126090_j73151882985755_2_alg».proof.Proof.BitsProjBody
import proofs.«126090_j73151882985755_2_alg».proof.Proof.BitsFlashData

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

end Cert.Kernel.Gen.Hand

end
-- ==== Proof.BitsFlashBody.lean ====
/-
  The attention region's body obligation: at each grid point the body is called with the three input blocks at their
  contents, the output block, and the invariant holding the accumulators at what the point before left; case by case
  the run applies and hands back the accumulators at what this point leaves.
-/
import proofs.«126090_j73151882985755_2_alg».proof.Proof.BitsFlashData

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3_live (c : Dev nD) (t : Fin cfg1.N) (h : cond3 (grid1.coords t)) : (dat1 V c).leavesExact 3 t = owns (c : Thread nD τ) (ms1_3 t) fullShare ((outsAt1 V c t.val t.isLt).1) := by
  unfold Dat.leavesExact; rw [liveAt1_3 t h, after1_3]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 32 := lt_of_lt_of_eq t.isLt (show cfg1.N = 32 from N_1)
  by_cases h0 : t.val % 2 = 0
  · -- a first key tile
    rw [Dat.leavesExact_idle (dat1 V c) 3 t (idleAt1_3 t (cA3 t h0)) (noFlush1_3 t (cA3 t h0))]
    rw [outsAt1_A V c t h0]
    unfold stA; (try dsimp only)
    by_cases hz : t.val = 0
    · rw [PhiS_castSucc V c t, PhiS_zero V c _ _ hz, PhiA1_rest]; unfold restAt
      iintro ⟨⟨⟨HA0, HA1, HA2, HA3, HA4, HS0, HS1, HS2⟩, Hg⟩, Ho, ⟨%d0, H0⟩, ⟨%d1, H1⟩, ⟨%d2, H2⟩, ⟨%d3, H3⟩⟩
      iapply ((kernelRunA c (grid1.coords t) _ _ _ _ _ _ _ _ _ _ _ _ _ _ (cA1 t h0) (cA2 t h0) (cA3 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HA0 HA1 HA2 HA3 HA4 HS0 HS1 HS2 Hg]
      · isplitr [Hg]
        · isplitl [HA0]; · iexact HA0
          isplitl [HA1]; · iexact HA1
          isplitl [HA2]; · iexact HA2
          isplitl [HA3]; · iexact HA3
          isplitl [HA4]; · iexact HA4
          isplitl [HS0]
          · unfold owns; iexists _; isplitr
            swap; · iexact HS0
            ipureintro; exact View.read_writes_of_cover _ _ _ _ _ (scoverA_0 V c t h0)
          isplitl [HS1]
          · unfold owns; iexists _; isplitr
            swap; · iexact HS1
            ipureintro; exact View.read_writes_of_cover _ _ _ _ _ (scoverA_1 V c t h0)
          unfold owns; iexists _; isplitr
          swap; · iexact HS2
          ipureintro; exact View.read_writes_of_cover _ _ _ _ _ (scoverA_2 V c t h0)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold restAt
      iintro ⟨⟨⟨HA0, HA1, HA2, HA3, HA4, HS0, HS1, HS2⟩, Hg⟩, Ho, ⟨%d0, H0⟩, ⟨%d1, H1⟩, ⟨%d2, H2⟩, ⟨%d3, H3⟩⟩
      iapply ((kernelRunA c (grid1.coords t) _ _ _ _ _ _ _ _ _ _ _ _ _ _ (cA1 t h0) (cA2 t h0) (cA3 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HA0 HA1 HA2 HA3 HA4 HS0 HS1 HS2 Hg]
      · isplitr [Hg]
        · isplitl [HA0]; · iexact HA0
          isplitl [HA1]; · iexact HA1
          isplitl [HA2]; · iexact HA2
          isplitl [HA3]; · iexact HA3
          isplitl [HA4]; · iexact HA4
          isplitl [HS0]
          · unfold owns; iexists _; isplitr
            swap; · iexact HS0
            ipureintro; exact View.read_writes_of_cover _ _ _ _ _ (scoverA_0 V c t h0)
          isplitl [HS1]
          · unfold owns; iexists _; isplitr
            swap; · iexact HS1
            ipureintro; exact View.read_writes_of_cover _ _ _ _ _ (scoverA_1 V c t h0)
          unfold owns; iexists _; isplitr
          swap; · iexact HS2
          ipureintro; exact View.read_writes_of_cover _ _ _ _ _ (scoverA_2 V c t h0)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 1
    · -- a last key tile above the diagonal
      rw [leaves1_3_live V c t (cB3 t h1)]
      rw [outsAt1_B V c t h1]
      unfold stB; (try dsimp only)
      rw [PhiS_castSucc V c t, PhiS_pos V c _ _ hz]; unfold restAt
      iintro ⟨⟨⟨HA0, HA1, HA2, HA3, HA4, HS0, HS1, HS2⟩, Hg⟩, Ho, ⟨%d0, H0⟩, ⟨%d1, H1⟩, ⟨%d2, H2⟩, ⟨%d3, H3⟩⟩
      iapply ((kernelRunB c (grid1.coords t) _ _ _ _ _ _ _ _ _ _ _ _ _ _ (cB1 t h1) (cB2 t h1) (cB3 t h1) (iblk1 V c 0 t) (iblk1 V c 1 t) (iblk1 V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [HA0 HA1 HA2 HA3 HA4 HS0 HS1 HS2 Hg]
      · isplitr [Hg]
        · isplitl [HA0]; · iexact HA0
          isplitl [HA1]; · iexact HA1
          isplitl [HA2]; · iexact HA2
          isplitl [HA3]; · iexact HA3
          isplitl [HA4]; · iexact HA4
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_3 V c t h1 _)
    · -- a diagonal last key tile
      have h3 : t.val % 4 = 3 := by omega
      rw [leaves1_3_live V c t (cD3 t h3)]
      rw [outsAt1_D V c t h3]
      unfold stD; (try dsimp only)
      rw [PhiS_castSucc V c t, PhiS_pos V c _ _ hz]; unfold restAt
      iintro ⟨⟨⟨HA0, HA1, HA2, HA3, HA4, HS0, HS1, HS2⟩, Hg⟩, Ho, ⟨%d0, H0⟩, ⟨%d1, H1⟩, ⟨%d2, H2⟩, ⟨%d3, H3⟩⟩
      iapply ((kernelRunD c (grid1.coords t) _ _ _ _ _ _ _ _ _ _ _ _ _ _ (cD1 t h3) (cD2 t h3) (cD3 t h3) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HA0 HA1 HA2 HA3 HA4 HS0 HS1 HS2 Hg]
      · isplitr [Hg]
        · isplitl [HA0]; · iexact HA0
          isplitl [HA1]; · iexact HA1
          isplitl [HA2]; · iexact HA2
          isplitl [HA3]; · iexact HA3
          isplitl [HA4]; · iexact HA4
          isplitl [HS0]
          · unfold owns; iexists _; isplitr
            swap; · iexact HS0
            ipureintro; exact View.read_writes_of_cover _ _ _ _ _ (scoverD_0 V c t h3 _)
          isplitl [HS1]
          · unfold owns; iexists _; isplitr
            swap; · iexact HS1
            ipureintro; exact View.read_writes_of_cover _ _ _ _ _ (scoverD_1 V c t h3 _)
          unfold owns; iexists _; isplitr
          swap; · iexact HS2
          ipureintro; exact View.read_writes_of_cover _ _ _ _ _ (scoverD_2 V c t h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverD_3 V c t h3 _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the resting one back: the accumulators' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_rest]
  unfold restAt
  iintro ⟨⟨HA0, HA1, HA2, HA3, HA4, HS0, HS1, HS2⟩, Hg⟩
  isplitr [Hg]
  · isplitl [HA0]; · iexact HA0
    isplitl [HA1]; · iexact HA1
    isplitl [HA2]; · iexact HA2
    isplitl [HA3]; · iexact HA3
    isplitl [HA4]; · iexact HA4
    isplitl [HS0]; · iexists _; iexact HS0
    isplitl [HS1]; · iexists _; iexact HS1
    iexists _; iexact HS2
  iexact Hg

end Cert.Kernel.Gen.Hand

end
-- ==== Proof.BitsMainRun.lean ====
/-
  The whole program as a run: the buffers' contents at every boundary between the host stretches and the two regions
  (a fold from the launch memory: the reshape and the joining of the three weight matrices; the projection region's
  write-backs; the three column slices reshaped per batch; the attention region's write-backs), each region's proof
  data at its entry contents, each region as a segment over "every unscoped buffer at the boundary's contents", and the
  run's conclusion: every weakly fair execution terminates with every unscoped buffer at the last boundary's contents.
-/
import proofs.«126090_j73151882985755_2_alg».proof.Proof.BitsBoundaries
import proofs.«126090_j73151882985755_2_alg».proof.Proof.BitsFlashBody
import proofs.«126090_j73151882985755_2_alg».proof.Proof.Gen.Kernel.Regions

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev admX : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    refine BIBase.Entails.trans (hout1 (V3 m ρ) c) ?_; rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs' : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs' m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Gen.Hand

end
-- ==== Proof.BitsFrames.lean ====
/-
  The run read at the argument arrays and at the result: no host stretch writes an argument and no region stages one as
  an output, so each argument ends at its launch contents; the result array ends at what the attention region's
  write-backs leave.
-/
import proofs.«126090_j73151882985755_2_alg».proof.Proof.BitsMainRun

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no window's array of either region ends at its launch contents. -/
theorem W4_kept (c : Dev nD) (b : Ref sig .tc) (h0 : b ∉ hostOps0_W) (h1 : b ∉ hostOps1_W)
    (hn0 : ∀ w, Pipeline.arrRef spec0 w ≠ b) (hn1 : ∀ w, Pipeline.arrRef spec1 w ≠ b) :
    W4 m ρ c (Proc.devRef .tc b) = m ((c : Thread nD τ).loc b) :=
  (W4_of_ne m ρ c b hn1).trans ((StableHlo.after_of_writes_sub hostOps1 _ hostOps1_writes h1).trans
    ((W2_of_ne m ρ c b hn0).trans ((StableHlo.after_of_writes_sub hostOps0 _ hostOps0_writes h0).trans rfl)))

theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)

/-- The result array ends at the attention region's output array after its last point. -/
theorem W4_main_v9 (c : Dev nD) : W4 m ρ c (Proc.devRef .tc main_v9) = (dat1 (V3 m ρ) c).arrAt 3 cfg1.N :=
  W4_arr m ρ c 3

/-- The run, read at the result and at the four arguments. -/
theorem run_read : θ_run defs (onTc (τ := τ) (main (F := F))) ⟨m, fun _ => 0, ρ⟩ (fun r => ∀ c : Dev nD,
      r.2.mem ((c.tc : Thread nD τ).loc main_v9) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v9 (by decide))).trans (W4_main_v9 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_read m ρ)

end Cert.Kernel.Gen.Hand

end
-- ==== Proof.ClaimsFrames.lean ====
/-
  Four of the five claims. The three frames: the word-level kernel program and its idealization run to the end, fault
  nowhere and keep their arguments (the run over the two regions and the host stretches between them, read at the
  arguments); the reference program is a straight line of host operations, whose run keeps the arguments. The one entry
  of the idealization's ledger: the fill constant -1e30 stands for -∞, which the table of named constants gives it.
-/
import proofs.«126090_j73151882985755_2_alg».proof.Defs
import proofs.«126090_j73151882985755_2_alg».proof.Proof.Frames
import proofs.«126090_j73151882985755_2_alg».proof.Proof.BitsFrames
import proofs.«126090_j73151882985755_2_alg».proof.Proof.Gen.ReferenceIdeal.Run
import proofs.«126090_j73151882985755_2_alg».proof.Proof.Gen.Pre_finite_inputs
import Idealize.ShloMosaic.PureOps.IdealRules

noncomputable section

namespace Cert.Proof.Claims

open Idealize.ShloMosaic Idealize.ShloMosaic.TcCoe Idealize.SL.Sem

theorem frame_p : Cert.frame_Kernel := fun m ρ _ => Cert.Kernel.Gen.Hand.frame (F := Bits) m ρ
theorem frame_pi : Cert.frame_KernelIdeal := fun m ρ _ => Cert.KernelIdeal.Gen.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  IdealRules.named_const.statement Cert.KernelIdeal.κ "neg_big" .f32 0xF149F2CA#32 ⊥ rfl

end Cert.Proof.Claims

end
-- ==== Proof.Spec.lean ====
/-
  Causal single-head attention over real numbers, index by index.

  For a batch `b`, a query position `t` and a head coordinate `h`:
  the three projections are `x · w` (a sum over the 1024 embedding coordinates); the score of
  the query at `t` against the key at `u` is their inner product over the 64 head coordinates times
  `1024 ^ (-1/2) = 1/32`; only the keys `u ≤ t` take part (the causal support); the weights are the
  softmax over that support, written with the row's maximum subtracted, `exp (s u - max) / Σ exp (s u' - max)`;
  the result is the weighted sum of the value rows.
-/
import Idealize.ShloMosaic.PureOps.Ideal

noncomputable section

namespace Cert.Attn

open Finset

/-- A projection `x · w`: the sum over the embedding coordinate. -/
def proj (x : Fin 8 → Fin 2048 → Fin 1024 → ℝ) (w : Fin 1024 → Fin 64 → ℝ)
    (b : Fin 8) (t : Fin 2048) (h : Fin 64) : ℝ :=
  ∑ c : Fin 1024, x b t c * w c h

/-- The scaled score of query position `t` against key position `u`. -/
def score (q k : Fin 8 → Fin 2048 → Fin 64 → ℝ) (b : Fin 8) (t u : Fin 2048) : ℝ :=
  (∑ h : Fin 64, q b t h * k b u h) * (1 / 32)

/-- The maximum of a row of scores over the causal support `u ≤ t`. -/
def rowMax (s : Fin 2048 → ℝ) (t : Fin 2048) : ℝ :=
  (Finset.Iic t).sup' ⟨t, Finset.mem_Iic.2 le_rfl⟩ s

/-- The unnormalised softmax weight of key `u` for query `t`: zero outside the causal support. -/
def wgt (s : Fin 2048 → ℝ) (t u : Fin 2048) : ℝ :=
  if u ≤ t then Real.exp (s u - rowMax s t) else 0

/-- One row of attention: the weights, each divided by their sum, against the value column. -/
def attnRow (s v : Fin 2048 → ℝ) (t : Fin 2048) : ℝ :=
  ∑ u, wgt s t u / (∑ u', wgt s t u') * v u

/-- Causal attention of the input `x` under the three projection matrices. -/
def attn (x : Fin 8 → Fin 2048 → Fin 1024 → ℝ) (wq wk wv : Fin 1024 → Fin 64 → ℝ)
    (b : Fin 8) (t : Fin 2048) (h : Fin 64) : ℝ :=
  attnRow (fun u => score (proj x wq) (proj x wk) b t u) (fun u => proj x wv b u h) t

/-- Every score in the causal support is at most the row's maximum. -/
theorem le_rowMax (s : Fin 2048 → ℝ) {t u : Fin 2048} (h : u ≤ t) : s u ≤ rowMax s t :=
  Finset.le_sup' s (Finset.mem_Iic.2 h)

/-- The row's maximum is attained inside the causal support. -/
theorem exists_rowMax (s : Fin 2048 → ℝ) (t : Fin 2048) : ∃ u, u ≤ t ∧ rowMax s t = s u := by
  obtain ⟨u, hu, h⟩ := Finset.exists_mem_eq_sup' (⟨t, Finset.mem_Iic.2 le_rfl⟩ : (Finset.Iic t).Nonempty) s
  exact ⟨u, Finset.mem_Iic.1 hu, h⟩

theorem wgt_nonneg (s : Fin 2048 → ℝ) (t u : Fin 2048) : 0 ≤ wgt s t u := by
  unfold wgt; split_ifs
  · exact (Real.exp_pos _).le
  · exact le_rfl

/-- The normaliser is positive: the weight of the key where the maximum is attained is `exp 0 = 1`. -/
theorem one_le_sum_wgt (s : Fin 2048 → ℝ) (t : Fin 2048) : 1 ≤ ∑ u, wgt s t u := by
  obtain ⟨u, hu, h⟩ := exists_rowMax s t
  have h1 : wgt s t u = 1 := by simp [wgt, hu, h]
  calc (1 : ℝ) = wgt s t u := h1.symm
    _ ≤ ∑ u', wgt s t u' := Finset.single_le_sum (fun i _ => wgt_nonneg s t i) (Finset.mem_univ u)

theorem sum_wgt_pos (s : Fin 2048 → ℝ) (t : Fin 2048) : 0 < ∑ u, wgt s t u :=
  lt_of_lt_of_le one_pos (one_le_sum_wgt s t)

theorem sum_wgt_ne_zero (s : Fin 2048 → ℝ) (t : Fin 2048) : (∑ u, wgt s t u) ≠ 0 :=
  (sum_wgt_pos s t).ne'

end Cert.Attn

end
-- ==== Proof.CoeFacts.lean ====
/-
  Extended-real facts behind the reference's softmax: each stage of the host program, applied to
  coercions of reals, is again the coercion of a real, and that real is the matching piece of the
  specification (`Cert.Attn`). Nothing here mentions a program.
-/
import proofs.«126090_j73151882985755_2_alg».proof.Proof.Spec
import Idealize.ShloMosaic.PureOps.Ideal.Laws

noncomputable section

namespace Cert.Attn

open Idealize.ShloMosaic Finset

/-! ## Sums and products of coerced reals -/

/-- The coercion ℝ → EReal commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- An inner product of coerced reals is the coercion of the real inner product. -/
theorem sum_mul_coe {ι : Type*} [Fintype ι] (f g : ι → ℝ) :
    ∑ i, ((f i : ℝ) : EReal) * ((g i : ℝ) : EReal) = ((∑ i, f i * g i : ℝ) : EReal) := by
  rw [coe_sum]
  exact Finset.sum_congr rfl fun i _ => (EReal.coe_mul _ _).symm

/-! ## The literals -/

/-- The pattern of `1024.0`. -/
theorem ofBits_1024 : Ideal.ofBits .f32 0x44800000#32 = ((1024 : ℝ) : EReal) := by
  simp [Ideal.ofBits, Ideal.ieee, -EReal.coe_mul]; norm_num

/-- The pattern of `-0.5`. -/
theorem ofBits_neg_half : Ideal.ofBits .f32 0xBF000000#32 = ((-(1 / 2) : ℝ) : EReal) := by
  simp [Ideal.ofBits, Ideal.ieee, -EReal.coe_mul]; norm_num

/-- The pattern of `-∞`. -/
theorem ofBits_neg_inf : Ideal.ofBits .f32 0xFF800000#32 = ⊥ := by
  simp [Ideal.ofBits, Ideal.ieee]

/-- `1024 ^ (-1/2) = 1/32`, since `1024 = 32²`. -/
theorem rpow_1024 : Real.rpow 1024 (-(1 / 2)) = 1 / 32 := by
  rw [show (1024 : ℝ) = 32 ^ (2 : ℝ) by norm_num, Real.rpow_eq_pow, ← Real.rpow_mul (by norm_num)]
  norm_num

/-- The scale the reference computes: the power of the two literals is the real `1/32`. -/
theorem scale_eq :
    Ideal.pow (Ideal.ofBits .f32 0x44800000#32) (Ideal.ofBits .f32 0xBF000000#32) = ((1 / 32 : ℝ) : EReal) := by
  rw [ofBits_1024, ofBits_neg_half, Ideal.pow_coe_coe, rpow_1024]

/-! ## The masked row: maximum, exponentials, quotient -/

/-- A score row with `-∞` above the diagonal. -/
def masked (s : Fin 2048 → ℝ) (t u : Fin 2048) : EReal := if u ≤ t then ((s u : ℝ) : EReal) else ⊥

/-- Folding `max` from `-∞` over a masked row gives the maximum over the causal support. -/
theorem fold_max_masked (s : Fin 2048 → ℝ) (t : Fin 2048) :
    (Finset.univ : Finset (Fin 2048)).fold max (⊥ : EReal) (masked s t) = ((rowMax s t : ℝ) : EReal) := by
  apply le_antisymm
  · rw [Finset.fold_max_le]
    refine ⟨bot_le, fun u _ => ?_⟩
    unfold masked
    split_ifs with h
    · exact EReal.coe_le_coe_iff.2 (le_rowMax s h)
    · exact bot_le
  · obtain ⟨u, hu, h⟩ := exists_rowMax s t
    rw [h, Finset.le_fold_max]
    exact Or.inr ⟨u, Finset.mem_univ u, by unfold masked; rw [if_pos hu]⟩

/-- The exponential of a masked score less the row's maximum is the (real) softmax weight. -/
theorem exp_masked_sub (s : Fin 2048 → ℝ) (t u : Fin 2048) :
    Ideal.exp (masked s t u - ((rowMax s t : ℝ) : EReal)) = ((wgt s t u : ℝ) : EReal) := by
  unfold masked wgt
  split_ifs with h
  · rw [← EReal.coe_sub, Ideal.exp_coe]
  · rw [EReal.bot_sub, Ideal.exp_bot, EReal.coe_zero]

/-- A quotient of coerced reals with a non-zero divisor is the coercion of the real quotient. -/
theorem div_coe_coe (a : ℝ) {b : ℝ} (hb : b ≠ 0) :
    Ideal.div ((a : ℝ) : EReal) ((b : ℝ) : EReal) = ((a / b : ℝ) : EReal) := by
  rw [Ideal.div_coe hb, ← EReal.coe_mul, mul_one_div]

end Cert.Attn

end
-- ==== Proof.RefValue.lean ====
/-
  The reference program's result, read index by index, is causal attention over the reals.

  The host program computes, in this order: the three projections `x · w` (sums over the 1024 embedding
  coordinates); the scores `q · kᵀ` (sums over the 64 head coordinates) times `1024 ^ (-1/2)`; the causal mask
  (row index ≥ column index), which leaves `-∞` above the diagonal; the row maximum from `-∞`; the exponentials
  of the differences; their row sum from `0`; the quotients; and the product with the value rows.
  When every input entry is the coercion of a real, each stage at an index is the coercion of the matching
  piece of `Cert.Attn`: products and sums of coerced reals are coerced products and sums; the mask's `-∞`
  never wins the maximum because the diagonal entry is real; `exp (-∞ - m) = 0`; and the row sum is at least
  `exp 0 = 1`, so the quotient is the real quotient.
-/
import proofs.«126090_j73151882985755_2_alg».proof.Proof.Gen.ReferenceIdeal.Run
import proofs.«126090_j73151882985755_2_alg».proof.Proof.Gen.ReferenceIdeal.Read
import proofs.«126090_j73151882985755_2_alg».proof.Proof.CoeFacts

noncomputable section

namespace Cert.ReferenceIdeal.RefValue

open Cert.ReferenceIdeal Cert.ReferenceIdeal.Gen Cert.ReferenceIdeal.Read Idealize.ShloMosaic Idealize.ShloMosaic.ValueIdx
open Cert.Attn

/-- Every entry of the four argument arrays is the coercion of a real. -/
structure RealInputs (x : FVec Ideal S8x2048x1024 .f32) (wq wk wv : FVec Ideal S1024x64 .f32)
    (xr : Fin 8 → Fin 2048 → Fin 1024 → ℝ) (wqr wkr wvr : Fin 1024 → Fin 64 → ℝ) : Prop where
  hx : ∀ b t c, x (ix3 b t c) = ((xr b t c : ℝ) : EReal)
  hq : ∀ c h, wq (ix2 c h) = ((wqr c h : ℝ) : EReal)
  hk : ∀ c h, wk (ix2 c h) = ((wkr c h : ℝ) : EReal)
  hv : ∀ c h, wv (ix2 c h) = ((wvr c h : ℝ) : EReal)

/-- The row of real scores of query `(b, t)` against every key position. -/
def srow (xr : Fin 8 → Fin 2048 → Fin 1024 → ℝ) (wqr wkr : Fin 1024 → Fin 64 → ℝ) (b : Fin 8) (t : Fin 2048) :
    Fin 2048 → ℝ :=
  fun u => score (proj xr wqr) (proj xr wkr) b t u

/-! ## Where each stage reads its operands -/

theorem lidx_v0 (b : Fin 8) (t : Fin 2048) (h : Fin 64) (k : Fin 1024) : lidx_main_v0 (ix3 b t h) k = ix3 b t k :=
  funext fun a => Fin.ext (by match a with | ⟨0, _⟩ => rfl | ⟨1, _⟩ => rfl | ⟨2, _⟩ => rfl)
theorem ridx_v0 (b : Fin 8) (t : Fin 2048) (h : Fin 64) (k : Fin 1024) : ridx_main_v0 (ix3 b t h) k = ix2 k h :=
  funext fun a => Fin.ext (by match a with | ⟨0, _⟩ => rfl | ⟨1, _⟩ => rfl)
theorem lidx_v1 (b : Fin 8) (t : Fin 2048) (h : Fin 64) (k : Fin 1024) : lidx_main_v1 (ix3 b t h) k = ix3 b t k :=
  funext fun a => Fin.ext (by match a with | ⟨0, _⟩ => rfl | ⟨1, _⟩ => rfl | ⟨2, _⟩ => rfl)
theorem ridx_v1 (b : Fin 8) (t : Fin 2048) (h : Fin 64) (k : Fin 1024) : ridx_main_v1 (ix3 b t h) k = ix2 k h :=
  funext fun a => Fin.ext (by match a with | ⟨0, _⟩ => rfl | ⟨1, _⟩ => rfl)
theorem lidx_v2 (b : Fin 8) (t : Fin 2048) (h : Fin 64) (k : Fin 1024) : lidx_main_v2 (ix3 b t h) k = ix3 b t k :=
  funext fun a => Fin.ext (by match a with | ⟨0, _⟩ => rfl | ⟨1, _⟩ => rfl | ⟨2, _⟩ => rfl)
theorem ridx_v2 (b : Fin 8) (t : Fin 2048) (h : Fin 64) (k : Fin 1024) : ridx_main_v2 (ix3 b t h) k = ix2 k h :=
  funext fun a => Fin.ext (by match a with | ⟨0, _⟩ => rfl | ⟨1, _⟩ => rfl)
theorem lidx_v4 (b : Fin 8) (t u : Fin 2048) (k : Fin 64) : lidx_main_v4 (ix3 b t u) k = ix3 b t k :=
  funext fun a => Fin.ext (by match a with | ⟨0, _⟩ => rfl | ⟨1, _⟩ => rfl | ⟨2, _⟩ => rfl)
theorem ridx_v4 (b : Fin 8) (t u : Fin 2048) (k : Fin 64) : ridx_main_v4 (ix3 b t u) k = ix3 b u k :=
  funext fun a => Fin.ext (by match a with | ⟨0, _⟩ => rfl | ⟨1, _⟩ => rfl | ⟨2, _⟩ => rfl)
theorem idx_mask (b : Fin 8) (t u : Fin 2048) : idx_main_call1_v0 (ix3 b t u) = ix2 t u :=
  funext fun a => Fin.ext (by match a with | ⟨0, _⟩ => rfl | ⟨1, _⟩ => rfl)
theorem idx_v14 (b : Fin 8) (t u : Fin 2048) : idx_main_v13 (idx_main_v14 (ix3 b t u)) = ix2 b t :=
  funext fun a => Fin.ext (by match a with | ⟨0, _⟩ => rfl | ⟨1, _⟩ => rfl)
theorem idx_v17 (b : Fin 8) (t : Fin 2048) (k : Fin 2048) : idx_main_v17 (ix2 b t) k = ix3 b t k :=
  funext fun a => Fin.ext (by match a with | ⟨0, _⟩ => rfl | ⟨1, _⟩ => rfl | ⟨2, _⟩ => rfl)
theorem idx_v19 (b : Fin 8) (t u : Fin 2048) : idx_main_v18 (idx_main_v19 (ix3 b t u)) = ix2 b t :=
  funext fun a => Fin.ext (by match a with | ⟨0, _⟩ => rfl | ⟨1, _⟩ => rfl)
theorem lidx_v21 (b : Fin 8) (t : Fin 2048) (h : Fin 64) (k : Fin 2048) : lidx_main_v21 (ix3 b t h) k = ix3 b t k :=
  funext fun a => Fin.ext (by match a with | ⟨0, _⟩ => rfl | ⟨1, _⟩ => rfl | ⟨2, _⟩ => rfl)
theorem ridx_v21 (b : Fin 8) (t : Fin 2048) (h : Fin 64) (k : Fin 2048) : ridx_main_v21 (ix3 b t h) k = ix3 b k h :=
  funext fun a => Fin.ext (by match a with | ⟨0, _⟩ => rfl | ⟨1, _⟩ => rfl | ⟨2, _⟩ => rfl)

section
variable {x : FVec Ideal S8x2048x1024 .f32} {wq wk wv : FVec Ideal S1024x64 .f32}
  {xr : Fin 8 → Fin 2048 → Fin 1024 → ℝ} {wqr wkr wvr : Fin 1024 → Fin 64 → ℝ}

/-! ## The projections -/

/-- A row of `x` against a column of a weight matrix, both of coerced reals. -/
theorem proj_sum (x : FVec Ideal S8x2048x1024 .f32) (w : FVec Ideal S1024x64 .f32)
    (xr : Fin 8 → Fin 2048 → Fin 1024 → ℝ) (wr : Fin 1024 → Fin 64 → ℝ)
    (hx : ∀ b t c, x (ix3 b t c) = ((xr b t c : ℝ) : EReal)) (hw : ∀ c h, w (ix2 c h) = ((wr c h : ℝ) : EReal))
    (b : Fin 8) (t : Fin 2048) (h : Fin 64) :
    ∑ k : Fin 1024, x (ix3 b t k) * w (ix2 k h) = ((proj xr wr b t h : ℝ) : EReal) := by
  simp only [hx, hw]
  exact sum_mul_coe _ _

theorem v0_eq (H : RealInputs x wq wk wv xr wqr wkr wvr) (b : Fin 8) (t : Fin 2048) (h : Fin 64) :
    val_main_v0 (F := Ideal) x wq (ix3 b t h) = ((proj xr wqr b t h : ℝ) : EReal) := by
  rw [val_main_v0_apply]
  simp only [lidx_v0, ridx_v0]
  exact proj_sum x wq xr wqr H.hx H.hq b t h

theorem v1_eq (H : RealInputs x wq wk wv xr wqr wkr wvr) (b : Fin 8) (t : Fin 2048) (h : Fin 64) :
    val_main_v1 (F := Ideal) x wk (ix3 b t h) = ((proj xr wkr b t h : ℝ) : EReal) := by
  rw [val_main_v1_apply]
  simp only [lidx_v1, ridx_v1]
  exact proj_sum x wk xr wkr H.hx H.hk b t h

theorem v2_eq (H : RealInputs x wq wk wv xr wqr wkr wvr) (b : Fin 8) (t : Fin 2048) (h : Fin 64) :
    val_main_v2 (F := Ideal) x wv (ix3 b t h) = ((proj xr wvr b t h : ℝ) : EReal) := by
  rw [val_main_v2_apply]
  simp only [lidx_v2, ridx_v2]
  exact proj_sum x wv xr wvr H.hx H.hv b t h

/-! ## The scaled scores -/

/-- The broadcast scale is `1/32` everywhere. -/
theorem v5_eq (i : S8x2048x2048.Idx) : val_main_v5 (F := Ideal) i = ((1 / 32 : ℝ) : EReal) := by
  rw [val_main_v5_apply, val_main_v3_apply, val_main_cst_apply, val_main_cst_0_apply]
  exact scale_eq

theorem v6_eq (H : RealInputs x wq wk wv xr wqr wkr wvr) (b : Fin 8) (t u : Fin 2048) :
    val_main_v6 (F := Ideal) x wq wk (ix3 b t u) = ((srow xr wqr wkr b t u : ℝ) : EReal) := by
  rw [val_main_v6_apply, v5_eq, val_main_v4_apply]
  simp only [lidx_v4, ridx_v4, v0_eq H, v1_eq H]
  rw [sum_mul_coe]
  exact (EReal.coe_mul _ _).symm

/-! ## The causal mask -/

private theorem toInt_small (n : Nat) (h : n < 2048) : (BitVec.ofNat 32 n).toInt = (n : Int) := by
  have h1 : (BitVec.ofNat 32 n).toNat = n := by rw [BitVec.toNat_ofNat]; omega
  rw [BitVec.toInt_eq_toNat_of_lt (by rw [h1]; omega), h1]

/-- The lower-triangle word at row `t`, column `u`: one exactly when `u ≤ t`. -/
theorem tril_word (t u : Fin 2048) :
    IntOp.cmpi .sge (IntOp.addi (BitVec.ofNat 32 t.val) 0#32) (BitVec.ofNat 32 u.val)
      = if u ≤ t then 1#1 else 0#1 := by
  have ht := toInt_small t.val t.isLt
  have hu := toInt_small u.val u.isLt
  have ha : IntOp.addi (BitVec.ofNat 32 t.val) 0#32 = BitVec.ofNat 32 t.val := BitVec.add_zero _
  rw [ha]
  split_ifs with h
  · exact IntOp.cmpi_sge.2 (by rw [ht, hu]; exact Int.ofNat_le.2 h)
  · refine eq_zero_of_ne_one (fun h1 => h ?_)
    have h2 := IntOp.cmpi_sge.1 h1
    rw [ht, hu] at h2
    exact Int.ofNat_le.1 h2

theorem mask_eq (b : Fin 8) (t u : Fin 2048) :
    val_main_call1_v0 (F := Ideal) (ix3 b t u) = if u ≤ t then 1#1 else 0#1 := by
  rw [val_main_call1_v0_apply, idx_mask, val_main_v8_apply, val_main_call0_v4_apply, val_main_call0_v2_apply,
    val_main_call0_v0_apply, val_main_call0_v1_apply, val_main_call0_c_apply, val_main_call0_v3_apply,
    val_main_v7_apply, val_main_c_apply, val_main_call0_v5_apply, val_main_call0_c_0_apply]
  show Scalar.select (IntOp.cmpi .sge (IntOp.addi (BitVec.ofNat 32 t.val) 0#32) (BitVec.ofNat 32 u.val)) 1#1 0#1 = _
  rw [tril_word]
  split_ifs
  · exact select_one _ _
  · exact select_zero _ _

/-- The masked scores: the real score on and below the diagonal, `-∞` above it. -/
theorem v9_eq (H : RealInputs x wq wk wv xr wqr wkr wvr) (b : Fin 8) (t u : Fin 2048) :
    val_main_v9 (F := Ideal) x wq wk (ix3 b t u) = masked (srow xr wqr wkr b t) t u := by
  rw [val_main_v9_apply, mask_eq, v6_eq H, val_main_call1_v1_apply, val_main_cst_1_apply]
  unfold masked
  split_ifs
  · exact select_one _ _
  · exact (select_zero _ _).trans ofBits_neg_inf

/-! ## The row maximum -/

theorem reduces_last : S8x2048x2048.Reduces [2] S8x2048 := by decide

/-- The reduced index `(b, t)` with the key position `k` put back. -/
theorem lift_last (b : Fin 8) (t : Fin 2048) (k : Fin (S8x2048x2048.size 2)) :
    reduces_last.lift (ix2 b t) k = ix3 b t (⟨k.val, k.isLt⟩ : Fin 2048) := by
  funext c; apply Fin.ext
  fin_cases c <;> rfl

/-- A max-reduce from `-∞` along the key axis of an array whose row `(b, t)` is a masked real row
    is the maximum of that row over its causal support. -/
theorem reduce_max_row (y : FVec Ideal S8x2048x2048 .f32) (init : FVec Ideal S_ .f32) (hinit : ∀ i, init i = (⊥ : EReal))
    (s : Fin 2048 → ℝ) (b : Fin 8) (t : Fin 2048) (hy : ∀ u : Fin 2048, y (ix3 b t u) = masked s t u) :
    Host.reduce FloatOps.maximumf y init reducesTo_S8x2048x2048_S8x2048_d2 h_S_ (ix2 b t) = ((rowMax s t : ℝ) : EReal) := by
  rw [Host.reduce_eq_fold_single FloatOps.maximumf y init reducesTo_S8x2048x2048_S8x2048_d2 reduces_last h_S_]
  have hf : (y ∘ reduces_last.lift (ix2 b t)) = fun k : Fin 2048 => masked s t k :=
    funext fun k => (congrArg y (lift_last b t k)).trans (hy _)
  refine Eq.trans ?_ (fold_max_masked s t)
  rw [hinit]
  exact congrArg (fun f => Finset.fold max (⊥ : EReal) f (Finset.univ : Finset (Fin 2048))) hf

theorem v12_eq (H : RealInputs x wq wk wv xr wqr wkr wvr) (b : Fin 8) (t : Fin 2048) :
    val_main_v12 (F := Ideal) x wq wk (ix2 b t) = ((rowMax (srow xr wqr wkr b t) t : ℝ) : EReal) := by
  rw [val_main_v12_apply, val_main_v11_apply, val_main_cst_3_apply]
  have h10 : val_main_v10 (F := Ideal) x wq wk (ix2 b t) = ((rowMax (srow xr wqr wkr b t) t : ℝ) : EReal) := by
    unfold val_main_v10
    exact reduce_max_row _ _ (fun i => ofBits_neg_inf) _ b t (fun u => v9_eq H b t u)
  rw [h10]
  show max (Ideal.ofBits .f32 0xFF800000#32) _ = _
  rw [ofBits_neg_inf]
  exact max_eq_right bot_le

/-! ## Exponentials, their sum, the quotients -/

theorem v16_eq (H : RealInputs x wq wk wv xr wqr wkr wvr) (b : Fin 8) (t u : Fin 2048) :
    val_main_v16 (F := Ideal) x wq wk (ix3 b t u) = ((wgt (srow xr wqr wkr b t) t u : ℝ) : EReal) := by
  rw [val_main_v16_apply, val_main_v15_apply, v9_eq H, val_main_v14_apply, val_main_v13_apply, idx_v14, v12_eq H]
  exact exp_masked_sub _ t u

theorem v17_eq (H : RealInputs x wq wk wv xr wqr wkr wvr) (b : Fin 8) (t : Fin 2048) :
    val_main_v17 (F := Ideal) x wq wk (ix2 b t) = ((∑ u, wgt (srow xr wqr wkr b t) t u : ℝ) : EReal) := by
  rw [val_main_v17_apply, val_main_cst_4_apply]
  simp only [idx_v17, v16_eq H]
  show Ideal.ofBits .f32 0x00000000#32 + _ = _
  rw [Ideal.ofBits_zero_f32, zero_add, coe_sum]

theorem v20_eq (H : RealInputs x wq wk wv xr wqr wkr wvr) (b : Fin 8) (t u : Fin 2048) :
    val_main_v20 (F := Ideal) x wq wk (ix3 b t u)
      = ((wgt (srow xr wqr wkr b t) t u / ∑ u', wgt (srow xr wqr wkr b t) t u' : ℝ) : EReal) := by
  rw [val_main_v20_apply, v16_eq H, val_main_v19_apply, val_main_v18_apply, idx_v19, v17_eq H]
  exact div_coe_coe _ (sum_wgt_ne_zero _ t)

end

/-! ## The result -/

/-- The reference's result at `(b, t, h)`, on argument arrays of coerced reals, is the coercion of causal
    attention of those reals. -/
theorem result_eq (x : FVec Ideal S8x2048x1024 .f32) (wq wk wv : FVec Ideal S1024x64 .f32)
    (xr : Fin 8 → Fin 2048 → Fin 1024 → ℝ) (wqr wkr wvr : Fin 1024 → Fin 64 → ℝ)
    (hx : ∀ b t c, x (ix3 b t c) = ((xr b t c : ℝ) : EReal))
    (hq : ∀ c h, wq (ix2 c h) = ((wqr c h : ℝ) : EReal))
    (hk : ∀ c h, wk (ix2 c h) = ((wkr c h : ℝ) : EReal))
    (hv : ∀ c h, wv (ix2 c h) = ((wvr c h : ℝ) : EReal))
    (b : Fin 8) (t : Fin 2048) (h : Fin 64) :
    val_main_v21 (F := Ideal) x wq wk wv (ix3 b t h) = ((Cert.Attn.attn xr wqr wkr wvr b t h : ℝ) : EReal) := by
  have H : RealInputs x wq wk wv xr wqr wkr wvr := ⟨hx, hq, hk, hv⟩
  rw [val_main_v21_apply]
  simp only [lidx_v21, ridx_v21, v20_eq H, v2_eq H]
  exact sum_mul_coe _ _

/-- The same, as one equation between arrays: the reference's result is the array whose entry at an index is
    the coercion of causal attention at that index's three coordinates. -/
theorem result_fun (x : FVec Ideal S8x2048x1024 .f32) (wq wk wv : FVec Ideal S1024x64 .f32)
    (xr : Fin 8 → Fin 2048 → Fin 1024 → ℝ) (wqr wkr wvr : Fin 1024 → Fin 64 → ℝ)
    (hx : ∀ b t c, x (ix3 b t c) = ((xr b t c : ℝ) : EReal))
    (hq : ∀ c h, wq (ix2 c h) = ((wqr c h : ℝ) : EReal))
    (hk : ∀ c h, wk (ix2 c h) = ((wkr c h : ℝ) : EReal))
    (hv : ∀ c h, wv (ix2 c h) = ((wvr c h : ℝ) : EReal)) :
    val_main_v21 (F := Ideal) x wq wk wv
      = fun i : S8x2048x64.Idx => ((Cert.Attn.attn xr wqr wkr wvr (i 0) (i 1) (i 2) : ℝ) : EReal) := by
  funext i
  have e := result_eq x wq wk wv xr wqr wkr wvr hx hq hk hv (i 0) (i 1) (i 2)
  exact (congrArg (val_main_v21 (F := Ideal) x wq wk wv) (eq_ix3 i)).trans e

end Cert.ReferenceIdeal.RefValue

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.PreReal.lean ====
/-
  From the finiteness precondition to real inputs.

  The precondition is the conjunction, over the four argument arrays, of `all (|a| < +∞)`: a reduction by `and`
  over every axis of the comparison of the absolute values with the splat of the `+∞` word. When it answers one,
  each of the four conjuncts answers one, so every entry of every array passes `|a| < +∞` and is therefore the
  coercion of a real (an extended real whose absolute value is below `+∞` is neither infinity).
-/
import proofs.«126090_j73151882985755_2_alg».proof.Pre_finite_inputs
import proofs.«126090_j73151882985755_2_alg».proof.Proof.LibRealEntries
import Idealize.ShloMosaic.Lib.ValueIdx

noncomputable section

namespace Cert.PreReal

open Idealize.ShloMosaic Idealize.ShloMosaic.ValueIdx Cert.Pre_finite_inputs

/-- The scalar shape has one index. -/
instance : Subsingleton S_.Idx := ⟨fun a b => funext fun d => d.elim0⟩

/-- Under the finiteness precondition the four argument arrays are arrays of (coerced) reals. -/
theorem real_inputs [Cert.Pre_finite_inputs.Facts] (x : FVec Ideal S8x2048x1024 .f32) (wq wk wv : FVec Ideal S1024x64 .f32)
    (h : Cert.Pre_finite_inputs.fn (F := Ideal) x wq wk wv = fun _ => 1#1) :
    ∃ (xr : Fin 8 → Fin 2048 → Fin 1024 → ℝ) (wqr wkr wvr : Fin 1024 → Fin 64 → ℝ),
      (∀ b t c, x (ix3 b t c) = ((xr b t c : ℝ) : EReal)) ∧ (∀ c h, wq (ix2 c h) = ((wqr c h : ℝ) : EReal))
      ∧ (∀ c h, wk (ix2 c h) = ((wkr c h : ℝ) : EReal)) ∧ (∀ c h, wv (ix2 c h) = ((wvr c h : ℝ) : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  have ax : Cert.Lib.AllReal x :=
    Cert.Lib.allReal_of_all_abs_lt x _ (fun i => rfl) Facts.reducesTo_S8x2048x1024_S_d0_1_2 _ Facts.h_S_ ix0 h1
  have aq : Cert.Lib.AllReal wq :=
    Cert.Lib.allReal_of_all_abs_lt wq _ (fun i => rfl) Facts.reducesTo_S1024x64_S_d0_1 _ Facts.h_S_ ix0 h2
  have ak : Cert.Lib.AllReal wk :=
    Cert.Lib.allReal_of_all_abs_lt wk _ (fun i => rfl) Facts.reducesTo_S1024x64_S_d0_1 _ Facts.h_S_ ix0 h3
  have av : Cert.Lib.AllReal wv :=
    Cert.Lib.allReal_of_all_abs_lt wv _ (fun i => rfl) Facts.reducesTo_S1024x64_S_d0_1 _ Facts.h_S_ ix0 h4
  choose xr hxr using ax
  choose qr hqr using aq
  choose kr hkr using ak
  choose vr hvr using av
  exact ⟨fun b t c => xr (ix3 b t c), fun c h => qr (ix2 c h), fun c h => kr (ix2 c h), fun c h => vr (ix2 c h),
    fun b t c => hxr _, fun c h => hqr _, fun c h => hkr _, fun c h => hvr _⟩

end Cert.PreReal

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.ProjPayload.lean ====
/-
  The projection kernel's arithmetic at an index.

  The body rounds its two loaded blocks to bf16 (the identity on extended reals), multiplies them into a zero
  accumulator and rounds the product again: at row `p` and column `q` the result is the sum over the 1024
  contracted positions of `x (p, k) · w (k, q)`.
-/
import proofs.«126090_j73151882985755_2_alg».proof.Proof.Gen.KernelIdeal.Skeleton
import proofs.«126090_j73151882985755_2_alg».proof.Proof.LibMatDot
import Idealize.ShloMosaic.Lib.Pipeline.Value

noncomputable section

namespace Cert.KernelIdeal.Gen.Hand

open Cert.KernelIdeal Cert.KernelIdeal.Gen Idealize.ShloMosaic Idealize.ShloMosaic.ValueIdx

/-- The body's stored value at `(p, q)`: row `p` of the input block against column `q` of the weights block. -/
theorem k0_pay1_apply (x0 : Vec Ideal S2048x1024 .f32) (x1 : Vec Ideal S1024x192 .f32) (p : Fin 2048) (q : Fin 192) :
    k0_pay1 (F := Ideal) x0 x1 (ix2 p q) = ∑ k : Fin 1024, x0 (ix2 p k) * x1 (ix2 k q) := by
  unfold k0_pay1
  rw [shapeCast_self, shapeCast_self]
  exact Cert.Lib.matmul_plain_zero_apply Facts₀.dot_S2048x1024_S1024x192_S2048x192_1_0_0_1_n_n_wf none
    (truncf .bf16 x0 bitsLt_bf16_f32) (truncf .bf16 x1 bitsLt_bf16_f32) p q

end Cert.KernelIdeal.Gen.Hand

end
-- ==== Proof.ProjBlocks.lean ====
/-
  The projection region's output array after the run, as one function of the two arrays it reads.

  The grid has eight points; point `t` stages rows `[2048 t, 2048 t + 2048)` of the flattened input and of the output,
  and the whole weights array. What the body leaves in the output block is the block of rows of the product
  `input · weights`, so every write-back is a block of ONE whole-array function, the eight blocks tile the output
  array, and the array ends holding that function: entry `(r, j)` is the sum over `k` of `input (r, k) · weights (k, j)`.
-/
import proofs.«126090_j73151882985755_2_alg».proof.Proof.ProjBody
import proofs.«126090_j73151882985755_2_alg».proof.Proof.ProjPayload
import Idealize.ShloMosaic.Lib.Pipeline.Value

set_option maxRecDepth 16384

noncomputable section

namespace Cert.KernelIdeal.Gen.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The product of the flattened input with the joined weights, index by index. -/
def projAll (a0 : S16384x1024.Idx → EReal) (a1 : S1024x192.Idx → EReal) : S16384x192.Idx → EReal :=
  fun i => ∑ k : Fin 1024, a0 (ix2 (⟨(i 0).val, idx2_lt0 i⟩ : Fin 16384) k) * a1 (ix2 k (⟨(i 1).val, idx2_lt1 i⟩ : Fin 192))

/-- The printed index maps over the eight points: the input's and the output's row blocks move together, one block
    per point; the weights' block and every column block stay at zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed0_eq (c : Dev nD) (t : Fin cfg0.N) :
    (dat0 V c).flushed 2 t = ((cfg0.win 2).blk t).view.read (Elt Ideal) (projAll (V c main_v0) (V c main_v1)) := by
  show (cfg0.win 2).cut (grid0.coords t) ((dat0 V c).after 2 t) = _
  rw [after0_2]
  unfold out0_2
  rw [View.canon_unit_zero hz2]
  simp only [View.ld_unit_zero (S := S2048x1024) hz2, View.ld_unit_zero (S := S1024x192) hz2]
  obtain ⟨e0, e1, e2, e3, e4, e5⟩ := idx_facts0 t
  funext j
  obtain ⟨p, q, rfl⟩ : ∃ (p : Fin 2048) (q : Fin 192), j = ix2 p q := ⟨j 0, j 1, eq_ix2 j⟩
  refine (k0_pay1_apply (iblk0 V c 0 t) (iblk0 V c 1 t) p q).trans ?_
  show _ = projAll (V c main_v0) (V c main_v1) (((cfg0.win 2).blk t).view.emb (ix2 p q))
  unfold projAll
  refine Finset.sum_congr rfl fun k _ => ?_
  have h0 : iblk0 V c 0 t (ix2 p k)
      = V c main_v0 (ix2 (⟨((((cfg0.win 2).blk t).view.emb (ix2 p q)) 0).val, idx2_lt0 _⟩ : Fin 16384) k) := by
    show V c main_v0 (((cfg0.win 0).blk t).view.emb (ix2 p k)) = _
    refine congrArg (V c main_v0) (funext fun a => Fin.ext ?_)
    match a with
    | ⟨0, _⟩ =>
      show win0_0.index t (0 : Fin 2) * 2048 + 1 * p.val = win0_2.index t (0 : Fin 2) * 2048 + 1 * p.val
      omega
    | ⟨1, _⟩ =>
      show win0_0.index t (1 : Fin 2) * 1024 + 1 * k.val = k.val
      omega
  have h1 : iblk0 V c 1 t (ix2 k q)
      = V c main_v1 (ix2 k (⟨((((cfg0.win 2).blk t).view.emb (ix2 p q)) 1).val, idx2_lt1 _⟩ : Fin 192)) := by
    show V c main_v1 (((cfg0.win 1).blk t).view.emb (ix2 k q)) = _
    refine congrArg (V c main_v1) (funext fun a => Fin.ext ?_)
    match a with
    | ⟨0, _⟩ =>
      show win0_1.index t (0 : Fin 2) * 1024 + 1 * k.val = k.val
      omega
    | ⟨1, _⟩ =>
      show win0_1.index t (1 : Fin 2) * 192 + 1 * q.val = win0_2.index t (1 : Fin 2) * 192 + 1 * q.val
      omega
  rw [h0, h1]

/-- An index of the output array is in point `t`'s block iff each coordinate is in the block's range on its axis. -/
theorem mem_blk0 (t : Fin cfg0.N) (i : S16384x192.Idx) :
    i ∈ ((cfg0.win 2).blk t).view.set ↔ ∀ a : Fin 2, win0_2.index t a * S2048x192.size a ≤ (i a).val ∧ (i a).val < win0_2.index t a * S2048x192.size a + S2048x192.size a := by
  show i ∈ ((View.whole main_v2).slice (win0_2.rect t)).set ↔ _
  rw [View.set_slice_whole, Rect.mem_set_unit]
  exact Iff.rfl

/-- The eight row blocks tile the output array: row `r` is in the block of point `r / 2048`. -/
theorem cover0 (i : S16384x192.Idx) :
    ∃ t : Fin cfg0.N, (cfg0.win 2).flush t = true ∧ i ∈ ((cfg0.win 2).blk t).view.set := by
  have hi0 : (i 0).val < 16384 := idx2_lt0 i
  have hi1 : (i 1).val < 192 := idx2_lt1 i
  have hN : cfg0.N = 8 := N_0
  let t : Fin cfg0.N := ⟨(i 0).val / 2048, by rw [hN]; omega⟩
  obtain ⟨e0, e1, e2, e3, e4, e5⟩ := idx_facts0 t
  have ht : t.val = (i 0).val / 2048 := rfl
  refine ⟨t, flush0_2 t, ?_⟩
  rw [mem_blk0]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 192 ≤ (i 1).val ∧ (i 1).val < win0_2.index t (1 : Fin 2) * 192 + 192
    omega

/-- The output array after the projection region's run: the product, everywhere. -/
theorem final0 (c : Dev nD) : (dat0 V c).arrAt 2 cfg0.N = projAll (V c main_v0) (V c main_v1) :=
  (dat0 V c).arrAt_eq_of_cover 2 (projAll (V c main_v0) (V c main_v1)) (fun t _ => flushed0_eq V c t) cover0

end Cert.KernelIdeal.Gen.Hand

end
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.ProjHost.lean ====
/-
  The host operations around the projection region, read at an index.

  Before the region: the input `[8, 2048, 1024]` is flattened to `[16384, 1024]` (row `2048 b + t` is position `(b, t)`),
  and the three weight matrices `[1024, 64]` are joined side by side into `[1024, 192]` (columns `0–63`, `64–127`,
  `128–191`). After it: the region's output `[16384, 192]` is cut into its three column bands, each reshaped back to
  `[8, 2048, 64]`. Every one of these is a re-indexing; no arithmetic happens here.
-/
import proofs.«126090_j73151882985755_2_alg».proof.Proof.Boundaries
import proofs.«126090_j73151882985755_2_alg».proof.Proof.LibConcatCols
import Idealize.ShloMosaic.Lib.Pipeline.Value
import Idealize.ShloMosaic.Lib.StableHlo.Run
import Idealize.ShloMosaic.Lib.ValueIdx

set_option maxRecDepth 16384

noncomputable section

namespace Cert.KernelIdeal.Gen.Hand

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## Before the region -/

/-- The flattened input is the reshape of the first argument. -/
theorem V1_v0 (c : Dev nD) :
    (V1 m ρ c main_v0 : S16384x1024.Idx → EReal)
      = shapeCast S16384x1024 (m ((c : Thread nD τ).loc main_arg0)) shapeCasts_S8x2048x1024_S16384x1024 := by
  show StableHlo.after hostOps0 (W0 m ρ c) (Proc.devRef .tc main_v0) = _
  after_results
  rfl

/-- The joined weights are the three weight arguments side by side. -/
theorem V1_v1 (c : Dev nD) :
    (V1 m ρ c main_v1 : S1024x192.Idx → EReal)
      = concatenate S1024x192 1 [⟨S1024x64, m ((c : Thread nD τ).loc main_arg1)⟩, ⟨S1024x64, m ((c : Thread nD τ).loc main_arg2)⟩,
          ⟨S1024x64, m ((c : Thread nD τ).loc main_arg3)⟩] concatenates_S1024x64_S1024x64_S1024x64_S1024x192_d1 := by
  show StableHlo.after hostOps0 (W0 m ρ c) (Proc.devRef .tc main_v1) = _
  after_results
  dsimp only
  simp only [Matrix.cons_val_zero, Matrix.cons_val_one, Matrix.cons_val_two, Matrix.head_cons, Matrix.tail_cons]
  repeat (rw [reshape_result_ne]; rotate_left; decide)
  rfl

/-- Row `2048 b + t` of the flattened input is position `(b, t)` of the input. -/
theorem V1_v0_apply (c : Dev nD) (b : Fin 8) (t : Fin 2048) (k : Fin 1024) (hr : b.val * 2048 + t.val < 16384) :
    (V1 m ρ c main_v0 : S16384x1024.Idx → EReal) (ix2 (⟨b.val * 2048 + t.val, hr⟩ : Fin 16384) k)
      = (m ((c : Thread nD τ).loc main_arg0) : S8x2048x1024.Idx → EReal) (ix3 b t k) := by
  rw [V1_v0]
  refine shapeCast_apply _ _ _ (ix3 b t k) ?_
  rw [Shape.rowMajor_val_three, Shape.rowMajor_val_two]
  rfl

/-- The three weight arguments, in the order they are joined. -/
abbrev wlist (c : Dev nD) : List ((s : Shape) × (s.Idx → EReal)) :=
  [⟨S1024x64, m ((c : Thread nD τ).loc main_arg1)⟩, ⟨S1024x64, m ((c : Thread nD τ).loc main_arg2)⟩,
    ⟨S1024x64, m ((c : Thread nD τ).loc main_arg3)⟩]

/-- The first 64 columns of the joined weights are the query weights, -/
theorem V1_v1_q (c : Dev nD) (k : Fin 1024) (h : Fin 64) (hj : 0 + h.val < 192) :
    (V1 m ρ c main_v1 : S1024x192.Idx → EReal) (ix2 k (⟨0 + h.val, hj⟩ : Fin 192))
      = (m ((c : Thread nD τ).loc main_arg1) : S1024x64.Idx → EReal) (ix2 k h) := by
  rw [V1_v1]
  exact Cert.Lib.concat_cols_apply (R := 1024) (C := 192) (wlist m c) concatenates_S1024x64_S1024x64_S1024x64_S1024x192_d1 0
    (Nat.zero_lt_succ _) (n := 64) (m ((c : Thread nD τ).loc main_arg1)) rfl 0 rfl k h hj

/-- the next 64 the key weights, -/
theorem V1_v1_k (c : Dev nD) (k : Fin 1024) (h : Fin 64) (hj : 64 + h.val < 192) :
    (V1 m ρ c main_v1 : S1024x192.Idx → EReal) (ix2 k (⟨64 + h.val, hj⟩ : Fin 192))
      = (m ((c : Thread nD τ).loc main_arg2) : S1024x64.Idx → EReal) (ix2 k h) := by
  rw [V1_v1]
  exact Cert.Lib.concat_cols_apply (R := 1024) (C := 192) (wlist m c) concatenates_S1024x64_S1024x64_S1024x64_S1024x192_d1 1
    (Nat.succ_lt_succ (Nat.zero_lt_succ _)) (n := 64) (m ((c : Thread nD τ).loc main_arg2)) rfl 64 rfl k h hj

/-- and the last 64 the value weights. -/
theorem V1_v1_v (c : Dev nD) (k : Fin 1024) (h : Fin 64) (hj : 128 + h.val < 192) :
    (V1 m ρ c main_v1 : S1024x192.Idx → EReal) (ix2 k (⟨128 + h.val, hj⟩ : Fin 192))
      = (m ((c : Thread nD τ).loc main_arg3) : S1024x64.Idx → EReal) (ix2 k h) := by
  rw [V1_v1]
  exact Cert.Lib.concat_cols_apply (R := 1024) (C := 192) (wlist m c) concatenates_S1024x64_S1024x64_S1024x64_S1024x192_d1 2
    (Nat.succ_lt_succ (Nat.succ_lt_succ (Nat.zero_lt_succ _))) (n := 64) (m ((c : Thread nD τ).loc main_arg3)) rfl 128 rfl k h hj

/-! ## After the region -/

/-- A column band `[off, off + 64)` of a `[16384, 192]` array, reshaped to `[8, 2048, 64]`, at `(b, t, h)`:
    the array at row `2048 b + t`, column `off + h`. -/
theorem band_apply (y : S16384x192.Idx → EReal) (off : Nat) (hs : S16384x192.Slices ![0, off] S16384x64)
    (b : Fin 8) (t : Fin 2048) (h : Fin 64) (hr : b.val * 2048 + t.val < 16384) (hj : off + h.val < 192) :
    shapeCast S8x2048x64 (extractStridedSlice S16384x64 ![0, off] y hs) shapeCasts_S16384x64_S8x2048x64 (ix3 b t h)
      = y (ix2 (⟨b.val * 2048 + t.val, hr⟩ : Fin 16384) (⟨off + h.val, hj⟩ : Fin 192)) := by
  rw [shapeCast_apply _ shapeCasts_S16384x64_S8x2048x64 (ix3 b t h) (ix2 (⟨b.val * 2048 + t.val, hr⟩ : Fin 16384) h)
    (by rw [Shape.rowMajor_val_three, Shape.rowMajor_val_two]; rfl)]
  refine extractStridedSlice_apply _ y hs _ _ fun a => ?_
  match a with
  | ⟨0, _⟩ => show b.val * 2048 + t.val = 0 + (b.val * 2048 + t.val); omega
  | ⟨1, _⟩ => rfl

theorem V3_v4 (c : Dev nD) :
    (V3 m ρ c main_v4 : S8x2048x64.Idx → EReal)
      = shapeCast S8x2048x64 (extractStridedSlice S16384x64 ![0, 0] (W2 m ρ c (Proc.devRef .tc main_v2) : S16384x192.Idx → EReal) slices_S16384x192_S16384x64_0_0) shapeCasts_S16384x64_S8x2048x64 := by
  show StableHlo.after hostOps1 (W2 m ρ c) (Proc.devRef .tc main_v4) = _
  after_results
  rfl

theorem V3_v6 (c : Dev nD) :
    (V3 m ρ c main_v6 : S8x2048x64.Idx → EReal)
      = shapeCast S8x2048x64 (extractStridedSlice S16384x64 ![0, 64] (W2 m ρ c (Proc.devRef .tc main_v2) : S16384x192.Idx → EReal) slices_S16384x192_S16384x64_0_64) shapeCasts_S16384x64_S8x2048x64 := by
  show StableHlo.after hostOps1 (W2 m ρ c) (Proc.devRef .tc main_v6) = _
  after_results
  rfl

theorem V3_v8 (c : Dev nD) :
    (V3 m ρ c main_v8 : S8x2048x64.Idx → EReal)
      = shapeCast S8x2048x64 (extractStridedSlice S16384x64 ![0, 128] (W2 m ρ c (Proc.devRef .tc main_v2) : S16384x192.Idx → EReal) slices_S16384x192_S16384x64_0_128) shapeCasts_S16384x64_S8x2048x64 := by
  show StableHlo.after hostOps1 (W2 m ρ c) (Proc.devRef .tc main_v8) = _
  after_results
  rfl

end Cert.KernelIdeal.Gen.Hand

end
-- ==== Proof.ProjValue.lean ====
/-
  The three projections as the attention region finds them.

  Chaining the host re-indexings with the projection region's output array: position `(b, t, h)` of each of the
  three reshaped column bands is row `2048 b + t` of the flattened input against a column of the joined weights,
  which is row `(b, t)` of the input against column `h` of the query, key or value weights. On inputs that are
  coercions of reals this sum of products is the coercion of the real projection.
-/
import proofs.«126090_j73151882985755_2_alg».proof.Proof.ProjBlocks
import proofs.«126090_j73151882985755_2_alg».proof.Proof.ProjHost
import proofs.«126090_j73151882985755_2_alg».proof.Proof.CoeFacts

set_option maxRecDepth 16384

noncomputable section

namespace Cert.KernelIdeal.Gen.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The projection region's output array, as the second host stretch finds it, is the product of the flattened input
    with the joined weights. -/
theorem W2_v2 (c : Dev nD) :
    (W2 m ρ c (Proc.devRef .tc main_v2) : S16384x192.Idx → EReal) = projAll (V1 m ρ c main_v0) (V1 m ρ c main_v1) :=
  (W2_arr m ρ c 2).trans (final0 (V1 m ρ) c)

/-- Row `2048 b + t`, column `off + h` of the product of two arrays, when that row of the left array is row `(b, t)`
    of `x` and that column of the right array is column `h` of `w`: the row of `x` against that column of `w`. -/
theorem projAll_at (a0 : S16384x1024.Idx → EReal) (a1 : S1024x192.Idx → EReal) (x : S8x2048x1024.Idx → EReal)
    (w : S1024x64.Idx → EReal) (off : Nat) (b : Fin 8) (t : Fin 2048) (h : Fin 64)
    (hr : b.val * 2048 + t.val < 16384) (hj : off + h.val < 192)
    (h0 : ∀ k : Fin 1024, a0 (ix2 (⟨b.val * 2048 + t.val, hr⟩ : Fin 16384) k) = x (ix3 b t k))
    (h1 : ∀ k : Fin 1024, a1 (ix2 k (⟨off + h.val, hj⟩ : Fin 192)) = w (ix2 k h)) :
    projAll a0 a1 (ix2 (⟨b.val * 2048 + t.val, hr⟩ : Fin 16384) (⟨off + h.val, hj⟩ : Fin 192))
      = ∑ k : Fin 1024, x (ix3 b t k) * w (ix2 k h) := by
  unfold projAll
  refine Finset.sum_congr rfl fun k _ => ?_
  exact congrArg₂ (· * ·) (h0 k) (h1 k)

/-- A row of coerced reals against a column of coerced reals is the coerced real projection. -/
theorem proj_coe (x : S8x2048x1024.Idx → EReal) (w : S1024x64.Idx → EReal)
    (xr : Fin 8 → Fin 2048 → Fin 1024 → ℝ) (wr : Fin 1024 → Fin 64 → ℝ)
    (hx : ∀ b t k, x (ix3 b t k) = ((xr b t k : ℝ) : EReal)) (hw : ∀ k h, w (ix2 k h) = ((wr k h : ℝ) : EReal))
    (b : Fin 8) (t : Fin 2048) (h : Fin 64) :
    ∑ k : Fin 1024, x (ix3 b t k) * w (ix2 k h) = ((Cert.Attn.proj xr wr b t h : ℝ) : EReal) := by
  simp only [hx, hw]
  exact Cert.Attn.sum_mul_coe _ _

/-- The three projections at `(b, t, h)`, on inputs that are coercions of reals. -/
theorem qkv_at (c : Dev nD)
    (xr : Fin 8 → Fin 2048 → Fin 1024 → ℝ) (wqr wkr wvr : Fin 1024 → Fin 64 → ℝ)
    (hx : ∀ b t k, (m ((c : Thread nD τ).loc main_arg0) : S8x2048x1024.Idx → EReal) (ix3 b t k) = ((xr b t k : ℝ) : EReal))
    (hq : ∀ k h, (m ((c : Thread nD τ).loc main_arg1) : S1024x64.Idx → EReal) (ix2 k h) = ((wqr k h : ℝ) : EReal))
    (hk : ∀ k h, (m ((c : Thread nD τ).loc main_arg2) : S1024x64.Idx → EReal) (ix2 k h) = ((wkr k h : ℝ) : EReal))
    (hv : ∀ k h, (m ((c : Thread nD τ).loc main_arg3) : S1024x64.Idx → EReal) (ix2 k h) = ((wvr k h : ℝ) : EReal)) :
    (∀ b t h, (V3 m ρ c main_v4 : S8x2048x64.Idx → EReal) (ix3 b t h) = ((Cert.Attn.proj xr wqr b t h : ℝ) : EReal))
    ∧ (∀ b t h, (V3 m ρ c main_v6 : S8x2048x64.Idx → EReal) (ix3 b t h) = ((Cert.Attn.proj xr wkr b t h : ℝ) : EReal))
    ∧ (∀ b t h, (V3 m ρ c main_v8 : S8x2048x64.Idx → EReal) (ix3 b t h) = ((Cert.Attn.proj xr wvr b t h : ℝ) : EReal)) := by
  refine ⟨fun b t h => ?_, fun b t h => ?_, fun b t h => ?_⟩
  · have hr : b.val * 2048 + t.val < 16384 := by have := b.isLt; have := t.isLt; omega
    have hj : 0 + h.val < 192 := by have := h.isLt; omega
    rw [V3_v4, band_apply _ 0 _ b t h hr hj, W2_v2,
      projAll_at _ _ (m ((c : Thread nD τ).loc main_arg0)) (m ((c : Thread nD τ).loc main_arg1)) 0 b t h hr hj
        (fun k => V1_v0_apply m ρ c b t k hr) (fun k => V1_v1_q m ρ c k h hj)]
    exact proj_coe _ _ xr wqr hx hq b t h
  · have hr : b.val * 2048 + t.val < 16384 := by have := b.isLt; have := t.isLt; omega
    have hj : 64 + h.val < 192 := by have := h.isLt; omega
    rw [V3_v6, band_apply _ 64 _ b t h hr hj, W2_v2,
      projAll_at _ _ (m ((c : Thread nD τ).loc main_arg0)) (m ((c : Thread nD τ).loc main_arg2)) 64 b t h hr hj
        (fun k => V1_v0_apply m ρ c b t k hr) (fun k => V1_v1_k m ρ c k h hj)]
    exact proj_coe _ _ xr wkr hx hk b t h
  · have hr : b.val * 2048 + t.val < 16384 := by have := b.isLt; have := t.isLt; omega
    have hj : 128 + h.val < 192 := by have := h.isLt; omega
    rw [V3_v8, band_apply _ 128 _ b t h hr hj, W2_v2,
      projAll_at _ _ (m ((c : Thread nD τ).loc main_arg0)) (m ((c : Thread nD τ).loc main_arg3)) 128 b t h hr hj
        (fun k => V1_v0_apply m ρ c b t k hr) (fun k => V1_v1_v m ρ c k h hj)]
    exact proj_coe _ _ xr wvr hx hv b t h

end Cert.KernelIdeal.Gen.Hand

end
-- ==== Proof.FlashPieces.lean ====
/-
  What each case of the flash body leaves, as values: the pieces the runs found, read back. A first key tile leaves
  the accumulators updated from their reset values (row maximum -inf, denominator 0, numerator 0); a diagonal last tile
  leaves them updated from what the point before left, and the quotient numerator / denominator in the output block; a
  last tile above the diagonal leaves that quotient of the accumulators as they were.
-/
import proofs.«126090_j73151882985755_2_alg».proof.Proof.FlashData
import Idealize.ShloMosaic.Lib.Pipeline.Value

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- One key tile's update of the three accumulators, from the query, key and value blocks: the new row maximum, the
    new denominator, the new numerator. -/
def upd (a1 a2 : BitVec 32) (q k v : Vec F S1x1024x64 .bf16) (sm sl : Vec F S1024x1 .f32) (sacc : Vec F S1024x64 .f32) :
    Vec F S1024x1 .f32 × Vec F S1024x1 .f32 × Vec F S1024x64 .f32 :=
  (k1_pay6 (k1_pay10 a1 a2 q k sm), k1_pay4 (k1_pay13 a1 a2 q k sm sl),
   k1_pay5 (k1_pay8 v) (k1_pay11 a1 a2 q k sm) (k1_pay12 a1 a2 q k sm) sacc)

/-- The query-tile and key-tile words of a grid point. -/
abbrev wq1 (t : Fin cfg1.N) : BitVec 32 := BitVec.ofNat 32 (grid1.coords t 1).val
abbrev wk1 (t : Fin cfg1.N) : BitVec 32 := BitVec.ofNat 32 (grid1.coords t 2).val

theorem stA_m (c : Dev nD) (t : Fin cfg1.N) (h : t.val % 2 = 0) :
    (stA V c t h).2.1 = (upd (wq1 t) (wk1 t) (iblk1 V c 0 t) (iblk1 V c 1 t) (iblk1 V c 2 t) k1_pay1 k1_pay2 k1_pay3).1 := by
  unfold stA; dsimp only
  rw [View.read_writes_eq_canon _ _ _ (scoverA_0 V c t h)]
  unfold kernelRunA
  dsimp only
  sl_unfold_words
  rw [View.canon_cons_unit_zero (S := S1024x1) hz2, View.readCov_unit_zero (S := S1024x1) _ hz2]
  simp only [View.readAt_eq_ld, (hs1_0 t).read_unread, (hs1_1 t).read_unread, View.ld_unit_zero (S := S1x1024x64) hz3]
  rfl

theorem stA_l (c : Dev nD) (t : Fin cfg1.N) (h : t.val % 2 = 0) :
    (stA V c t h).2.2.1 = (upd (wq1 t) (wk1 t) (iblk1 V c 0 t) (iblk1 V c 1 t) (iblk1 V c 2 t) k1_pay1 k1_pay2 k1_pay3).2.1 := by
  unfold stA; dsimp only
  rw [View.read_writes_eq_canon _ _ _ (scoverA_1 V c t h)]
  unfold kernelRunA
  dsimp only
  sl_unfold_words
  rw [View.canon_cons_unit_zero (S := S1024x1) hz2, View.readCov_unit_zero (S := S1024x1) _ hz2, View.readCov_unit_zero (S := S1024x1) _ hz2]
  simp only [View.readAt_eq_ld, (hs1_0 t).read_unread, (hs1_1 t).read_unread, View.ld_unit_zero (S := S1x1024x64) hz3]
  rfl

theorem stA_acc (c : Dev nD) (t : Fin cfg1.N) (h : t.val % 2 = 0) :
    (stA V c t h).2.2.2 = (upd (wq1 t) (wk1 t) (iblk1 V c 0 t) (iblk1 V c 1 t) (iblk1 V c 2 t) k1_pay1 k1_pay2 k1_pay3).2.2 := by
  unfold stA; dsimp only
  rw [View.read_writes_eq_canon _ _ _ (scoverA_2 V c t h)]
  unfold kernelRunA
  dsimp only
  sl_unfold_words
  rw [View.canon_cons_unit_zero (S := S1024x64) hz2, View.readCov_unit_zero (S := S1024x64) _ hz2, View.readCov_unit_zero (S := S1024x1) _ hz2]
  simp only [View.readAt_eq_ld, (hs1_0 t).read_unread, (hs1_1 t).read_unread, (hs1_2 t).read_unread, View.ld_unit_zero (S := S1x1024x64) hz3]
  rfl

theorem rd_scM (hw : scM.IsWhole) (x : Vec F S1024x1 .f32) : View.read (Elt F) (View.whole cc1_scratch0) (hw.unread x) = x := hw.read_unread x
theorem rd_scL (hw : scL.IsWhole) (x : Vec F S1024x1 .f32) : View.read (Elt F) (View.whole cc1_scratch1) (hw.unread x) = x := hw.read_unread x
theorem rd_scA (hw : scA.IsWhole) (x : Vec F S1024x64 .f32) : View.read (Elt F) (View.whole cc1_scratch2) (hw.unread x) = x := hw.read_unread x

theorem stB_out (c : Dev nD) (t : Fin cfg1.N) (h : t.val % 4 = 1) (p : St F) :
    (stB V c t h p).1 = k1_pay7 p.2.2.2 p.2.2.1 := by
  unfold stB; dsimp only
  rw [View.read_writes_eq_canon _ _ _ (coverB_3 V c t h p)]
  unfold kernelRunB
  dsimp only
  sl_unfold_words
  rw [View.canon_unit_zero hz3]
  simp only [View.readAt_eq_ld, Memref.IsWhole.read_unread, View.ld_unit_zero (S := S1024x64) hz2, View.ld_unit_zero (S := S1024x1) hz2, rd_scM, rd_scL, rd_scA]

theorem stD_out (c : Dev nD) (t : Fin cfg1.N) (h : t.val % 4 = 3) (p : St F) :
    (stD V c t h p).1 = k1_pay7 (upd (wq1 t) (wk1 t) (iblk1 V c 0 t) (iblk1 V c 1 t) (iblk1 V c 2 t) p.2.1 p.2.2.1 p.2.2.2).2.2
      (upd (wq1 t) (wk1 t) (iblk1 V c 0 t) (iblk1 V c 1 t) (iblk1 V c 2 t) p.2.1 p.2.2.1 p.2.2.2).2.1 := by
  unfold stD; dsimp only
  rw [View.read_writes_eq_canon _ _ _ (coverD_3 V c t h p)]
  unfold kernelRunD
  dsimp only
  sl_unfold_words
  rw [View.canon_unit_zero hz3, View.readCov_unit_zero (S := S1024x64) _ hz2, View.readCov_unit_zero (S := S1024x1) _ hz2]
  simp only [View.readAt_eq_ld, Memref.IsWhole.read_unread, (hs1_0 t).read_unread, (hs1_1 t).read_unread, (hs1_2 t).read_unread,
    View.ld_unit_zero (S := S1x1024x64) hz3, View.ld_unit_zero (S := S1024x64) hz2, View.ld_unit_zero (S := S1024x1) hz2, rd_scM, rd_scL, rd_scA]
  rfl

end Cert.KernelIdeal.Gen.Hand

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.FlashPayload.lean ====
/-
  The flash body's payloads read at an index on the extended reals, part 1: the three resets (the running maximum
  starts at −∞, the running denominator and numerator at 0), the casts that change no element, the value tile with its
  unit batch axis dropped, the numerator's update (the old numerator rescaled plus the probabilities times the values)
  and the final normalisation (numerator over denominator, the unit batch axis put back).
-/
import proofs.«126090_j73151882985755_2_alg».proof.Proof.Gen.KernelIdeal.Skeleton
import proofs.«126090_j73151882985755_2_alg».proof.Proof.LibMatDot
import proofs.«126090_j73151882985755_2_alg».proof.Proof.LibColumn
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Gen.Hand

open Idealize.ShloMosaic Idealize.ShloMosaic.ValueIdx
open scoped BigOperators

/-- The word `0xFF800000` is −∞. -/
theorem ofBits_neg_inf : Ideal.ofBits .f32 0xFF800000#32 = (⊥ : EReal) := by
  simp [Ideal.ofBits, Ideal.ieee]

/-- The running maximum is reset to −∞ in every row. -/
theorem pay1_at (r : Fin 1024) : k1_pay1 (F := Ideal) (ix2 r (0 : Fin 1)) = (⊥ : EReal) := by
  unfold k1_pay1
  rw [shapeCast_self]
  exact ofBits_neg_inf

/-- The running denominator is reset to 0 in every row. -/
theorem pay2_at (r : Fin 1024) : k1_pay2 (F := Ideal) (ix2 r (0 : Fin 1)) = (0 : EReal) := by
  unfold k1_pay2
  rw [shapeCast_self]
  exact Ideal.ofBits_zero_f32

/-- The running numerator is reset to 0 at every entry. -/
theorem pay3_at (r : Fin 1024) (h : Fin 64) : k1_pay3 (F := Ideal) (ix2 r h) = (0 : EReal) := by
  unfold k1_pay3
  rw [shapeCast_self]
  exact Ideal.ofBits_zero_f32

variable {F : FTy → Type} [FloatOps F] [Named F]

/-- A cast to the same shape changes nothing: the stored denominator is the computed one. -/
theorem pay4_eq (x : FVec F S1024x1 .f32) : k1_pay4 x = x := shapeCast_self x _

/-- A cast to the same shape changes nothing: the stored maximum is the computed one. -/
theorem pay6_eq (x : FVec F S1024x1 .f32) : k1_pay6 x = x := shapeCast_self x _

/-- The value tile with its unit batch axis dropped. -/
theorem pay8_at (v : Vec F S1x1024x64 .bf16) (u : Fin 1024) (h : Fin 64) :
    k1_pay8 v (ix2 u h) = v (ix3 (0 : Fin 1) u h) :=
  shapeCast_1ab_ab_apply v _ u h

/-- The normalisation: entry `(r, h)` of the numerator divided by row `r`'s denominator. -/
theorem pay7_at (v9 : Vec Ideal S1024x64 .f32) (v10 : Vec Ideal S1024x1 .f32) (r : Fin 1024) (h : Fin 64) :
    k1_pay7 v9 v10 (ix3 (0 : Fin 1) r h) = Ideal.div (v9 (ix2 r h)) (v10 (ix2 r (0 : Fin 1))) := by
  unfold k1_pay7
  rw [shapeCast_ab_1ab_apply, divf_apply, Cert.Lib.broadcastTo_a1_ab_apply]

/-- The numerator's update: the old entry rescaled by the row's correction factor, plus the row of probabilities
    against the column of values. -/
theorem pay5_at (v18 : FVec Ideal S1024x64 .bf16) (v37 : FVec Ideal S1024x1 .f32) (v40 : FVec Ideal S1024x1024 .f32)
    (v49 : Vec Ideal S1024x64 .f32) (r : Fin 1024) (h : Fin 64) :
    k1_pay5 v18 v37 v40 v49 (ix2 r h)
      = v37 (ix2 r (0 : Fin 1)) * v49 (ix2 r h) + ∑ u : Fin 1024, v40 (ix2 r u) * v18 (ix2 u h) := by
  unfold k1_pay5
  rw [shapeCast_self, addf_apply, mulf_apply, Cert.Lib.broadcastTo_a1_ab_apply]
  refine congrArg (v37 (ix2 r (0 : Fin 1)) * v49 (ix2 r h) + ·) ?_
  exact Cert.Lib.matmul_plain_zero_apply dot_S1024x1024_S1024x64_S1024x64_1_0_0_1_n_n_wf none
    (truncf .bf16 v40 bitsLt_bf16_f32) v18 r h

end Cert.KernelIdeal.Gen.Hand

end
-- ==== Proof.FlashPayloadScore.lean ====
/-
  The flash body's payloads read at an index on the extended reals, part 2: the masked scaled scores. Entry `(r, u)` of
  the score tile of query tile `qi` against key tile `ki` is the dot product over the head axis of query row `r`,
  scaled, with key row `u`, where key position `1024·ki + u` is not after query position `1024·qi + r`, and −∞ elsewhere.
-/
import proofs.«126090_j73151882985755_2_alg».proof.Proof.Gen.KernelIdeal.Skeleton
import proofs.«126090_j73151882985755_2_alg».proof.Proof.LibMatDot
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.IdealRules

noncomputable section

namespace Cert.KernelIdeal.Gen.Hand

open Idealize.ShloMosaic Idealize.ShloMosaic.ValueIdx
open scoped BigOperators

/-! ## Words: positions as 32-bit integers -/

/-- A natural below `2^31` read as a 32-bit word and back as a signed integer is itself. -/
theorem toInt_ofNat_small (n : ℕ) (hn : n < 2 ^ 31) : (BitVec.ofNat 32 n).toInt = (n : Int) := by
  have hn' : (BitVec.ofNat 32 n).toNat = n := by
    rw [BitVec.toNat_ofNat]; exact Nat.mod_eq_of_lt (by omega)
  rw [BitVec.toInt_eq_toNat_of_lt (by rw [hn']; omega), hn']

/-- The signed comparison `≥` of two naturals below `2^31` read as 32-bit words is the comparison of the naturals. -/
theorem cmpi_sge_ofNat (a b : ℕ) (ha : a < 2 ^ 31) (hb : b < 2 ^ 31) :
    IntOp.cmpi .sge (BitVec.ofNat 32 a) (BitVec.ofNat 32 b) = if b ≤ a then 1#1 else 0#1 := by
  show BitVec.ofBool ((BitVec.ofNat 32 b).sle (BitVec.ofNat 32 a)) = _
  rw [BitVec.sle, toInt_ofNat_small a ha, toInt_ofNat_small b hb]
  by_cases h : b ≤ a
  · rw [if_pos h, decide_eq_true (by exact_mod_cast h)]; rfl
  · rw [if_neg h, decide_eq_false (by exact_mod_cast h)]; rfl

/-- A tile's first position plus a coordinate inside the tile, computed on 32-bit words. -/
theorem tile_pos (t c : ℕ) :
    Scalar.muli (BitVec.ofNat 32 t) 1024#32 + BitVec.ofNat 32 (0 * 1024 + c) = BitVec.ofNat 32 (1024 * t + c) := by
  show BitVec.ofNat 32 t * BitVec.ofNat 32 1024 + BitVec.ofNat 32 (0 * 1024 + c) = _
  rw [← BitVec.ofNat_mul, ← BitVec.ofNat_add]
  congr 1; omega

/-- A select on a decided condition is the `if`. -/
theorem select_ite {α : Type} (c : Prop) [Decidable c] (A B : α) :
    Scalar.select (if c then 1#1 else 0#1) A B = if c then A else B := by
  split
  · exact select_one A B
  · exact select_zero A B

/-! ## The causal mask -/

/-- The mask at `(r, u)` of tile `(qi, ki)`: the query position `1024·qi + r` against the key position `1024·ki + u`. -/
theorem mask_at (qi ki : ℕ) (hqi : qi < 2) (hki : ki < 2) (r u : Fin 1024) :
    cmpi .sge
        (addi (broadcast S1024x1024 (Scalar.muli (BitVec.ofNat 32 qi) 1024#32))
          (iota .tc S1024x1024 32 [0] iota_S1024x1024_d0_w32))
        (addi (broadcast S1024x1024 (Scalar.muli (BitVec.ofNat 32 ki) 1024#32))
          (iota .tc S1024x1024 32 [1] iota_S1024x1024_d1_w32))
        (ix2 r u)
      = if 1024 * ki + u.val ≤ 1024 * qi + r.val then 1#1 else 0#1 := by
  show IntOp.cmpi .sge
      (Scalar.muli (BitVec.ofNat 32 qi) 1024#32 + BitVec.ofNat 32 (0 * 1024 + r.val))
      (Scalar.muli (BitVec.ofNat 32 ki) 1024#32 + BitVec.ofNat 32 (0 * 1024 + u.val)) = _
  rw [tile_pos, tile_pos]
  exact cmpi_sge_ofNat _ _ (by have := r.isLt; omega) (by have := u.isLt; omega)

/-- The masking constant is −∞ on the extended reals. -/
theorem neg_big_eq : Named.named (F := Ideal) κ "neg_big" (φ := .f32) 0xF149F2CA#32 = (⊥ : EReal) :=
  IdealRules.named_const.ideal_named_scalar κ "neg_big" _ ⊥ rfl

/-! ## The scores -/

/-- The scale's word `0x3D000000` is the real 2⁻⁵, one thirty-second. -/
theorem ofBits_scale : Ideal.ofBits .f32 0x3D000000#32 = (((1 : ℝ) / 32 : ℝ) : EReal) := by
  simp [Ideal.ofBits, Ideal.ieee, -EReal.coe_mul]; norm_num

/-- THE MASKED SCALED SCORES at `(r, u)`. -/
theorem pay9_at (qi ki : ℕ) (hqi : qi < 2) (hki : ki < 2) (q k : Vec Ideal S1x1024x64 .bf16) (r u : Fin 1024) :
    k1_pay9 (BitVec.ofNat 32 qi) (BitVec.ofNat 32 ki) q k (ix2 r u)
      = if 1024 * ki + u.val ≤ 1024 * qi + r.val then
          ∑ h : Fin 64, (q (ix3 (0 : Fin 1) r h) * Ideal.ofBits .f32 0x3D000000#32) * k (ix3 (0 : Fin 1) u h)
        else (⊥ : EReal) := by
  unfold k1_pay9
  rw [select_apply, mask_at qi ki hqi hki r u, select_ite, broadcast_apply, neg_big_eq]
  refine if_congr Iff.rfl ?_ rfl
  refine (Cert.Lib.matmul_plain_zero_apply dot_S1024x64_S64x1024_S1024x1024_1_0_0_1_n_n_wf none _ _ r u).trans ?_
  refine Finset.sum_congr rfl fun h _ => ?_
  rw [transpose_ix2_apply, shapeCast_1ab_ab_apply, truncf_apply, mulf_apply, extf_apply, broadcast_apply,
    shapeCast_1ab_ab_apply]
  rfl

end Cert.KernelIdeal.Gen.Hand

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«126090_j73151882985755_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.FlashPayloadSoftmax.lean ====
/-
  The flash body's payloads read at an index on the extended reals, part 3: the online-softmax bookkeeping of one key
  tile. The new running maximum of a row is the old one against the row's largest score; the correction factor is the
  exponential of the old maximum minus the new one; a probability is the exponential of a score minus the new maximum;
  the new denominator is the old one rescaled plus the row's probabilities summed.
-/
import proofs.«126090_j73151882985755_2_alg».proof.Proof.Gen.KernelIdeal.Skeleton
import proofs.«126090_j73151882985755_2_alg».proof.Proof.LibRowMax
import proofs.«126090_j73151882985755_2_alg».proof.Proof.LibRowSum
import proofs.«126090_j73151882985755_2_alg».proof.Proof.LibColumn
import Idealize.ShloMosaic.Lib.ValueIdx
import Idealize.ShloMosaic.Lib.Pipeline.Value
import Idealize.ShloMosaic.PureOps.Ideal
import Idealize.ShloMosaic.PureOps.Ideal.Laws

noncomputable section

namespace Cert.KernelIdeal.Gen.Hand

open Idealize.ShloMosaic Idealize.ShloMosaic.ValueIdx
open scoped BigOperators

/-- The word `0xFF800000` is −∞. -/
theorem ofBits_neg_inf' : Ideal.ofBits .f32 0xFF800000#32 = (⊥ : EReal) := by
  simp [Ideal.ofBits, Ideal.ieee]

/-- A row's maximum, kept as a column: the fold of `max` from −∞ over the row. -/
theorem rowmax_at (src : FVec Ideal S1024x1024 .f32) (hφ : FKind.Formats .f32)
    (hacc : (0xFF800000#32 : BitVec 32) = FKind.maximumf.neutral .f32 hφ) (r : Fin 1024) :
    shapeCast S1024x1 (multiReduction .maximumf [1] S1024 src 0xFF800000#32 reduces_S1024x1024_S1024 hφ hacc)
        shapeCasts_S1024_S1024x1 (ix2 r (0 : Fin 1))
      = (Finset.univ : Finset (Fin 1024)).fold max (⊥ : EReal) (fun u => src (ix2 r u)) := by
  rw [Cert.Lib.shapeCast_a_a1_apply]
  refine (Cert.Lib.multiReduction_maximumf_rows src 0xFF800000#32 reduces_S1024x1024_S1024 hφ hacc r).trans ?_
  rw [ofBits_neg_inf']

/-- A row's sum, kept as a column. -/
theorem rowsum_at (src : FVec Ideal S1024x1024 .f32) (hφ : FKind.Formats .f32)
    (hacc : (0x00000000#32 : BitVec 32) = FKind.add.neutral .f32 hφ) (r : Fin 1024) :
    shapeCast S1024x1 (multiReduction .add [1] S1024 src 0x00000000#32 reduces_S1024x1024_S1024 hφ hacc)
        shapeCasts_S1024_S1024x1 (ix2 r (0 : Fin 1))
      = ∑ u : Fin 1024, src (ix2 r u) := by
  rw [Cert.Lib.shapeCast_a_a1_apply]
  exact Cert.Lib.multiReduction_add_rows src 0x00000000#32 reduces_S1024x1024_S1024 hφ hacc r

variable (a1 a2 : BitVec 32) (q k : Vec Ideal S1x1024x64 .bf16) (sm sl : Vec Ideal S1024x1 .f32)

/-- The new running maximum of row `r`: the old one against the largest score of the row. -/
theorem pay10_at (r : Fin 1024) :
    k1_pay10 a1 a2 q k sm (ix2 r (0 : Fin 1))
      = max (sm (ix2 r (0 : Fin 1)))
          ((Finset.univ : Finset (Fin 1024)).fold max (⊥ : EReal) (fun u => k1_pay9 a1 a2 q k (ix2 r u))) := by
  unfold k1_pay10
  rw [maximumf_apply]
  exact congrArg (max (sm (ix2 r (0 : Fin 1)))) (rowmax_at (k1_pay9 a1 a2 q k) _ _ r)

/-- The correction factor of row `r`: the exponential of the old maximum minus the new one. -/
theorem pay11_at (r : Fin 1024) :
    k1_pay11 a1 a2 q k sm (ix2 r (0 : Fin 1))
      = Ideal.exp (sm (ix2 r (0 : Fin 1)) - k1_pay10 a1 a2 q k sm (ix2 r (0 : Fin 1))) := by
  unfold k1_pay11
  rfl

/-- A probability: the exponential of the score minus the row's new maximum. -/
theorem pay12_at (r u : Fin 1024) :
    k1_pay12 a1 a2 q k sm (ix2 r u)
      = Ideal.exp (k1_pay9 a1 a2 q k (ix2 r u) - k1_pay10 a1 a2 q k sm (ix2 r (0 : Fin 1))) := by
  unfold k1_pay12
  show Ideal.exp (k1_pay9 a1 a2 q k (ix2 r u)
      - broadcastTo S1024x1024 (k1_pay10 a1 a2 q k sm) broadcasts_S1024x1_S1024x1024 (ix2 r u)) = _
  rw [Cert.Lib.broadcastTo_a1_ab_apply]

/-- The new denominator of row `r`: the old one rescaled plus the row's probabilities summed. -/
theorem pay13_at (r : Fin 1024) :
    k1_pay13 a1 a2 q k sm sl (ix2 r (0 : Fin 1))
      = k1_pay11 a1 a2 q k sm (ix2 r (0 : Fin 1)) * sl (ix2 r (0 : Fin 1))
        + ∑ u : Fin 1024, k1_pay12 a1 a2 q k sm (ix2 r u) := by
  unfold k1_pay13
  rw [addf_apply, mulf_apply]
  exact congrArg (k1_pay11 a1 a2 q k sm (ix2 r (0 : Fin 1)) * sl (ix2 r (0 : Fin 1)) + ·)
    (rowsum_at (k1_pay12 a1 a2 q k sm) _ _ r)

end Cert.KernelIdeal.Gen.Hand

end
-- ==== Proof.TileCoe.lean ====
/-
  One key tile's accumulator update over the extended reals, when its inputs are coercions of reals. A masked score is a
  real where the key is kept and -∞ where it is not; the fold of max from -∞ is then the coercion of the kept maximum,
  the exponential of (masked score - maximum) the coercion of the real weight (0 at a masked key), and each update is
  the coercion of its real formula. Nothing here mentions a program.
-/
import proofs.«126090_j73151882985755_2_alg».proof.Proof.CoeFacts

noncomputable section

namespace Cert.Attn

open Idealize.ShloMosaic Finset

variable {ι : Type*} [Fintype ι]

/-- Folding max from -∞ over scores masked by `kp`: the coercion of any real that bounds the kept scores and is one. -/
theorem fold_max_msk (kp : ι → Prop) [DecidablePred kp] (sc : ι → ℝ) (M : ℝ)
    (hle : ∀ u, kp u → sc u ≤ M) (hex : ∃ u, kp u ∧ M = sc u) :
    (Finset.univ : Finset ι).fold max (⊥ : EReal) (fun u => if kp u then ((sc u : ℝ) : EReal) else ⊥) = ((M : ℝ) : EReal) := by
  apply le_antisymm
  · rw [Finset.fold_max_le]
    refine ⟨bot_le, fun u _ => ?_⟩
    split_ifs with h
    · exact EReal.coe_le_coe_iff.2 (hle u h)
    · exact bot_le
  · obtain ⟨u, hu, h⟩ := hex
    rw [h, Finset.le_fold_max]
    exact Or.inr ⟨u, Finset.mem_univ u, by rw [if_pos hu]⟩

/-- The exponential of a masked score less a real maximum is the coercion of the real weight. -/
theorem exp_msk_sub (kp : ι → Prop) [DecidablePred kp] (sc : ι → ℝ) (M : ℝ) (u : ι) :
    Ideal.exp ((if kp u then ((sc u : ℝ) : EReal) else ⊥) - ((M : ℝ) : EReal)) = (((if kp u then Real.exp (sc u - M) else 0 : ℝ)) : EReal) := by
  split_ifs with h
  · rw [← EReal.coe_sub, Ideal.exp_coe]
  · rw [EReal.bot_sub, Ideal.exp_bot, EReal.coe_zero]

/-- From -∞ nothing survives: exp (-∞ - M) = 0. -/
theorem exp_bot_sub (M : ℝ) : Ideal.exp ((⊥ : EReal) - ((M : ℝ) : EReal)) = 0 := by
  rw [EReal.bot_sub, Ideal.exp_bot]

/-- The rescaling factor between two real maxima. -/
theorem exp_coe_sub (a b : ℝ) : Ideal.exp (((a : ℝ) : EReal) - ((b : ℝ) : EReal)) = ((Real.exp (a - b) : ℝ) : EReal) := by
  rw [← EReal.coe_sub, Ideal.exp_coe]

theorem max_bot_coe (M : ℝ) : max (⊥ : EReal) ((M : ℝ) : EReal) = ((M : ℝ) : EReal) := max_eq_right bot_le
theorem max_coe_coe (a b : ℝ) : max ((a : ℝ) : EReal) ((b : ℝ) : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A sum of products weight × value of coerced reals. -/
theorem sum_coe_mul_coe (w v : ι → ℝ) : ∑ u, ((w u : ℝ) : EReal) * ((v u : ℝ) : EReal) = ((∑ u, w u * v u : ℝ) : EReal) :=
  sum_mul_coe w v

theorem sum_coe (w : ι → ℝ) : ∑ u, ((w u : ℝ) : EReal) = ((∑ u, w u : ℝ) : EReal) := (coe_sum Finset.univ w).symm

end Cert.Attn

end
-- ==== Proof.FlashStep.lean ====
/-
  One key tile's update of the accumulators at the ideal instance, on blocks that are coercions of real blocks: the
  masked scaled scores are reals on the kept keys and -∞ elsewhere; from the reset values the update leaves the kept
  maximum, the sum of the weights and the weighted sum of the values; from real accumulators it leaves the larger
  maximum, and the old sums rescaled by exp (old maximum - new maximum) plus the tile's.
-/
import proofs.«126090_j73151882985755_2_alg».proof.Proof.FlashPieces
import proofs.«126090_j73151882985755_2_alg».proof.Proof.FlashPayload
import proofs.«126090_j73151882985755_2_alg».proof.Proof.FlashPayloadScore
import proofs.«126090_j73151882985755_2_alg».proof.Proof.FlashPayloadSoftmax
import proofs.«126090_j73151882985755_2_alg».proof.Proof.TileCoe

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn

section Step

variable (qi ki : ℕ) (hqi : qi < 2) (hki : ki < 2) (q k v : Vec Ideal S1x1024x64 .bf16) (qr kr vr : Fin 1024 → Fin 64 → ℝ)
  (hq : ∀ r h, q (ix3 (0 : Fin 1) r h) = ((qr r h : ℝ) : EReal)) (hk : ∀ u h, k (ix3 (0 : Fin 1) u h) = ((kr u h : ℝ) : EReal))
  (hv : ∀ u h, v (ix3 (0 : Fin 1) u h) = ((vr u h : ℝ) : EReal))

/-- The real scaled score of query row `r` against key row `u` of the two blocks. -/
def tsc (qr kr : Fin 1024 → Fin 64 → ℝ) (r u : Fin 1024) : ℝ := (∑ h : Fin 64, qr r h * kr u h) * (1 / 32)

include hqi hki hq hk in
/-- The masked scaled scores of the tile. -/
theorem pay9_real (r u : Fin 1024) :
    k1_pay9 (F := Ideal) (BitVec.ofNat 32 qi) (BitVec.ofNat 32 ki) q k (ix2 r u)
      = if 1024 * ki + u.val ≤ 1024 * qi + r.val then ((tsc qr kr r u : ℝ) : EReal) else ⊥ := by
  rw [pay9_at qi ki hqi hki q k r u]
  refine if_congr Iff.rfl ?_ rfl
  simp only [hq, hk, ofBits_scale]
  unfold tsc
  rw [Finset.sum_mul, coe_sum]
  exact Finset.sum_congr rfl fun h _ => by rw [← EReal.coe_mul, ← EReal.coe_mul]; congr 1; ring

variable (r : Fin 1024) (M : ℝ)
  (hle : ∀ u : Fin 1024, 1024 * ki + u.val ≤ 1024 * qi + r.val → tsc qr kr r u ≤ M)
  (hex : ∃ u : Fin 1024, 1024 * ki + u.val ≤ 1024 * qi + r.val ∧ M = tsc qr kr r u)

/-- The real weight of key `u` against the maximum `M`. -/
def gw (qi ki : ℕ) (qr kr : Fin 1024 → Fin 64 → ℝ) (r : Fin 1024) (M : ℝ) (u : Fin 1024) : ℝ :=
  if 1024 * ki + u.val ≤ 1024 * qi + r.val then Real.exp (tsc qr kr r u - M) else 0

include hqi hki hq hk hle hex in
theorem fold_pay9 : (Finset.univ.fold max (⊥ : EReal) fun u : Fin 1024 => k1_pay9 (F := Ideal) (BitVec.ofNat 32 qi) (BitVec.ofNat 32 ki) q k (ix2 r u)) = ((M : ℝ) : EReal) := by
  simp only [pay9_real qi ki hqi hki q k qr kr hq hk r]
  exact fold_max_msk (fun u : Fin 1024 => 1024 * ki + u.val ≤ 1024 * qi + r.val) (tsc qr kr r) M hle hex

/-! ### From the reset values -/

include hqi hki hq hk hle hex in
theorem reset_m :
    (upd (F := Ideal) (BitVec.ofNat 32 qi) (BitVec.ofNat 32 ki) q k v (k1_pay1 (F := Ideal)) (k1_pay2 (F := Ideal)) (k1_pay3 (F := Ideal))).1 (ix2 r (0 : Fin 1)) = ((M : ℝ) : EReal) := by
  show k1_pay6 (k1_pay10 _ _ q k (k1_pay1 (F := Ideal))) (ix2 r (0 : Fin 1)) = _
  rw [pay6_eq, pay10_at, pay1_at, fold_pay9 qi ki hqi hki q k qr kr hq hk r M hle hex, max_bot_coe]

include hqi hki hq hk hle hex in
theorem reset_p10 : k1_pay10 (F := Ideal) (BitVec.ofNat 32 qi) (BitVec.ofNat 32 ki) q k (k1_pay1 (F := Ideal)) (ix2 r (0 : Fin 1)) = ((M : ℝ) : EReal) := by
  rw [pay10_at, pay1_at, fold_pay9 qi ki hqi hki q k qr kr hq hk r M hle hex, max_bot_coe]

include hqi hki hq hk hle hex in
theorem reset_p11 : k1_pay11 (F := Ideal) (BitVec.ofNat 32 qi) (BitVec.ofNat 32 ki) q k (k1_pay1 (F := Ideal)) (ix2 r (0 : Fin 1)) = 0 := by
  rw [pay11_at, reset_p10 qi ki hqi hki q k qr kr hq hk r M hle hex, pay1_at, exp_bot_sub]

include hqi hki hq hk hle hex in
theorem reset_p12 (u : Fin 1024) : k1_pay12 (F := Ideal) (BitVec.ofNat 32 qi) (BitVec.ofNat 32 ki) q k (k1_pay1 (F := Ideal)) (ix2 r u) = ((gw qi ki qr kr r M u : ℝ) : EReal) := by
  rw [pay12_at, reset_p10 qi ki hqi hki q k qr kr hq hk r M hle hex, pay9_real qi ki hqi hki q k qr kr hq hk r u]
  exact exp_msk_sub (fun u : Fin 1024 => 1024 * ki + u.val ≤ 1024 * qi + r.val) (tsc qr kr r) M u

include hqi hki hq hk hle hex in
theorem reset_l :
    (upd (F := Ideal) (BitVec.ofNat 32 qi) (BitVec.ofNat 32 ki) q k v (k1_pay1 (F := Ideal)) (k1_pay2 (F := Ideal)) (k1_pay3 (F := Ideal))).2.1 (ix2 r (0 : Fin 1)) = ((∑ u, gw qi ki qr kr r M u : ℝ) : EReal) := by
  show k1_pay4 (k1_pay13 _ _ q k (k1_pay1 (F := Ideal)) (k1_pay2 (F := Ideal))) (ix2 r (0 : Fin 1)) = _
  rw [pay4_eq, pay13_at, reset_p11 qi ki hqi hki q k qr kr hq hk r M hle hex, pay2_at]
  simp only [reset_p12 qi ki hqi hki q k qr kr hq hk r M hle hex, zero_mul, zero_add, sum_coe]

include hqi hki hq hk hv hle hex in
theorem reset_acc (h : Fin 64) :
    (upd (F := Ideal) (BitVec.ofNat 32 qi) (BitVec.ofNat 32 ki) q k v (k1_pay1 (F := Ideal)) (k1_pay2 (F := Ideal)) (k1_pay3 (F := Ideal))).2.2 (ix2 r h) = ((∑ u, gw qi ki qr kr r M u * vr u h : ℝ) : EReal) := by
  show k1_pay5 (k1_pay8 v) (k1_pay11 _ _ q k (k1_pay1 (F := Ideal))) (k1_pay12 _ _ q k (k1_pay1 (F := Ideal))) (k1_pay3 (F := Ideal)) (ix2 r h) = _
  rw [pay5_at, reset_p11 qi ki hqi hki q k qr kr hq hk r M hle hex, pay3_at]
  simp only [reset_p12 qi ki hqi hki q k qr kr hq hk r M hle hex, pay8_at, hv, zero_mul, zero_add, sum_coe_mul_coe]

/-! ### From real accumulators -/

variable (sm sl : Vec Ideal S1024x1 .f32) (sacc : Vec Ideal S1024x64 .f32) (M1 L1 : ℝ) (A1 : Fin 64 → ℝ)
  (hsm : sm (ix2 r (0 : Fin 1)) = ((M1 : ℝ) : EReal)) (hsl : sl (ix2 r (0 : Fin 1)) = ((L1 : ℝ) : EReal))
  (hsacc : ∀ h, sacc (ix2 r h) = ((A1 h : ℝ) : EReal))

include hqi hki hq hk hle hex hsm in
theorem cont_p10 : k1_pay10 (F := Ideal) (BitVec.ofNat 32 qi) (BitVec.ofNat 32 ki) q k sm (ix2 r (0 : Fin 1)) = ((max M1 M : ℝ) : EReal) := by
  rw [pay10_at, hsm, fold_pay9 qi ki hqi hki q k qr kr hq hk r M hle hex, max_coe_coe]

include hqi hki hq hk hle hex hsm in
theorem cont_p11 : k1_pay11 (F := Ideal) (BitVec.ofNat 32 qi) (BitVec.ofNat 32 ki) q k sm (ix2 r (0 : Fin 1)) = ((Real.exp (M1 - max M1 M) : ℝ) : EReal) := by
  rw [pay11_at, cont_p10 qi ki hqi hki q k qr kr hq hk r M hle hex sm M1 hsm, hsm, exp_coe_sub]

include hqi hki hq hk hle hex hsm in
theorem cont_p12 (u : Fin 1024) : k1_pay12 (F := Ideal) (BitVec.ofNat 32 qi) (BitVec.ofNat 32 ki) q k sm (ix2 r u) = ((gw qi ki qr kr r (max M1 M) u : ℝ) : EReal) := by
  rw [pay12_at, cont_p10 qi ki hqi hki q k qr kr hq hk r M hle hex sm M1 hsm, pay9_real qi ki hqi hki q k qr kr hq hk r u]
  exact exp_msk_sub (fun u : Fin 1024 => 1024 * ki + u.val ≤ 1024 * qi + r.val) (tsc qr kr r) (max M1 M) u

include hqi hki hq hk hle hex hsm hsl in
theorem cont_l :
    (upd (F := Ideal) (BitVec.ofNat 32 qi) (BitVec.ofNat 32 ki) q k v sm sl sacc).2.1 (ix2 r (0 : Fin 1))
      = ((Real.exp (M1 - max M1 M) * L1 + ∑ u, gw qi ki qr kr r (max M1 M) u : ℝ) : EReal) := by
  show k1_pay4 (k1_pay13 _ _ q k sm sl) (ix2 r (0 : Fin 1)) = _
  rw [pay4_eq, pay13_at, cont_p11 qi ki hqi hki q k qr kr hq hk r M hle hex sm M1 hsm, hsl]
  simp only [cont_p12 qi ki hqi hki q k qr kr hq hk r M hle hex sm M1 hsm, zero_add, sum_coe]
  rw [← EReal.coe_mul, ← EReal.coe_add]

include hqi hki hq hk hv hle hex hsm hsacc in
theorem cont_acc (h : Fin 64) :
    (upd (F := Ideal) (BitVec.ofNat 32 qi) (BitVec.ofNat 32 ki) q k v sm sl sacc).2.2 (ix2 r h)
      = ((Real.exp (M1 - max M1 M) * A1 h + ∑ u, gw qi ki qr kr r (max M1 M) u * vr u h : ℝ) : EReal) := by
  show k1_pay5 (k1_pay8 v) (k1_pay11 _ _ q k sm) (k1_pay12 _ _ q k sm) sacc (ix2 r h) = _
  rw [pay5_at, cont_p11 qi ki hqi hki q k qr kr hq hk r M hle hex sm M1 hsm, hsacc]
  simp only [cont_p12 qi ki hqi hki q k qr kr hq hk r M hle hex sm M1 hsm, pay8_at, hv, sum_coe_mul_coe]
  rw [← EReal.coe_mul, ← EReal.coe_add]

end Step

end Cert.KernelIdeal.Gen.Hand

end
-- ==== Proof.FlashGrid.lean ====
/-
  The attention region's grid read as arithmetic: point `t` of the 32 is batch `t / 4`, query tile `(t / 2) % 2`, key
  tile `t % 2`; the query and output blocks sit at rows `1024 · (query tile) + r` of their batch, the key and value
  blocks at rows `1024 · min (key tile) (query tile) + u`. Each block entry is read off its array at that row.
-/
import proofs.«126090_j73151882985755_2_alg».proof.Proof.FlashData
import Idealize.ShloMosaic.Lib.Pipeline.Value
import Idealize.ShloMosaic.Lib.ValueIdx

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The batch, query tile and key tile of a point. -/
def bOf (t : Fin cfg1.N) : Fin 8 := ⟨t.val / 4, by have := lt_of_lt_of_eq t.isLt (show cfg1.N = 32 from N_1); omega⟩
def qiOf (t : Fin cfg1.N) : ℕ := (t.val / 2) % 2
def kiOf (t : Fin cfg1.N) : ℕ := t.val % 2

/-- Row `r` of tile `j`. -/
def rowOf (j : ℕ) (hj : j < 2) (r : Fin 1024) : Fin 2048 := ⟨1024 * j + r.val, by have := r.isLt; omega⟩

theorem qiOf_lt (t : Fin cfg1.N) : qiOf t < 2 := Nat.mod_lt _ (by decide)
theorem kiOf_lt (t : Fin cfg1.N) : kiOf t < 2 := Nat.mod_lt _ (by decide)

/-- The grid coordinates and the printed index maps, decided over the 32 points. -/
theorem coords_facts : ∀ t : Fin cfg1.N, (grid1.coords t 1).val = (t.val / 2) % 2 ∧ (grid1.coords t 2).val = t.val % 2 :=
  (by decide +kernel : ∀ t : Fin grid1.N, (grid1.coords t 1).val = (t.val / 2) % 2 ∧ (grid1.coords t 2).val = t.val % 2)

theorem idx_facts : ∀ t : Fin cfg1.N,
    win1_0.index t (0 : Fin 3) = t.val / 4 ∧ win1_0.index t (1 : Fin 3) = (t.val / 2) % 2 ∧ win1_0.index t (2 : Fin 3) = 0
    ∧ win1_1.index t (0 : Fin 3) = t.val / 4 ∧ win1_1.index t (1 : Fin 3) = min (t.val % 2) ((t.val / 2) % 2) ∧ win1_1.index t (2 : Fin 3) = 0
    ∧ win1_2.index t (0 : Fin 3) = t.val / 4 ∧ win1_2.index t (1 : Fin 3) = min (t.val % 2) ((t.val / 2) % 2) ∧ win1_2.index t (2 : Fin 3) = 0
    ∧ win1_3.index t (0 : Fin 3) = t.val / 4 ∧ win1_3.index t (1 : Fin 3) = (t.val / 2) % 2 ∧ win1_3.index t (2 : Fin 3) = 0 :=
  (by decide +kernel : ∀ t : Fin grid1.N, _)

theorem wq1_eq (t : Fin cfg1.N) : BitVec.ofNat 32 (grid1.coords t 1).val = BitVec.ofNat 32 (qiOf t) := by
  rw [(coords_facts t).1]; rfl
theorem wk1_eq (t : Fin cfg1.N) : BitVec.ofNat 32 (grid1.coords t 2).val = BitVec.ofNat 32 (kiOf t) := by
  rw [(coords_facts t).2]; rfl

/-- The query block's entry `(r, h)` is the query array's entry at the batch and row of the point. -/
theorem qblk_read (c : Dev nD) (t : Fin cfg1.N) (r : Fin 1024) (h : Fin 64) :
    iblk1 V c 0 t (ix3 (0 : Fin 1) r h) = V c main_v4 (ix3 (bOf t) (rowOf (qiOf t) (qiOf_lt t) r) h) := by
  unfold iblk1
  rw [View.read_apply]
  show V c main_v4 _ = V c main_v4 _
  refine congrArg (V c main_v4) ?_
  obtain ⟨e0, e1, e2, -⟩ := idx_facts t
  funext a; apply Fin.ext
  match a with
  | ⟨0, _⟩ => show win1_0.index t (0 : Fin 3) * 1 + 1 * 0 = t.val / 4; omega
  | ⟨1, _⟩ => show win1_0.index t (1 : Fin 3) * 1024 + 1 * r.val = 1024 * ((t.val / 2) % 2) + r.val; omega
  | ⟨2, _⟩ => show win1_0.index t (2 : Fin 3) * 64 + 1 * h.val = h.val; omega

/-- The key block's entry `(u, h)`: the key array at the batch and at row `u` of tile `min (key tile) (query tile)`. -/
theorem kblk_read (c : Dev nD) (t : Fin cfg1.N) (u : Fin 1024) (h : Fin 64) :
    iblk1 V c 1 t (ix3 (0 : Fin 1) u h) = V c main_v6 (ix3 (bOf t) (rowOf (min (kiOf t) (qiOf t)) (lt_of_le_of_lt (min_le_left _ _) (kiOf_lt t)) u) h) := by
  unfold iblk1
  rw [View.read_apply]
  show V c main_v6 _ = V c main_v6 _
  refine congrArg (V c main_v6) ?_
  obtain ⟨-, -, -, e0, e1, e2, -⟩ := idx_facts t
  funext a; apply Fin.ext
  match a with
  | ⟨0, _⟩ => show win1_1.index t (0 : Fin 3) * 1 + 1 * 0 = t.val / 4; omega
  | ⟨1, _⟩ => show win1_1.index t (1 : Fin 3) * 1024 + 1 * u.val = 1024 * (min (t.val % 2) ((t.val / 2) % 2)) + u.val; omega
  | ⟨2, _⟩ => show win1_1.index t (2 : Fin 3) * 64 + 1 * h.val = h.val; omega

theorem vblk_read (c : Dev nD) (t : Fin cfg1.N) (u : Fin 1024) (h : Fin 64) :
    iblk1 V c 2 t (ix3 (0 : Fin 1) u h) = V c main_v8 (ix3 (bOf t) (rowOf (min (kiOf t) (qiOf t)) (lt_of_le_of_lt (min_le_left _ _) (kiOf_lt t)) u) h) := by
  unfold iblk1
  rw [View.read_apply]
  show V c main_v8 _ = V c main_v8 _
  refine congrArg (V c main_v8) ?_
  obtain ⟨-, -, -, -, -, -, e0, e1, e2, -⟩ := idx_facts t
  funext a; apply Fin.ext
  match a with
  | ⟨0, _⟩ => show win1_2.index t (0 : Fin 3) * 1 + 1 * 0 = t.val / 4; omega
  | ⟨1, _⟩ => show win1_2.index t (1 : Fin 3) * 1024 + 1 * u.val = 1024 * (min (t.val % 2) ((t.val / 2) % 2)) + u.val; omega
  | ⟨2, _⟩ => show win1_2.index t (2 : Fin 3) * 64 + 1 * h.val = h.val; omega

end Cert.KernelIdeal.Gen.Hand

end
-- ==== Proof.TileMath.lean ====
/-
  The online softmax over two key tiles is the softmax. A row of 2048 scores is cut into two tiles of 1024 keys. For a
  query in the first tile only the first key tile contributes; for a query in the second tile the first key tile is
  accumulated whole against its own maximum, then rescaled by exp (M₁ - M₂) when the second tile raises the maximum to
  M₂. Either way numerator / denominator is the causal softmax-weighted sum of the specification. Over the reals;
  nothing here mentions a program.
-/
import proofs.«126090_j73151882985755_2_alg».proof.Proof.Spec

noncomputable section

namespace Cert.Attn

open Finset

/-- Key `u'` of the first tile, and of the second, as keys of the whole row. -/
def k0 (u : Fin 1024) : Fin 2048 := ⟨u.val, by have := u.isLt; omega⟩
def k1 (u : Fin 1024) : Fin 2048 := ⟨1024 + u.val, by have := u.isLt; omega⟩

theorem k0_le_k0 {u r : Fin 1024} : k0 u ≤ k0 r ↔ u ≤ r := by
  rw [Fin.le_def, Fin.le_def]; exact Iff.rfl
theorem k1_le_k1 {u r : Fin 1024} : k1 u ≤ k1 r ↔ u ≤ r := by
  rw [Fin.le_def, Fin.le_def]; show 1024 + u.val ≤ 1024 + r.val ↔ u.val ≤ r.val; omega
theorem k0_le_k1 (u r : Fin 1024) : k0 u ≤ k1 r := by
  rw [Fin.le_def]; show u.val ≤ 1024 + r.val; have := u.isLt; omega
theorem not_k1_le_k0 (u r : Fin 1024) : ¬ k1 u ≤ k0 r := by
  rw [Fin.le_def]; show ¬ (1024 + u.val ≤ r.val); have := r.isLt; omega

/-- Every key is in one of the two tiles. -/
theorem key_cases (u : Fin 2048) : (∃ u', u = k0 u') ∨ (∃ u', u = k1 u') := by
  by_cases h : u.val < 1024
  · exact Or.inl ⟨⟨u.val, h⟩, Fin.ext rfl⟩
  · exact Or.inr ⟨⟨u.val - 1024, by have := u.isLt; omega⟩, Fin.ext (by simp [k1]; omega)⟩

/-- A sum over the row is the sum over the first tile plus the sum over the second. -/
theorem sum_tiles (f : Fin 2048 → ℝ) : ∑ u, f u = ∑ u' : Fin 1024, f (k0 u') + ∑ u' : Fin 1024, f (k1 u') := by
  have h := Fin.sum_univ_add (a := 1024) (b := 1024) (fun i : Fin (1024 + 1024) => f i)
  exact h

/-- A number that bounds the causal scores and is one of them is the row maximum. -/
theorem eq_rowMax (s : Fin 2048 → ℝ) (t : Fin 2048) (M : ℝ) (hle : ∀ u, u ≤ t → s u ≤ M) (hex : ∃ u, u ≤ t ∧ M = s u) :
    M = rowMax s t := by
  obtain ⟨u, hu, rfl⟩ := hex
  exact le_antisymm (le_rowMax s hu) (Finset.sup'_le _ _ fun v hv => hle v (Finset.mem_Iic.1 hv))

/-- The weights of one tile against a maximum `M`, the keys `u' ≤ r` kept. -/
def tw (sc : Fin 1024 → ℝ) (r : Fin 1024) (M : ℝ) (u : Fin 1024) : ℝ := if u ≤ r then Real.exp (sc u - M) else 0

/-- The maximum over the kept keys `u' ≤ r` of one tile. -/
def tmaxLe (sc : Fin 1024 → ℝ) (r : Fin 1024) : ℝ := (Finset.Iic r).sup' ⟨r, Finset.mem_Iic.2 le_rfl⟩ sc
/-- The maximum over a whole tile. -/
def tmaxAll (sc : Fin 1024 → ℝ) : ℝ := Finset.univ.sup' ⟨0, Finset.mem_univ _⟩ sc

theorem le_tmaxLe (sc : Fin 1024 → ℝ) {r u : Fin 1024} (h : u ≤ r) : sc u ≤ tmaxLe sc r := Finset.le_sup' sc (Finset.mem_Iic.2 h)
theorem exists_tmaxLe (sc : Fin 1024 → ℝ) (r : Fin 1024) : ∃ u, u ≤ r ∧ tmaxLe sc r = sc u := by
  obtain ⟨u, hu, h⟩ := Finset.exists_mem_eq_sup' ⟨r, Finset.mem_Iic.2 le_rfl⟩ sc
  exact ⟨u, Finset.mem_Iic.1 hu, h⟩
theorem le_tmaxAll (sc : Fin 1024 → ℝ) (u : Fin 1024) : sc u ≤ tmaxAll sc := Finset.le_sup' sc (Finset.mem_univ u)
theorem exists_tmaxAll (sc : Fin 1024 → ℝ) : ∃ u, tmaxAll sc = sc u := by
  obtain ⟨u, _, h⟩ := Finset.exists_mem_eq_sup' ⟨0, Finset.mem_univ _⟩ sc
  exact ⟨u, h⟩

theorem tw_nonneg (sc : Fin 1024 → ℝ) (r : Fin 1024) (M : ℝ) (u : Fin 1024) : 0 ≤ tw sc r M u := by
  unfold tw; split_ifs
  · exact (Real.exp_pos _).le
  · exact le_rfl

/-- The kept weights sum to something positive: the key `r` itself is kept. -/
theorem sum_tw_pos (sc : Fin 1024 → ℝ) (r : Fin 1024) (M : ℝ) : 0 < ∑ u, tw sc r M u :=
  lt_of_lt_of_le (by unfold tw; rw [if_pos le_rfl]; exact Real.exp_pos _)
    (Finset.single_le_sum (fun u _ => tw_nonneg sc r M u) (Finset.mem_univ r))

theorem sum_exp_pos (sc : Fin 1024 → ℝ) (M : ℝ) : 0 < ∑ u : Fin 1024, Real.exp (sc u - M) :=
  Finset.sum_pos (fun u _ => Real.exp_pos _) ⟨0, Finset.mem_univ _⟩

/-- A QUERY IN THE FIRST TILE: one key tile, numerator over denominator, is the specification's row. -/
theorem first_tile_row (s v : Fin 2048 → ℝ) (r : Fin 1024) :
    (∑ u', tw (fun u => s (k0 u)) r (tmaxLe (fun u => s (k0 u)) r) u' * v (k0 u')) / (∑ u', tw (fun u => s (k0 u)) r (tmaxLe (fun u => s (k0 u)) r) u')
      = attnRow s v (k0 r) := by
  have hM : tmaxLe (fun u => s (k0 u)) r = rowMax s (k0 r) := by
    apply eq_rowMax
    · intro u hu
      rcases key_cases u with ⟨u', rfl⟩ | ⟨u', rfl⟩
      · exact le_tmaxLe (fun u => s (k0 u)) (k0_le_k0.1 hu)
      · exact absurd hu (not_k1_le_k0 u' r)
    · obtain ⟨u', hu', h⟩ := exists_tmaxLe (fun u => s (k0 u)) r
      exact ⟨k0 u', k0_le_k0.2 hu', h⟩
  have hw0 : ∀ u', wgt s (k0 r) (k0 u') = tw (fun u => s (k0 u)) r (tmaxLe (fun u => s (k0 u)) r) u' := fun u' => by
    unfold wgt tw; rw [hM]; simp only [k0_le_k0]
  have hw1 : ∀ u', wgt s (k0 r) (k1 u') = 0 := fun u' => by
    unfold wgt; rw [if_neg (not_k1_le_k0 u' r)]
  unfold attnRow
  rw [sum_tiles (fun u => wgt s (k0 r) u / (∑ u', wgt s (k0 r) u') * v u), sum_tiles (fun u => wgt s (k0 r) u)]
  simp only [hw0, hw1, zero_div, zero_mul, Finset.sum_const_zero, add_zero]
  rw [Finset.sum_div]
  exact Finset.sum_congr rfl fun u' _ => by ring

/-- A QUERY IN THE SECOND TILE: the first key tile accumulated against its own maximum `M₁` and rescaled by
    `exp (M₁ - M₂)`, the second key tile against `M₂ = max M₁ (its kept maximum)`: numerator over denominator is the
    specification's row. -/
theorem second_tile_row (s v : Fin 2048 → ℝ) (r : Fin 1024) :
    let s0 : Fin 1024 → ℝ := fun u => s (k0 u)
    let s1 : Fin 1024 → ℝ := fun u => s (k1 u)
    let M1 := tmaxAll s0
    let M2 := max M1 (tmaxLe s1 r)
    (Real.exp (M1 - M2) * (∑ u', Real.exp (s0 u' - M1) * v (k0 u')) + ∑ u', tw s1 r M2 u' * v (k1 u'))
        / (Real.exp (M1 - M2) * (∑ u', Real.exp (s0 u' - M1)) + ∑ u', tw s1 r M2 u')
      = attnRow s v (k1 r) := by
  intro s0 s1 M1 M2
  have hM : M2 = rowMax s (k1 r) := by
    apply eq_rowMax
    · intro u hu
      rcases key_cases u with ⟨u', rfl⟩ | ⟨u', rfl⟩
      · exact (le_tmaxAll s0 u').trans (le_max_left _ _)
      · exact (le_tmaxLe s1 (k1_le_k1.1 hu)).trans (le_max_right _ _)
    · rcases max_cases M1 (tmaxLe s1 r) with ⟨h, _⟩ | ⟨h, _⟩
      · obtain ⟨u', hu'⟩ := exists_tmaxAll s0
        exact ⟨k0 u', k0_le_k1 u' r, h.trans hu'⟩
      · obtain ⟨u', hu', h'⟩ := exists_tmaxLe s1 r
        exact ⟨k1 u', k1_le_k1.2 hu', h.trans h'⟩
  have hw0 : ∀ u', wgt s (k1 r) (k0 u') = Real.exp (M1 - M2) * Real.exp (s0 u' - M1) := fun u' => by
    unfold wgt; rw [if_pos (k0_le_k1 u' r), ← hM, ← Real.exp_add]; congr 1; ring
  have hw1 : ∀ u', wgt s (k1 r) (k1 u') = tw s1 r M2 u' := fun u' => by
    unfold wgt tw; rw [← hM]; simp only [k1_le_k1]; rfl
  unfold attnRow
  rw [sum_tiles (fun u => wgt s (k1 r) u / (∑ u', wgt s (k1 r) u') * v u), sum_tiles (fun u => wgt s (k1 r) u)]
  simp only [hw0, hw1]
  rw [← Finset.mul_sum, add_div, Finset.mul_sum, Finset.sum_div, Finset.sum_div]
  congr 1
  · exact Finset.sum_congr rfl fun u' _ => by ring
  · exact Finset.sum_congr rfl fun u' _ => by ring

end Cert.Attn

end
-- ==== Proof.FlashValue.lean ====
/-
  The attention region's output array, index by index: when the query, key and value arrays the region finds are
  coercions of real arrays, the array after the region's last point holds at (b, t, h) the coercion of the causal
  softmax-weighted sum of the specification. A point with the last key tile writes one block: for a query in the first
  tile the quotient of the accumulators the first key tile left; for a query in the second tile the quotient after the
  diagonal tile's update of what the first key tile left.
-/
import proofs.«126090_j73151882985755_2_alg».proof.Proof.FlashStep
import proofs.«126090_j73151882985755_2_alg».proof.Proof.FlashGrid
import proofs.«126090_j73151882985755_2_alg».proof.Proof.TileMath

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn

variable (V : (c : Dev nD) → (b : Ref sig .tc) → Buf (Elt Ideal) ((c : Thread nD τ).loc b)) (c : Dev nD)
  (Q K W : Fin 8 → Fin 2048 → Fin 64 → ℝ)
  (hQ : ∀ b t h, V c main_v4 (ix3 b t h) = ((Q b t h : ℝ) : EReal))
  (hK : ∀ b t h, V c main_v6 (ix3 b t h) = ((K b t h : ℝ) : EReal))
  (hW : ∀ b t h, V c main_v8 (ix3 b t h) = ((W b t h : ℝ) : EReal))

/-- The specification's value at an index of the output array. -/
def G (Q K W : Fin 8 → Fin 2048 → Fin 64 → ℝ) : S8x2048x64.Idx → EReal :=
  fun i => ((attnRow (fun u => score Q K (i 0) (i 1) u) (fun u => W (i 0) u (i 2)) (i 1) : ℝ) : EReal)

theorem rowOf_zero (h : 0 < 2) (r : Fin 1024) : rowOf 0 h r = k0 r := Fin.ext (by show 1024 * 0 + r.val = r.val; omega)
theorem rowOf_one (h : 1 < 2) (r : Fin 1024) : rowOf 1 h r = k1 r := Fin.ext (by show 1024 * 1 + r.val = 1024 + r.val; omega)
theorem rowOf_congr (j j' : ℕ) (hj : j < 2) (hj' : j' < 2) (e : j = j') (r : Fin 1024) : rowOf j hj r = rowOf j' hj' r := by subst e; rfl

/-- The predecessor of a point that is not the first. -/
def prev (t : Fin cfg1.N) : Fin cfg1.N := ⟨t.val - 1, Nat.lt_of_le_of_lt (Nat.sub_le _ _) t.isLt⟩

include hQ hK hW in
/-- A QUERY TILE 0 POINT WITH THE LAST KEY TILE writes the specification's rows of its batch. -/
theorem out_B (t : Fin cfg1.N) (h1 : t.val % 4 = 1) (r : Fin 1024) (h : Fin 64) :
    (outsAt1 V c t.val t.isLt).1 (ix3 (0 : Fin 1) r h) = G Q K W (ix3 (bOf t) (k0 r) h) := by
  have hN : t.val < 32 := lt_of_lt_of_eq t.isLt (show cfg1.N = 32 from N_1)
  have hp : (prev t).val % 2 = 0 := by show (t.val - 1) % 2 = 0; omega
  have hb : bOf (prev t) = bOf t := Fin.ext (by show (t.val - 1) / 4 = t.val / 4; omega)
  have hqi : qiOf (prev t) = 0 := by show ((t.val - 1) / 2) % 2 = 0; omega
  have hki : kiOf (prev t) = 0 := by show (t.val - 1) % 2 = 0; omega
  rw [outsAt1_B V c t h1, stB_out, pay7_at]
  rw [show outsAt1 V c (t.val - 1) _ = outsAt1 V c (prev t).val (prev t).isLt from rfl, outsAt1_A V c (prev t) hp, stA_l, stA_acc]
  -- the blocks of the point before, as real blocks
  set qr : Fin 1024 → Fin 64 → ℝ := fun r h => Q (bOf t) (k0 r) h with hqr
  set kr : Fin 1024 → Fin 64 → ℝ := fun u h => K (bOf t) (k0 u) h with hkr
  set vr : Fin 1024 → Fin 64 → ℝ := fun u h => W (bOf t) (k0 u) h with hvr
  have hq : ∀ r h, iblk1 V c 0 (prev t) (ix3 (0 : Fin 1) r h) = ((qr r h : ℝ) : EReal) := fun r h => by
    rw [qblk_read, hQ, hb, rowOf_congr _ 0 _ (by decide) hqi, rowOf_zero]
  have hk : ∀ u h, iblk1 V c 1 (prev t) (ix3 (0 : Fin 1) u h) = ((kr u h : ℝ) : EReal) := fun u h => by
    rw [kblk_read, hK, hb, rowOf_congr _ 0 _ (by decide) (by rw [hqi, hki]; rfl), rowOf_zero]
  have hv : ∀ u h, iblk1 V c 2 (prev t) (ix3 (0 : Fin 1) u h) = ((vr u h : ℝ) : EReal) := fun u h => by
    rw [vblk_read, hW, hb, rowOf_congr _ 0 _ (by decide) (by rw [hqi, hki]; rfl), rowOf_zero]
  rw [show wq1 (prev t) = BitVec.ofNat 32 0 from (wq1_eq (prev t)).trans (by rw [hqi]),
    show wk1 (prev t) = BitVec.ofNat 32 0 from (wk1_eq (prev t)).trans (by rw [hki])]
  -- the row's scores and their kept maximum
  set s : Fin 2048 → ℝ := fun u => score Q K (bOf t) (k0 r) u with hs
  have hsc : ∀ u, tsc qr kr r u = s (k0 u) := fun u => rfl
  have hle : ∀ u : Fin 1024, 1024 * 0 + u.val ≤ 1024 * 0 + r.val → tsc qr kr r u ≤ tmaxLe (fun u => s (k0 u)) r :=
    fun u hu => le_tmaxLe (fun u => s (k0 u)) (Fin.le_def.2 (by omega))
  have hex : ∃ u : Fin 1024, 1024 * 0 + u.val ≤ 1024 * 0 + r.val ∧ tmaxLe (fun u => s (k0 u)) r = tsc qr kr r u := by
    obtain ⟨u, hu, e⟩ := exists_tmaxLe (fun u => s (k0 u)) r
    exact ⟨u, by have := Fin.le_def.1 hu; omega, e⟩
  rw [reset_acc 0 0 (by decide) (by decide) _ _ _ qr kr vr hq hk hv r _ hle hex h,
    reset_l 0 0 (by decide) (by decide) _ _ _ qr kr hq hk r _ hle hex]
  have hgw : ∀ u, gw 0 0 qr kr r (tmaxLe (fun u => s (k0 u)) r) u = tw (fun u => s (k0 u)) r (tmaxLe (fun u => s (k0 u)) r) u := fun u => by
    unfold gw tw
    exact if_congr ⟨fun hu => Fin.le_def.2 (by omega), fun hu => by have := Fin.le_def.1 hu; omega⟩ rfl rfl
  simp only [hgw]
  rw [div_coe_coe _ (sum_tw_pos _ r _).ne']
  unfold G
  rw [show ((ix3 (bOf t) (k0 r) h : S8x2048x64.Idx) 0) = bOf t from rfl, show ((ix3 (bOf t) (k0 r) h : S8x2048x64.Idx) 1) = k0 r from rfl,
    show ((ix3 (bOf t) (k0 r) h : S8x2048x64.Idx) 2) = h from rfl]
  exact congrArg _ (first_tile_row s (fun u => W (bOf t) u h) r)

include hQ hK hW in
/-- A QUERY TILE 1 POINT WITH THE DIAGONAL (LAST) KEY TILE writes the specification's rows of its batch. -/
theorem out_D (t : Fin cfg1.N) (h3 : t.val % 4 = 3) (r : Fin 1024) (h : Fin 64) :
    (outsAt1 V c t.val t.isLt).1 (ix3 (0 : Fin 1) r h) = G Q K W (ix3 (bOf t) (k1 r) h) := by
  have hN : t.val < 32 := lt_of_lt_of_eq t.isLt (show cfg1.N = 32 from N_1)
  have hp : (prev t).val % 2 = 0 := by show (t.val - 1) % 2 = 0; omega
  have hb : bOf (prev t) = bOf t := Fin.ext (by show (t.val - 1) / 4 = t.val / 4; omega)
  have hqi' : qiOf (prev t) = 1 := by show ((t.val - 1) / 2) % 2 = 1; omega
  have hki' : kiOf (prev t) = 0 := by show (t.val - 1) % 2 = 0; omega
  have hqi : qiOf t = 1 := by show (t.val / 2) % 2 = 1; omega
  have hki : kiOf t = 1 := by show t.val % 2 = 1; omega
  rw [outsAt1_D V c t h3, stD_out, pay7_at]
  rw [show outsAt1 V c (t.val - 1) _ = outsAt1 V c (prev t).val (prev t).isLt from rfl, outsAt1_A V c (prev t) hp]
  set qr : Fin 1024 → Fin 64 → ℝ := fun r h => Q (bOf t) (k1 r) h with hqr
  set kr0 : Fin 1024 → Fin 64 → ℝ := fun u h => K (bOf t) (k0 u) h with hkr0
  set vr0 : Fin 1024 → Fin 64 → ℝ := fun u h => W (bOf t) (k0 u) h with hvr0
  set kr1 : Fin 1024 → Fin 64 → ℝ := fun u h => K (bOf t) (k1 u) h with hkr1
  set vr1 : Fin 1024 → Fin 64 → ℝ := fun u h => W (bOf t) (k1 u) h with hvr1
  -- the blocks of the point before (first key tile) and of this point (diagonal tile), as real blocks
  have hq' : ∀ r h, iblk1 V c 0 (prev t) (ix3 (0 : Fin 1) r h) = ((qr r h : ℝ) : EReal) := fun r h => by
    rw [qblk_read, hQ, hb, rowOf_congr _ 1 _ (by decide) hqi', rowOf_one]
  have hk' : ∀ u h, iblk1 V c 1 (prev t) (ix3 (0 : Fin 1) u h) = ((kr0 u h : ℝ) : EReal) := fun u h => by
    rw [kblk_read, hK, hb, rowOf_congr _ 0 _ (by decide) (by rw [hqi', hki']; rfl), rowOf_zero]
  have hv' : ∀ u h, iblk1 V c 2 (prev t) (ix3 (0 : Fin 1) u h) = ((vr0 u h : ℝ) : EReal) := fun u h => by
    rw [vblk_read, hW, hb, rowOf_congr _ 0 _ (by decide) (by rw [hqi', hki']; rfl), rowOf_zero]
  have hq : ∀ r h, iblk1 V c 0 t (ix3 (0 : Fin 1) r h) = ((qr r h : ℝ) : EReal) := fun r h => by
    rw [qblk_read, hQ, rowOf_congr _ 1 _ (by decide) hqi, rowOf_one]
  have hk : ∀ u h, iblk1 V c 1 t (ix3 (0 : Fin 1) u h) = ((kr1 u h : ℝ) : EReal) := fun u h => by
    rw [kblk_read, hK, rowOf_congr _ 1 _ (by decide) (by rw [hqi, hki]; rfl), rowOf_one]
  have hv : ∀ u h, iblk1 V c 2 t (ix3 (0 : Fin 1) u h) = ((vr1 u h : ℝ) : EReal) := fun u h => by
    rw [vblk_read, hW, rowOf_congr _ 1 _ (by decide) (by rw [hqi, hki]; rfl), rowOf_one]
  set s : Fin 2048 → ℝ := fun u => score Q K (bOf t) (k1 r) u with hs
  set M1 : ℝ := tmaxAll (fun u => s (k0 u)) with hM1
  set M : ℝ := tmaxLe (fun u => s (k1 u)) r with hM
  -- the first key tile, every key kept
  have hle' : ∀ u : Fin 1024, 1024 * 0 + u.val ≤ 1024 * 1 + r.val → tsc qr kr0 r u ≤ M1 := fun u _ => le_tmaxAll (fun u => s (k0 u)) u
  have hex' : ∃ u : Fin 1024, 1024 * 0 + u.val ≤ 1024 * 1 + r.val ∧ M1 = tsc qr kr0 r u := by
    obtain ⟨u, e⟩ := exists_tmaxAll (fun u => s (k0 u))
    exact ⟨u, by have := u.isLt; omega, e⟩
  have hgw' : ∀ u, gw 1 0 qr kr0 r M1 u = Real.exp (s (k0 u) - M1) := fun u => by
    unfold gw; rw [if_pos (by have := u.isLt; omega)]; rfl
  have hsm : (stA V c (prev t) hp).2.1 (ix2 r (0 : Fin 1)) = ((M1 : ℝ) : EReal) := by
    rw [stA_m, show wq1 (prev t) = BitVec.ofNat 32 1 from (wq1_eq (prev t)).trans (by rw [hqi']),
      show wk1 (prev t) = BitVec.ofNat 32 0 from (wk1_eq (prev t)).trans (by rw [hki'])]
    exact reset_m 1 0 (by decide) (by decide) _ _ _ qr kr0 hq' hk' r M1 hle' hex'
  have hsl : (stA V c (prev t) hp).2.2.1 (ix2 r (0 : Fin 1)) = ((∑ u, Real.exp (s (k0 u) - M1) : ℝ) : EReal) := by
    rw [stA_l, show wq1 (prev t) = BitVec.ofNat 32 1 from (wq1_eq (prev t)).trans (by rw [hqi']),
      show wk1 (prev t) = BitVec.ofNat 32 0 from (wk1_eq (prev t)).trans (by rw [hki'])]
    rw [reset_l 1 0 (by decide) (by decide) _ _ _ qr kr0 hq' hk' r M1 hle' hex']
    simp only [hgw']
  have hsacc : ∀ h, (stA V c (prev t) hp).2.2.2 (ix2 r h) = ((∑ u, Real.exp (s (k0 u) - M1) * W (bOf t) (k0 u) h : ℝ) : EReal) := fun h => by
    rw [stA_acc, show wq1 (prev t) = BitVec.ofNat 32 1 from (wq1_eq (prev t)).trans (by rw [hqi']),
      show wk1 (prev t) = BitVec.ofNat 32 0 from (wk1_eq (prev t)).trans (by rw [hki'])]
    rw [reset_acc 1 0 (by decide) (by decide) _ _ _ qr kr0 vr0 hq' hk' hv' r M1 hle' hex' h]
    simp only [hgw']
    rfl
  -- the diagonal tile, the keys up to the row kept
  have hle : ∀ u : Fin 1024, 1024 * 1 + u.val ≤ 1024 * 1 + r.val → tsc qr kr1 r u ≤ M :=
    fun u hu => le_tmaxLe (fun u => s (k1 u)) (Fin.le_def.2 (by omega))
  have hex : ∃ u : Fin 1024, 1024 * 1 + u.val ≤ 1024 * 1 + r.val ∧ M = tsc qr kr1 r u := by
    obtain ⟨u, hu, e⟩ := exists_tmaxLe (fun u => s (k1 u)) r
    exact ⟨u, by have := Fin.le_def.1 hu; omega, e⟩
  have hgw : ∀ u, gw 1 1 qr kr1 r (max M1 M) u = tw (fun u => s (k1 u)) r (max M1 M) u := fun u => by
    unfold gw tw
    exact if_congr ⟨fun hu => Fin.le_def.2 (by omega), fun hu => by have := Fin.le_def.1 hu; omega⟩ rfl rfl
  rw [show wq1 t = BitVec.ofNat 32 1 from (wq1_eq t).trans (by rw [hqi]),
    show wk1 t = BitVec.ofNat 32 1 from (wk1_eq t).trans (by rw [hki])]
  rw [cont_acc 1 1 (by decide) (by decide) _ _ _ qr kr1 vr1 hq hk hv r M hle hex _ _ _ M1 _ hsm hsacc h,
    cont_l 1 1 (by decide) (by decide) _ _ _ qr kr1 hq hk r M hle hex _ _ _ M1 _ hsm hsl]
  simp only [hgw]
  have hpos : (0 : ℝ) < Real.exp (M1 - max M1 M) * (∑ u, Real.exp (s (k0 u) - M1)) + ∑ u, tw (fun u => s (k1 u)) r (max M1 M) u :=
    add_pos (mul_pos (Real.exp_pos _) (sum_exp_pos _ _)) (sum_tw_pos _ r _)
  rw [div_coe_coe _ hpos.ne']
  unfold G
  rw [show ((ix3 (bOf t) (k1 r) h : S8x2048x64.Idx) 0) = bOf t from rfl, show ((ix3 (bOf t) (k1 r) h : S8x2048x64.Idx) 1) = k1 r from rfl,
    show ((ix3 (bOf t) (k1 r) h : S8x2048x64.Idx) 2) = h from rfl]
  exact congrArg _ (second_tile_row s (fun u => W (bOf t) u h) r)

include hQ hK hW in
/-- WHAT A POINT WITH THE LAST KEY TILE WRITES BACK is its block of the specification. -/
theorem flushed_eq (t : Fin cfg1.N) (hf : (cfg1.win 3).flush t = true) :
    (dat1 V c).flushed 3 t = ((cfg1.win 3).blk t).view.read (Elt Ideal) (G Q K W) := by
  have h1 : t.val % 2 = 1 := (flush1_3 t).mp hf
  show (cfg1.win 3).cut (grid1.coords t) ((dat1 V c).after 3 t) = _
  rw [after1_3]
  funext y
  obtain ⟨z, r, h, rfl⟩ : ∃ (z : Fin 1) (r : Fin 1024) (h : Fin 64), y = ix3 z r h := ⟨y 0, y 1, y 2, eq_ix3 y⟩
  obtain rfl : z = 0 := Subsingleton.elim _ _
  rw [View.read_apply]
  have hidx : ((cfg1.win 3).blk t).view.emb (ix3 (0 : Fin 1) r h) = ix3 (bOf t) (rowOf (qiOf t) (qiOf_lt t) r) h := by
    obtain ⟨-, -, -, -, -, -, -, -, -, e0, e1, e2⟩ := idx_facts t
    funext a; apply Fin.ext
    match a with
    | ⟨0, _⟩ => show win1_3.index t (0 : Fin 3) * 1 + 1 * 0 = t.val / 4; omega
    | ⟨1, _⟩ => show win1_3.index t (1 : Fin 3) * 1024 + 1 * r.val = 1024 * ((t.val / 2) % 2) + r.val; omega
    | ⟨2, _⟩ => show win1_3.index t (2 : Fin 3) * 64 + 1 * h.val = h.val; omega
  rw [hidx]
  show (outsAt1 V c t.val t.isLt).1 (ix3 (0 : Fin 1) r h) = _
  by_cases h4 : t.val % 4 = 1
  · have hqi : qiOf t = 0 := by show (t.val / 2) % 2 = 0; omega
    rw [rowOf_congr _ 0 _ (by decide) hqi, rowOf_zero]
    exact out_B V c Q K W hQ hK hW t h4 r h
  · have h3 : t.val % 4 = 3 := by omega
    have hqi : qiOf t = 1 := by show (t.val / 2) % 2 = 1; omega
    rw [rowOf_congr _ 1 _ (by decide) hqi, rowOf_one]
    exact out_D V c Q K W hQ hK hW t h3 r h

/-- An index of the output array is in point `t`'s block iff each coordinate is in the block's range on its axis. -/
theorem mem_blk3 (t : Fin cfg1.N) (i : S8x2048x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v9).slice (win1_3.rect t)).set ↔ _
  rw [View.set_slice_whole, Rect.mem_set_unit]
  exact Iff.rfl

include hQ hK hW in
/-- THE OUTPUT ARRAY after the region: the specification, index by index. Every index lies in the block of the point
    (its batch, its query tile, the last key tile). -/
theorem attn_final : (dat1 V c).arrAt 3 cfg1.N = G Q K W :=
  (dat1 V c).arrAt_eq_of_cover 3 (G Q K W) (fun t hf => flushed_eq V c Q K W hQ hK hW t hf) fun i => by
    have h0 : (i 0).val < 8 := (i 0).isLt
    have h1 : (i 1).val < 2048 := (i 1).isLt
    have h2 : (i 2).val < 64 := (i 2).isLt
    obtain ⟨t, ht⟩ : ∃ t : Fin cfg1.N, t.val = 4 * (i 0).val + 2 * ((i 1).val / 1024) + 1 :=
      ⟨⟨4 * (i 0).val + 2 * ((i 1).val / 1024) + 1, by rw [show cfg1.N = 32 from N_1]; omega⟩, rfl⟩
    refine ⟨t, (flush1_3 t).mpr (by omega), ?_⟩
    rw [mem_blk3]
    obtain ⟨-, -, -, -, -, -, -, -, -, e0, e1, e2⟩ := idx_facts t
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 1024 ≤ (i 1).val ∧ (i 1).val < win1_3.index t (1 : Fin 3) * 1024 + 1024; omega
    | ⟨2, _⟩ => show win1_3.index t (2 : Fin 3) * 64 ≤ (i 2).val ∧ (i 2).val < win1_3.index t (2 : Fin 3) * 64 + 64; omega

end Cert.KernelIdeal.Gen.Hand

end
-- ==== Proof.Algebraic.lean ====
/-
  The kernel and the reference compute one function.

  Under the finiteness precondition the four argument arrays are arrays of reals. The reference's result is then, index
  by index, the coercion of causal attention of those reals. The kernel's result is the attention region's output array;
  the arrays that region finds are the three projections of the same reals (the projection region's output, cut into its
  column bands), and on those the region leaves the same causal attention. Both runs therefore end with the same array.
-/
import proofs.«126090_j73151882985755_2_alg».proof.Defs
import proofs.«126090_j73151882985755_2_alg».proof.Proof.Frames
import proofs.«126090_j73151882985755_2_alg».proof.Proof.RefValue
import proofs.«126090_j73151882985755_2_alg».proof.Proof.PreReal
import proofs.«126090_j73151882985755_2_alg».proof.Proof.ProjValue
import proofs.«126090_j73151882985755_2_alg».proof.Proof.Gen.Pre_finite_inputs
import proofs.«126090_j73151882985755_2_alg».proof.Proof.FlashValue

set_option maxRecDepth 16384

noncomputable section

namespace Cert.Proof.Claims

open Idealize.ShloMosaic Idealize.ShloMosaic.TcCoe Idealize.SL.Sem
open Cert.KernelIdeal.Gen.Hand

/-- At the ideal instance, from memories agreeing on the arguments, the kernel program's result array and the
    reference program's are the same array: causal attention of the real inputs, coerced. -/
theorem algebraic : Cert.algebraic_KernelIdeal_ReferenceIdeal := by
  intro m ρ m' ρ' hpre hagree
  refine ⟨fun c => (dat1 (V3 m ρ) c).arrAt 3 Cert.KernelIdeal.cfg1.N, run_read (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  obtain ⟨xr, wqr, wkr, wvr, hx, hq, hk, hv⟩ := Cert.PreReal.real_inputs _ _ _ _ (hpre c)
  rw [Cert.ReferenceIdeal.RefValue.result_fun _ _ _ _ xr wqr wkr wvr hx hq hk hv]
  obtain ⟨e4, e6, e8⟩ := qkv_at m ρ c xr wqr wkr wvr hx hq hk hv
  exact (attn_final (V3 m ρ) c (Cert.Attn.proj xr wqr) (Cert.Attn.proj xr wkr) (Cert.Attn.proj xr wvr) e4 e6 e8).symm

end Cert.Proof.Claims

end
-- ==== Proof.lean ====
/-
  Causal single-head attention as two pipelined regions — a fused projection `x · [w_q | w_k | w_v]`, then an online softmax
  over two key tiles per query tile — against the plain program `softmax (mask (q kᵀ / 32)) v`. Both programs run to the end
  and keep their arguments; the kernel's fill constant `-1e30` is read as `-∞`; and on finite inputs, over the extended
  reals, both end with the same array: causal attention of the real inputs, index by index.
-/
import proofs.«126090_j73151882985755_2_alg».proof.Defs
import proofs.«126090_j73151882985755_2_alg».proof.Proof.Gen.Kernel
import proofs.«126090_j73151882985755_2_alg».proof.Proof.Gen.KernelIdeal
import proofs.«126090_j73151882985755_2_alg».proof.Proof.Gen.ReferenceIdeal
import proofs.«126090_j73151882985755_2_alg».proof.Proof.Gen.Pre_finite_inputs
import proofs.«126090_j73151882985755_2_alg».proof.Proof.ClaimsFrames
import proofs.«126090_j73151882985755_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
